-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200000x3 : Shape := ⟨3, ![8, 200000, 3]⟩
abbrev S8x400000x3 : Shape := ⟨3, ![8, 400000, 3]⟩
abbrev S_ : Shape := ⟨0, ![]⟩

class Facts : Prop where
  bcast_S_S8x200000x3 : S_.BroadcastsInDim S8x200000x3 (![] : Fin 0 → Fin S8x200000x3.rank)
  reducesTo_S8x200000x3_S_d0_1_2 : S8x200000x3.ReducesTo [0, 1, 2] S_
  h_S_ : 0 < S_.numel
  bcast_S_S8x400000x3 : S_.BroadcastsInDim S8x400000x3 (![] : Fin 0 → Fin S8x400000x3.rank)
  reducesTo_S8x400000x3_S_d0_1_2 : S8x400000x3.ReducesTo [0, 1, 2] S_

variable [Facts]

def fn {F : FTy → Type} [FloatOps F] (main_arg0 : FVec F S8x200000x3 .f32) (main_arg1 : IVec S8x400000x3 32) : IVec S_ 1 :=
  let main_v0 : FVec F S8x200000x3 .f32 := Host.absf main_arg0
  let main_cst : FVec F S_ .f32 := constant S_ .f32 0x7F800000#32
  let main_v1 : FVec F S8x200000x3 .f32 := broadcastInDim S8x200000x3 ![] bcast_S_S8x200000x3 main_cst
  let main_v2 : IVec S8x200000x3 1 := cmpf .olt main_v0 main_v1
  let main_c : IVec S_ 1 := constantI S_ 1 1#1
  let main_v3 : IVec S_ 1 := (fun x v => Host.reduce IntOp.andi x v reducesTo_S8x200000x3_S_d0_1_2 h_S_) main_v2 main_c
  let main_c_0 : IVec S_ 32 := constantI S_ 32 0#32
  let main_v4 : IVec S8x400000x3 32 := broadcastInDim S8x400000x3 ![] bcast_S_S8x400000x3 main_c_0
  let main_v5 : IVec S8x400000x3 1 := cmpi .sge main_arg1 main_v4
  let main_c_1 : IVec S_ 32 := constantI S_ 32 200000#32
  let main_v6 : IVec S8x400000x3 32 := broadcastInDim S8x400000x3 ![] bcast_S_S8x400000x3 main_c_1
  let main_v7 : IVec S8x400000x3 1 := cmpi .slt main_arg1 main_v6
  let main_v8 : IVec S8x400000x3 1 := andi main_v5 main_v7
  let main_c_2 : IVec S_ 1 := constantI S_ 1 1#1
  let main_v9 : IVec S_ 1 := (fun x v => Host.reduce IntOp.andi x v reducesTo_S8x400000x3_S_d0_1_2 h_S_) main_v8 main_c_2
  let main_v10 : IVec S_ 1 := andi main_v3 main_v9
  main_v10
-- ==== Kernel.lean ====
abbrev S8x200000x3 : Shape := ⟨3, ![8, 200000, 3]⟩
abbrev S8x400000x3 : Shape := ⟨3, ![8, 400000, 3]⟩
abbrev S3x8x200000 : Shape := ⟨3, ![3, 8, 200000]⟩
abbrev S8 : Shape := ⟨1, ![8]⟩
abbrev S8x1 : Shape := ⟨2, ![8, 1]⟩
abbrev S8x400000x1 : Shape := ⟨3, ![8, 400000, 1]⟩
abbrev S8x400000 : Shape := ⟨2, ![8, 400000]⟩
abbrev S_ : Shape := ⟨0, ![]⟩
abbrev S8x400000x2 : Shape := ⟨3, ![8, 400000, 2]⟩
abbrev S3x8x400000 : Shape := ⟨3, ![3, 8, 400000]⟩
abbrev S3x3200000 : Shape := ⟨2, ![3, 3200000]⟩
abbrev S4x3200000 : Shape := ⟨2, ![4, 3200000]⟩
abbrev S3x32000 : Shape := ⟨2, ![3, 32000]⟩
abbrev S4x32000 : Shape := ⟨2, ![4, 32000]⟩
abbrev S32000 : Shape := ⟨1, ![32000]⟩
abbrev S1x32000 : Shape := ⟨2, ![1, 32000]⟩
abbrev S3200000 : Shape := ⟨1, ![3200000]⟩
abbrev S4x1600000 : Shape := ⟨2, ![4, 1600000]⟩
abbrev S3200000x1 : Shape := ⟨2, ![3200000, 1]⟩
abbrev S3x1600000 : Shape := ⟨2, ![3, 1600000]⟩
abbrev S1x1600000 : Shape := ⟨2, ![1, 1600000]⟩
abbrev S1600000x3 : Shape := ⟨2, ![1600000, 3]⟩

abbrev nBuf : Space → Nat
  | .hbm => 130
  | .vmem => 12
  | .smem => 0
  | _ => 0

abbrev hbmTy0_0 (i : Nat) : BufTy := match i % 128 with
  | 0 => ⟨S8x200000x3, .f32⟩
  | 1 => ⟨S8x400000x3, .i32⟩
  | 2 => ⟨S3x8x200000, .f32⟩
  | 3 => ⟨S8, .i32⟩
  | 4 => ⟨S8x1, .i32⟩
  | 5 => ⟨S8x400000x1, .i32⟩
  | 6 => ⟨S8x400000, .i32⟩
  | 7 => ⟨S_, .i32⟩
  | 8 => ⟨S8x1, .i32⟩
  | 9 => ⟨S8x1, .i1⟩
  | 10 => ⟨S_, .i32⟩
  | 11 => ⟨S8x1, .i32⟩
  | 12 => ⟨S8x1, .i32⟩
  | 13 => ⟨S8x1, .i32⟩
  | 14 => ⟨S_, .i32⟩
  | 15 => ⟨S8x400000, .i32⟩
  | 16 => ⟨S8x400000, .i1⟩
  | 17 => ⟨S_, .i32⟩
  | 18 => ⟨S8x400000, .i32⟩
  | 19 => ⟨S8x400000, .i32⟩
  | 20 => ⟨S8x400000, .i32⟩
  | 21 => ⟨S8x400000, .i32⟩
  | 22 => ⟨S8x400000x1, .i32⟩
  | 23 => ⟨S8x400000x1, .i32⟩
  | 24 => ⟨S8x400000x2, .i32⟩
  | 25 => ⟨S3x8x400000, .f32⟩
  | 26 => ⟨S3x3200000, .f32⟩
  | 27 => ⟨S8x400000x1, .i32⟩
  | 28 => ⟨S8x400000, .i32⟩
  | 29 => ⟨S_, .i32⟩
  | 30 => ⟨S8x1, .i32⟩
  | 31 => ⟨S8x1, .i1⟩
  | 32 => ⟨S_, .i32⟩
  | 33 => ⟨S8x1, .i32⟩
  | 34 => ⟨S8x1, .i32⟩
  | 35 => ⟨S8x1, .i32⟩
  | 36 => ⟨S_, .i32⟩
  | 37 => ⟨S8x400000, .i32⟩
  | 38 => ⟨S8x400000, .i1⟩
  | 39 => ⟨S_, .i32⟩
  | 40 => ⟨S8x400000, .i32⟩
  | 41 => ⟨S8x400000, .i32⟩
  | 42 => ⟨S8x400000, .i32⟩
  | 43 => ⟨S8x400000, .i32⟩
  | 44 => ⟨S8x400000x1, .i32⟩
  | 45 => ⟨S8x400000x1, .i32⟩
  | 46 => ⟨S8x400000x2, .i32⟩
  | 47 => ⟨S3x8x400000, .f32⟩
  | 48 => ⟨S3x3200000, .f32⟩
  | 49 => ⟨S8x400000x1, .i32⟩
  | 50 => ⟨S8x400000, .i32⟩
  | 51 => ⟨S_, .i32⟩
  | 52 => ⟨S8x1, .i32⟩
  | 53 => ⟨S8x1, .i1⟩
  | 54 => ⟨S_, .i32⟩
  | 55 => ⟨S8x1, .i32⟩
  | 56 => ⟨S8x1, .i32⟩
  | 57 => ⟨S8x1, .i32⟩
  | 58 => ⟨S_, .i32⟩
  | 59 => ⟨S8x400000, .i32⟩
  | 60 => ⟨S8x400000, .i1⟩
  | 61 => ⟨S_, .i32⟩
  | 62 => ⟨S8x400000, .i32⟩
  | 63 => ⟨S8x400000, .i32⟩
  | 64 => ⟨S8x400000, .i32⟩
  | 65 => ⟨S8x400000, .i32⟩
  | 66 => ⟨S8x400000x1, .i32⟩
  | 67 => ⟨S8x400000x1, .i32⟩
  | 68 => ⟨S8x400000x2, .i32⟩
  | 69 => ⟨S3x8x400000, .f32⟩
  | 70 => ⟨S3x3200000, .f32⟩
  | 71 => ⟨S4x3200000, .f32⟩
  | 72 => ⟨S4x3200000, .f32⟩
  | 73 => ⟨S4x3200000, .f32⟩
  | 74 => ⟨S8, .i32⟩
  | 75 => ⟨S_, .i32⟩
  | 76 => ⟨S8, .i32⟩
  | 77 => ⟨S8, .i32⟩
  | 78 => ⟨S8x1, .i32⟩
  | 79 => ⟨S8x400000x1, .i32⟩
  | 80 => ⟨S8x400000, .i32⟩
  | 81 => ⟨S8x400000, .i32⟩
  | 82 => ⟨S8x400000, .i32⟩
  | 83 => ⟨S3200000, .i32⟩
  | 84 => ⟨S8x400000x1, .i32⟩
  | 85 => ⟨S8x400000, .i32⟩
  | 86 => ⟨S8x400000, .i32⟩
  | 87 => ⟨S8x400000, .i32⟩
  | 88 => ⟨S3200000, .i32⟩
  | 89 => ⟨S8x400000x1, .i32⟩
  | 90 => ⟨S8x400000, .i32⟩
  | 91 => ⟨S8x400000, .i32⟩
  | 92 => ⟨S8x400000, .i32⟩
  | 93 => ⟨S3200000, .i32⟩
  | 94 => ⟨S_, .f32⟩
  | 95 => ⟨S4x1600000, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S4x1600000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S4x1600000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S4x1600000, .f32⟩
  | 123 => ⟨S3x1600000, .f32⟩
  | 124 => ⟨S3x1600000, .f32⟩
  | 125 => ⟨S1x1600000, .f32⟩
  | 126 => ⟨S3x1600000, .f32⟩
  | 127 => ⟨S3x1600000, .f32⟩
  | _ => ⟨S8x200000x3, .f32⟩

abbrev hbmTy0_1 (i : Nat) : BufTy := match i % 128 with
  | 0 => ⟨S3x1600000, .f32⟩
  | 1 => ⟨S1600000x3, .f32⟩
  | _ => ⟨S8x200000x3, .f32⟩

abbrev hbmTy (i : Nat) : BufTy := match i / 128 with
  | 0 => hbmTy0_0 i
  | 1 => hbmTy0_1 i
  | _ => ⟨S8x200000x3, .f32⟩

abbrev bufTy : (tb : Table) → Fin (tcTables nBuf tb) → BufTy
  | .hbm, ⟨i, _⟩ => hbmTy i
  | .local _ .vmem, ⟨0, _⟩ => ⟨S3x32000, .f32⟩
  | .local _ .vmem, ⟨1, _⟩ => ⟨S3x32000, .f32⟩
  | .local _ .vmem, ⟨2, _⟩ => ⟨S3x32000, .f32⟩
  | .local _ .vmem, ⟨3, _⟩ => ⟨S3x32000, .f32⟩
  | .local _ .vmem, ⟨4, _⟩ => ⟨S3x32000, .f32⟩
  | .local _ .vmem, ⟨5, _⟩ => ⟨S3x32000, .f32⟩
  | .local _ .vmem, ⟨6, _⟩ => ⟨S4x32000, .f32⟩
  | .local _ .vmem, ⟨7, _⟩ => ⟨S4x32000, .f32⟩
  | .local _ .vmem, ⟨8, _⟩ => ⟨S4x32000, .f32⟩
  | .local _ .vmem, ⟨9, _⟩ => ⟨S4x32000, .f32⟩
  | .local _ .vmem, ⟨10, _⟩ => ⟨S4x32000, .f32⟩
  | .local _ .vmem, ⟨11, _⟩ => ⟨S4x32000, .f32⟩
  | _, _ => ⟨S8x200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_7 : Ref sig .tc := ⟨.hbm, 51, rfl⟩
abbrev main_v41 : Ref sig .tc := ⟨.hbm, 52, rfl⟩
abbrev main_v42 : Ref sig .tc := ⟨.hbm, 53, rfl⟩
abbrev main_c_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_9 : Ref sig .tc := ⟨.hbm, 58, rfl⟩
abbrev main_v46 : Ref sig .tc := ⟨.hbm, 59, rfl⟩
abbrev main_v47 : Ref sig .tc := ⟨.hbm, 60, rfl⟩
abbrev main_c_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev main_v57_2 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst : Ref sig .tc := ⟨.hbm, 94, rfl⟩
abbrev main_v77 : Ref sig .tc := ⟨.hbm, 95, rfl⟩
abbrev main_c_12 : Ref sig .tc := ⟨.hbm, 96, rfl⟩
abbrev main_v78 : Ref sig .tc := ⟨.hbm, 97, rfl⟩
abbrev main_v79 : Ref sig .tc := ⟨.hbm, 98, rfl⟩
abbrev main_c_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_14 : Ref sig .tc := ⟨.hbm, 105, rfl⟩
abbrev main_v85 : Ref sig .tc := ⟨.hbm, 106, rfl⟩
abbrev main_v86 : Ref sig .tc := ⟨.hbm, 107, rfl⟩
abbrev main_c_15 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_16 : Ref sig .tc := ⟨.hbm, 114, rfl⟩
abbrev main_v92 : Ref sig .tc := ⟨.hbm, 115, rfl⟩
abbrev main_v93 : Ref sig .tc := ⟨.hbm, 116, rfl⟩
abbrev main_c_17 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x200000x3_S3x8x200000_2_0_1 : S8x200000x3.Transposes [2, 0, 1] S3x8x200000
  bcast_S8_S8x1_0 : S8.BroadcastsInDim S8x1 (![0] : Fin 1 → Fin S8x1.rank)
  slices_S8x400000x3_S8x400000x1_0_0_0 : S8x400000x3.Slices ![0, 0, 0] S8x400000x1
  shapeCasts_S8x400000x1_S8x400000 : S8x400000x1.ShapeCasts S8x400000
  bcast_S_S8x1 : S_.BroadcastsInDim S8x1 (![] : Fin 0 → Fin S8x1.rank)
  bcast_S_S8x400000 : S_.BroadcastsInDim S8x400000 (![] : Fin 0 → Fin S8x400000.rank)
  bcast_S8x1_S8x400000_0_1 : S8x1.BroadcastsInDim S8x400000 (![0, 1] : Fin 2 → Fin S8x400000.rank)
  bcast_S8x400000_S8x400000x1_0_1 : S8x400000.BroadcastsInDim S8x400000x1 (![0, 1] : Fin 2 → Fin S8x400000x1.rank)
  concatenates_S8x400000x1_S8x400000x1_S8x400000x2_d2 : Shape.Concatenates [S8x400000x1, S8x400000x1] S8x400000x2 2
  shapeCasts_S3x8x400000_S3x3200000 : S3x8x400000.ShapeCasts S3x3200000
  slices_S8x400000x3_S8x400000x1_0_0_1 : S8x400000x3.Slices ![0, 0, 1] S8x400000x1
  slices_S8x400000x3_S8x400000x1_0_0_2 : S8x400000x3.Slices ![0, 0, 2] S8x400000x1
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  reduces_S3x32000_S32000 : S3x32000.Reduces [0] S32000
  shapeCasts_S32000_S1x32000 : S32000.ShapeCasts S1x32000
  broadcasts_S1x32000_S3x32000 : S1x32000.Broadcasts S3x32000
  concatenates_S3x32000_S1x32000_S4x32000_d0 : Shape.Concatenates [S3x32000, S1x32000] S4x32000 0
  inb_S4x32000_S4x32000_0_0 : ∀ a, (![0, 0] : Fin 2 → Nat) a + S4x32000.size a ≤ S4x32000.size a
  h_S4x32000 : 0 < S4x32000.numel
  bcast_S_S8 : S_.BroadcastsInDim S8 (![] : Fin 0 → Fin S8.rank)
  shapeCasts_S8x400000_S3200000 : S8x400000.ShapeCasts S3200000
  bcast_S_S4x1600000 : S_.BroadcastsInDim S4x1600000 (![] : Fin 0 → Fin S4x1600000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3x8x200000_S3x1600000 : S3x8x200000.ShapeCasts S3x1600000
  slices_S4x1600000_S3x1600000_0_0 : S4x1600000.Slices ![0, 0] S3x1600000
  slices_S4x1600000_S1x1600000_3_0 : S4x1600000.Slices ![3, 0] S1x1600000
  bcast_S1x1600000_S3x1600000_0_1 : S1x1600000.BroadcastsInDim S3x1600000 (![0, 1] : Fin 2 → Fin S3x1600000.rank)
  transposes_S3x1600000_S1600000x3_1_0 : S3x1600000.Transposes [1, 0] S1600000x3
  gather_S3x8x200000_S8x400000x2_S3x8x400000_0_12_n_n_12_2_311_wf : GatherDims.WF S3x8x200000 S8x400000x2 S3x8x400000 [0] [1, 2] [] [1, 2] [] 2 ![3, 1, 1]
  scatter_S4x1600000_S3200000x1_S4x3200000_0_1_1_1_wf : ScatterDims.WF S4x1600000 S3200000x1 S4x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x3200000.size a
  hwx0_0 : ∀ i : grid0.Coords, EltTy.bits .f32 = 32 ∨ (Rect.block (s := S3x3200000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32000.size a ≤ S3x3200000.size a
  hwx0_1 : ∀ i : grid0.Coords, EltTy.bits .f32 = 32 ∨ (Rect.block (s := S3x3200000) S3x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32000.size a ≤ S3x3200000.size a
  hwx0_2 : ∀ i : grid0.Coords, EltTy.bits .f32 = 32 ∨ (Rect.block (s := S3x3200000) S3x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32000.size a ≤ S4x3200000.size a
  hwx0_3 : ∀ i : grid0.Coords, EltTy.bits .f32 = 32 ∨ (Rect.block (s := S4x3200000) S4x32000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x32000.size a ≤ S4x3200000.size a
  hwx0_4 : ∀ i : grid0.Coords, EltTy.bits .f32 = 32 ∨ (Rect.block (s := S4x3200000) S4x32000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x32000.size a ≤ S4x3200000.size a
  hwx0_5 : ∀ i : grid0.Coords, EltTy.bits .f32 = 32 ∨ (Rect.block (s := S4x3200000) S4x32000.size (cc0_transform_5 i) (hinb0_5 i)).WholeWords (EltTy.packing .f32)

variable [Facts₀]

def gather_S3x8x200000_S8x400000x2_S3x8x400000_0_12_n_n_12_2_311 : GatherDims S3x8x200000 S8x400000x2 S3x8x400000 where
  offsetDims := [0]
  collapsedSliceDims := [1, 2]
  operandBatchingDims := []
  startIndicesBatchingDims := []
  startIndexMap := [1, 2]
  indexVectorDim := 2
  sliceSizes := ![3, 1, 1]
  wf := gather_S3x8x200000_S8x400000x2_S3x8x400000_0_12_n_n_12_2_311_wf
def scatter_S4x1600000_S3200000x1_S4x3200000_0_1_1_1 : ScatterDims S4x1600000 S3200000x1 S4x3200000 where
  updateWindowDims := [0]
  insertedWindowDims := [1]
  scatterDimsToOperandDims := [1]
  indexVectorDim := 1
  wf := scatter_S4x1600000_S3200000x1_S4x3200000_0_1_1_1_wf

abbrev win0_0 : Pipeline.Window sig grid0 :=
  Pipeline.Window.ofSpec (Memref.whole main_v20) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S3x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S3x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57_0) S4x32000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57_1) S4x32000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57_2) S4x32000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x200000x3 : Shape := ⟨3, ![8, 200000, 3]⟩
abbrev S8x400000x3 : Shape := ⟨3, ![8, 400000, 3]⟩
abbrev S3 : Shape := ⟨1, ![3]⟩
abbrev S8 : Shape := ⟨1, ![8]⟩
abbrev S8x1x1 : Shape := ⟨3, ![8, 1, 1]⟩
abbrev S_ : Shape := ⟨0, ![]⟩
abbrev S8x400000x3x1 : Shape := ⟨4, ![8, 400000, 3, 1]⟩
abbrev S8x400000x3x2 : Shape := ⟨4, ![8, 400000, 3, 2]⟩
abbrev S8x400000x3x3 : Shape := ⟨4, ![8, 400000, 3, 3]⟩
abbrev S8x400000x1x3 : Shape := ⟨4, ![8, 400000, 1, 3]⟩
abbrev S8x400000 : Shape := ⟨2, ![8, 400000]⟩
abbrev S8x400000x1 : Shape := ⟨3, ![8, 400000, 1]⟩
abbrev S3x1 : Shape := ⟨2, ![3, 1]⟩
abbrev S9600000 : Shape := ⟨1, ![9600000]⟩
abbrev S1600000x3 : Shape := ⟨2, ![1600000, 3]⟩
abbrev S9600000x1 : Shape := ⟨2, ![9600000, 1]⟩
abbrev S9600000x3 : Shape := ⟨2, ![9600000, 3]⟩
abbrev S1600000 : Shape := ⟨1, ![1600000]⟩
abbrev S1600000x1 : Shape := ⟨2, ![1600000, 1]⟩

abbrev nBuf : Space → Nat
  | .hbm => 183
  | .vmem => 0
  | .smem => 0
  | _ => 0

abbrev hbmTy0_0 (i : Nat) : BufTy := match i % 128 with
  | 0 => ⟨S8x200000x3, .f32⟩
  | 1 => ⟨S8x400000x3, .i32⟩
  | 2 => ⟨S3, .i32⟩
  | 3 => ⟨S3, .i32⟩
  | 4 => ⟨S8, .i32⟩
  | 5 => ⟨S8x1x1, .i32⟩
  | 6 => ⟨S_, .i32⟩
  | 7 => ⟨S8x1x1, .i32⟩
  | 8 => ⟨S8x1x1, .i1⟩
  | 9 => ⟨S_, .i32⟩
  | 10 => ⟨S8x1x1, .i32⟩
  | 11 => ⟨S8x1x1, .i32⟩
  | 12 => ⟨S8x1x1, .i32⟩
  | 13 => ⟨S_, .i32⟩
  | 14 => ⟨S8x400000x3, .i32⟩
  | 15 => ⟨S8x400000x3, .i1⟩
  | 16 => ⟨S_, .i32⟩
  | 17 => ⟨S8x400000x3, .i32⟩
  | 18 => ⟨S8x400000x3, .i32⟩
  | 19 => ⟨S8x400000x3, .i32⟩
  | 20 => ⟨S8x400000x3, .i32⟩
  | 21 => ⟨S8x400000x3x1, .i32⟩
  | 22 => ⟨S8x400000x3x1, .i32⟩
  | 23 => ⟨S8x400000x3x2, .i32⟩
  | 24 => ⟨S8x400000x3x3, .f32⟩
  | 25 => ⟨S8x400000x1x3, .f32⟩
  | 26 => ⟨S8x400000x3, .f32⟩
  | 27 => ⟨S8x400000x1x3, .f32⟩
  | 28 => ⟨S8x400000x3, .f32⟩
  | 29 => ⟨S8x400000x1x3, .f32⟩
  | 30 => ⟨S8x400000x3, .f32⟩
  | 31 => ⟨S8x400000x3, .f32⟩
  | 32 => ⟨S8x400000x3, .f32⟩
  | 33 => ⟨S_, .f32⟩
  | 34 => ⟨S8x400000, .f32⟩
  | 35 => ⟨S8x400000, .f32⟩
  | 36 => ⟨S8x400000x3, .f32⟩
  | 37 => ⟨S8x400000x3, .f32⟩
  | 38 => ⟨S_, .f32⟩
  | 39 => ⟨S8x400000, .f32⟩
  | 40 => ⟨S8x400000, .f32⟩
  | 41 => ⟨S8x400000x3, .f32⟩
  | 42 => ⟨S8x400000x3, .f32⟩
  | 43 => ⟨S_, .f32⟩
  | 44 => ⟨S8x400000, .f32⟩
  | 45 => ⟨S8x400000, .f32⟩
  | 46 => ⟨S8x400000, .f32⟩
  | 47 => ⟨S8x400000, .f32⟩
  | 48 => ⟨S_, .f32⟩
  | 49 => ⟨S8x400000, .f32⟩
  | 50 => ⟨S8x400000, .f32⟩
  | 51 => ⟨S8x400000, .f32⟩
  | 52 => ⟨S8x400000, .f32⟩
  | 53 => ⟨S8x400000, .f32⟩
  | 54 => ⟨S8x400000, .f32⟩
  | 55 => ⟨S8x400000, .f32⟩
  | 56 => ⟨S8x400000, .f32⟩
  | 57 => ⟨S8x400000, .f32⟩
  | 58 => ⟨S_, .f32⟩
  | 59 => ⟨S8x400000, .f32⟩
  | 60 => ⟨S8x400000, .f32⟩
  | 61 => ⟨S8x400000, .f32⟩
  | 62 => ⟨S8x400000, .f32⟩
  | 63 => ⟨S8x400000, .f32⟩
  | 64 => ⟨S8x400000, .f32⟩
  | 65 => ⟨S8x400000, .f32⟩
  | 66 => ⟨S8x400000, .f32⟩
  | 67 => ⟨S8x400000, .f32⟩
  | 68 => ⟨S8x400000, .f32⟩
  | 69 => ⟨S8x400000, .f32⟩
  | 70 => ⟨S8x400000, .f32⟩
  | 71 => ⟨S8x400000, .f32⟩
  | 72 => ⟨S8x400000, .f32⟩
  | 73 => ⟨S8x400000, .f32⟩
  | 74 => ⟨S8x400000, .f32⟩
  | 75 => ⟨S8x400000, .f32⟩
  | 76 => ⟨S8x400000x1, .f32⟩
  | 77 => ⟨S8x400000x1, .f32⟩
  | 78 => ⟨S8x400000x1, .f32⟩
  | 79 => ⟨S8x400000x3, .f32⟩
  | 80 => ⟨S8x400000x1, .f32⟩
  | 81 => ⟨S8x400000x3, .f32⟩
  | 82 => ⟨S8x400000x3, .f32⟩
  | 83 => ⟨S_, .f32⟩
  | 84 => ⟨S8x400000x3, .f32⟩
  | 85 => ⟨S8x400000x3, .f32⟩
  | 86 => ⟨S8, .i32⟩
  | 87 => ⟨S_, .i32⟩
  | 88 => ⟨S8, .i32⟩
  | 89 => ⟨S8, .i32⟩
  | 90 => ⟨S8x1x1, .i32⟩
  | 91 => ⟨S8x400000x3, .i32⟩
  | 92 => ⟨S8x400000x3, .i32⟩
  | 93 => ⟨S_, .i32⟩
  | 94 => ⟨S3, .i32⟩
  | 95 => ⟨S3, .i1⟩
  | 96 => ⟨S_, .i32⟩
  | 97 => ⟨S3, .i32⟩
  | 98 => ⟨S3, .i32⟩
  | 99 => ⟨S3, .i32⟩
  | 100 => ⟨S3x1, .i32⟩
  | 101 => ⟨S8x400000x3, .i32⟩
  | 102 => ⟨S9600000, .i32⟩
  | 103 => ⟨S_, .i32⟩
  | 104 => ⟨S3, .i32⟩
  | 105 => ⟨S3, .i1⟩
  | 106 => ⟨S_, .i32⟩
  | 107 => ⟨S3, .i32⟩
  | 108 => ⟨S3, .i32⟩
  | 109 => ⟨S3, .i32⟩
  | 110 => ⟨S3x1, .i32⟩
  | 111 => ⟨S8x400000x3, .i32⟩
  | 112 => ⟨S9600000, .i32⟩
  | 113 => ⟨S9600000, .f32⟩
  | 114 => ⟨S1600000x3, .f32⟩
  | 115 => ⟨S_, .f32⟩
  | 116 => ⟨S1600000x3, .f32⟩
  | 117 => ⟨S9600000x1, .f32⟩
  | 118 => ⟨S_, .i32⟩
  | 119 => ⟨S9600000, .i32⟩
  | 120 => ⟨S9600000, .i1⟩
  | 121 => ⟨S_, .i32⟩
  | 122 => ⟨S9600000, .i32⟩
  | 123 => ⟨S9600000, .i32⟩
  | 124 => ⟨S9600000, .i32⟩
  | 125 => ⟨S9600000x1, .i32⟩
  | 126 => ⟨S9600000x3, .f32⟩
  | 127 => ⟨S9600000x3, .f32⟩
  | _ => ⟨S8x200000x3, .f32⟩

abbrev hbmTy0_1 (i : Nat) : BufTy := match i % 128 with
  | 0 => ⟨S9600000x3, .f32⟩
  | 1 => ⟨S_, .i32⟩
  | 2 => ⟨S9600000, .i32⟩
  | 3 => ⟨S9600000, .i1⟩
  | 4 => ⟨S_, .i32⟩
  | 5 => ⟨S9600000, .i32⟩
  | 6 => ⟨S9600000, .i32⟩
  | 7 => ⟨S9600000, .i32⟩
  | 8 => ⟨S9600000x1, .i32⟩
  | 9 => ⟨S1600000x3, .f32⟩
  | 10 => ⟨S9600000x1, .f32⟩
  | 11 => ⟨S_, .i32⟩
  | 12 => ⟨S9600000, .i32⟩
  | 13 => ⟨S9600000, .i1⟩
  | 14 => ⟨S_, .i32⟩
  | 15 => ⟨S9600000, .i32⟩
  | 16 => ⟨S9600000, .i32⟩
  | 17 => ⟨S9600000, .i32⟩
  | 18 => ⟨S9600000x1, .i32⟩
  | 19 => ⟨S9600000x3, .f32⟩
  | 20 => ⟨S9600000x3, .f32⟩
  | 21 => ⟨S9600000x3, .f32⟩
  | 22 => ⟨S_, .i32⟩
  | 23 => ⟨S9600000, .i32⟩
  | 24 => ⟨S9600000, .i1⟩
  | 25 => ⟨S_, .i32⟩
  | 26 => ⟨S9600000, .i32⟩
  | 27 => ⟨S9600000, .i32⟩
  | 28 => ⟨S9600000, .i32⟩
  | 29 => ⟨S9600000x1, .i32⟩
  | 30 => ⟨S1600000x3, .f32⟩
  | 31 => ⟨S_, .f32⟩
  | 32 => ⟨S1600000, .f32⟩
  | 33 => ⟨S_, .i32⟩
  | 34 => ⟨S9600000, .i32⟩
  | 35 => ⟨S9600000, .i1⟩
  | 36 => ⟨S_, .i32⟩
  | 37 => ⟨S9600000, .i32⟩
  | 38 => ⟨S9600000, .i32⟩
  | 39 => ⟨S9600000, .i32⟩
  | 40 => ⟨S9600000x1, .i32⟩
  | 41 => ⟨S1600000, .f32⟩
  | 42 => ⟨S_, .i32⟩
  | 43 => ⟨S9600000, .i32⟩
  | 44 => ⟨S9600000, .i1⟩
  | 45 => ⟨S_, .i32⟩
  | 46 => ⟨S9600000, .i32⟩
  | 47 => ⟨S9600000, .i32⟩
  | 48 => ⟨S9600000, .i32⟩
  | 49 => ⟨S9600000x1, .i32⟩
  | 50 => ⟨S1600000, .f32⟩
  | 51 => ⟨S1600000x1, .f32⟩
  | 52 => ⟨S1600000x3, .f32⟩
  | 53 => ⟨S1600000x3, .f32⟩
  | 54 => ⟨S1600000x3, .f32⟩
  | _ => ⟨S8x200000x3, .f32⟩

abbrev hbmTy (i : Nat) : BufTy := match i / 128 with
  | 0 => hbmTy0_0 i
  | 1 => hbmTy0_1 i
  | _ => ⟨S8x200000x3, .f32⟩

abbrev bufTy : (tb : Table) → Fin (tcTables nBuf tb) → BufTy
  | .hbm, ⟨i, _⟩ => hbmTy i
  | _, _ => ⟨S8x200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_3 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c_10 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_11 : Ref sig .tc := ⟨.hbm, 93, rfl⟩
abbrev main_v78 : Ref sig .tc := ⟨.hbm, 94, rfl⟩
abbrev main_v79 : Ref sig .tc := ⟨.hbm, 95, rfl⟩
abbrev main_c_12 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_c_13 : Ref sig .tc := ⟨.hbm, 103, rfl⟩
abbrev main_v86 : Ref sig .tc := ⟨.hbm, 104, rfl⟩
abbrev main_v87 : Ref sig .tc := ⟨.hbm, 105, rfl⟩
abbrev main_c_14 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_15 : Ref sig .tc := ⟨.hbm, 115, rfl⟩
abbrev main_v96 : Ref sig .tc := ⟨.hbm, 116, rfl⟩
abbrev main_v97 : Ref sig .tc := ⟨.hbm, 117, rfl⟩
abbrev main_c_16 : Ref sig .tc := ⟨.hbm, 118, rfl⟩
abbrev main_v98 : Ref sig .tc := ⟨.hbm, 119, rfl⟩
abbrev main_v99 : Ref sig .tc := ⟨.hbm, 120, rfl⟩
abbrev main_c_17 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_c_18 : Ref sig .tc := ⟨.hbm, 129, rfl⟩
abbrev main_v107 : Ref sig .tc := ⟨.hbm, 130, rfl⟩
abbrev main_v108 : Ref sig .tc := ⟨.hbm, 131, rfl⟩
abbrev main_c_19 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_20 : Ref sig .tc := ⟨.hbm, 139, rfl⟩
abbrev main_v115 : Ref sig .tc := ⟨.hbm, 140, rfl⟩
abbrev main_v116 : Ref sig .tc := ⟨.hbm, 141, rfl⟩
abbrev main_c_21 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_c_22 : Ref sig .tc := ⟨.hbm, 150, rfl⟩
abbrev main_v124 : Ref sig .tc := ⟨.hbm, 151, rfl⟩
abbrev main_v125 : Ref sig .tc := ⟨.hbm, 152, rfl⟩
abbrev main_c_23 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_24 : Ref sig .tc := ⟨.hbm, 159, rfl⟩
abbrev main_v131 : Ref sig .tc := ⟨.hbm, 160, rfl⟩
abbrev main_c_25 : Ref sig .tc := ⟨.hbm, 161, rfl⟩
abbrev main_v132 : Ref sig .tc := ⟨.hbm, 162, rfl⟩
abbrev main_v133 : Ref sig .tc := ⟨.hbm, 163, rfl⟩
abbrev main_c_26 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_c_27 : Ref sig .tc := ⟨.hbm, 170, rfl⟩
abbrev main_v139 : Ref sig .tc := ⟨.hbm, 171, rfl⟩
abbrev main_v140 : Ref sig .tc := ⟨.hbm, 172, rfl⟩
abbrev main_c_28 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩

abbrev nD : Nat := 1
abbrev τ : Topo := Topo.v7x

variable {F : FTy → Type} [FloatOps F]

class Facts₀ : Prop where
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S8x400000x3 : S_.BroadcastsInDim S8x400000x3 (![] : Fin 0 → Fin S8x400000x3.rank)
  bcast_S8x1x1_S8x400000x3_0_1_2 : S8x1x1.BroadcastsInDim S8x400000x3 (![0, 1, 2] : Fin 3 → Fin S8x400000x3.rank)
  bcast_S8x400000x3_S8x400000x3x1_0_1_2 : S8x400000x3.BroadcastsInDim S8x400000x3x1 (![0, 1, 2] : Fin 3 → Fin S8x400000x3x1.rank)
  concatenates_S8x400000x3x1_S8x400000x3x1_S8x400000x3x2_d3 : Shape.Concatenates [S8x400000x3x1, S8x400000x3x1] S8x400000x3x2 3
  slices_S8x400000x3x3_S8x400000x1x3_0_0_0_0 : S8x400000x3x3.Slices ![0, 0, 0, 0] S8x400000x1x3
  shapeCasts_S8x400000x1x3_S8x400000x3 : S8x400000x1x3.ShapeCasts S8x400000x3
  slices_S8x400000x3x3_S8x400000x1x3_0_0_1_0 : S8x400000x3x3.Slices ![0, 0, 1, 0] S8x400000x1x3
  slices_S8x400000x3x3_S8x400000x1x3_0_0_2_0 : S8x400000x3x3.Slices ![0, 0, 2, 0] S8x400000x1x3
  reducesTo_S8x400000x3_S8x400000_d2 : S8x400000x3.ReducesTo [2] S8x400000
  h_S_ : 0 < S_.numel
  bcast_S_S8x400000 : S_.BroadcastsInDim S8x400000 (![] : Fin 0 → Fin S8x400000.rank)
  bcast_S8x400000_S8x400000x1_0_1 : S8x400000.BroadcastsInDim S8x400000x1 (![0, 1] : Fin 2 → Fin S8x400000x1.rank)
  concatenates_S8x400000x1_S8x400000x1_S8x400000x1_S8x400000x3_d2 : Shape.Concatenates [S8x400000x1, S8x400000x1, S8x400000x1] S8x400000x3 2
  bcast_S8x400000x1_S8x400000x3_0_1_2 : S8x400000x1.BroadcastsInDim S8x400000x3 (![0, 1, 2] : Fin 3 → Fin S8x400000x3.rank)
  bcast_S_S8 : S_.BroadcastsInDim S8 (![] : Fin 0 → Fin S8.rank)
  bcast_S_S3 : S_.BroadcastsInDim S3 (![] : Fin 0 → Fin S3.rank)
  bcast_S3_S3x1_0 : S3.BroadcastsInDim S3x1 (![0] : Fin 1 → Fin S3x1.rank)
  shapeCasts_S8x400000x3_S9600000 : S8x400000x3.ShapeCasts S9600000
  shapeCasts_S8x200000x3_S1600000x3 : S8x200000x3.ShapeCasts S1600000x3
  bcast_S_S1600000x3 : S_.BroadcastsInDim S1600000x3 (![] : Fin 0 → Fin S1600000x3.rank)
  bcast_S9600000_S9600000x1_0 : S9600000.BroadcastsInDim S9600000x1 (![0] : Fin 1 → Fin S9600000x1.rank)
  bcast_S_S9600000 : S_.BroadcastsInDim S9600000 (![] : Fin 0 → Fin S9600000.rank)
  bcast_S9600000x1_S9600000x3_0_1 : S9600000x1.BroadcastsInDim S9600000x3 (![0, 1] : Fin 2 → Fin S9600000x3.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x3_0_1 : S1600000x1.BroadcastsInDim S1600000x3 (![0, 1] : Fin 2 → Fin S1600000x3.rank)
  gather_S8x200000x3_S8x400000x3x2_S8x400000x3x3_3_01_n_n_01_3_113_wf : GatherDims.WF S8x200000x3 S8x400000x3x2 S8x400000x3x3 [3] [0, 1] [] [0, 1] [] 3 ![1, 1, 3]
  gather_S8x400000x3_S3x1_S8x400000x3_01_2_n_n_2_1_84000001_wf : GatherDims.WF S8x400000x3 S3x1 S8x400000x3 [0, 1] [2] [] [2] [] 1 ![8, 400000, 1]
  gather_S1600000x3_S9600000x1_S9600000x3_1_0_n_n_0_1_13_wf : GatherDims.WF S1600000x3 S9600000x1 S9600000x3 [1] [0] [] [0] [] 1 ![1, 3]
  scatter_S1600000x3_S9600000x1_S9600000x3_1_0_0_1_wf : ScatterDims.WF S1600000x3 S9600000x1 S9600000x3 [1] [0] [0] 1
  scatter_S1600000_S9600000x1_S9600000_n_0_0_1_wf : ScatterDims.WF S1600000 S9600000x1 S9600000 [] [0] [0] 1

variable [Facts₀]

def gather_S8x200000x3_S8x400000x3x2_S8x400000x3x3_3_01_n_n_01_3_113 : GatherDims S8x200000x3 S8x400000x3x2 S8x400000x3x3 where
  offsetDims := [3]
  collapsedSliceDims := [0, 1]
  operandBatchingDims := []
  startIndicesBatchingDims := []
  startIndexMap := [0, 1]
  indexVectorDim := 3
  sliceSizes := ![1, 1, 3]
  wf := gather_S8x200000x3_S8x400000x3x2_S8x400000x3x3_3_01_n_n_01_3_113_wf
def gather_S8x400000x3_S3x1_S8x400000x3_01_2_n_n_2_1_84000001 : GatherDims S8x400000x3 S3x1 S8x400000x3 where
  offsetDims := [0, 1]
  collapsedSliceDims := [2]
  operandBatchingDims := []
  startIndicesBatchingDims := []
  startIndexMap := [2]
  indexVectorDim := 1
  sliceSizes := ![8, 400000, 1]
  wf := gather_S8x400000x3_S3x1_S8x400000x3_01_2_n_n_2_1_84000001_wf
def gather_S1600000x3_S9600000x1_S9600000x3_1_0_n_n_0_1_13 : GatherDims S1600000x3 S9600000x1 S9600000x3 where
  offsetDims := [1]
  collapsedSliceDims := [0]
  operandBatchingDims := []
  startIndicesBatchingDims := []
  startIndexMap := [0]
  indexVectorDim := 1
  sliceSizes := ![1, 3]
  wf := gather_S1600000x3_S9600000x1_S9600000x3_1_0_n_n_0_1_13_wf
def scatter_S1600000x3_S9600000x1_S9600000x3_1_0_0_1 : ScatterDims S1600000x3 S9600000x1 S9600000x3 where
  updateWindowDims := [1]
  insertedWindowDims := [0]
  scatterDimsToOperandDims := [0]
  indexVectorDim := 1
  wf := scatter_S1600000x3_S9600000x1_S9600000x3_1_0_0_1_wf
def scatter_S1600000_S9600000x1_S9600000_n_0_0_1 : ScatterDims S1600000 S9600000x1 S9600000 where
  updateWindowDims := []
  insertedWindowDims := [0]
  scatterDimsToOperandDims := [0]
  indexVectorDim := 1
  wf := scatter_S1600000_S9600000x1_S9600000_n_0_0_1_wf

class Facts : Prop extends Facts₀ where

variable [Facts]
-- ==== Proof.PreDecode.lean ====
/-
  What the precondition says, entry by entry: every entry of the vertex array is a real number (its absolute
  value is below +∞), and every entry `w` of the face array is a vertex number, `0 ≤ w < 200000` read signed.
-/
import proofs.«162177_j39814346834441_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

variable [Cert.Pre_finite_inputs.Facts]

instance : Subsingleton S_.Idx := ⟨fun a b => funext fun d => d.elim0⟩

/-- An extended real whose absolute value is below the word of +∞ is a real number. -/
theorem real_of_abs_lt (x : EReal)
    (h : FloatOps.cmpf (F := Ideal) .olt (FloatOps.hostAbsf (F := Ideal) (φ := .f32) x) (Ideal.ofBits .f32 0x7F800000#32) = 1#1) :
    ∃ r : ℝ, x = (r : EReal) := by
  induction x using EReal.rec with
  | bot =>
    have h' : Ideal.cmp .olt (max (⊥ : EReal) (-⊥)) (Ideal.ofBits .f32 0x7F800000#32) = 1#1 := h
    simp [Ideal.ofBits, Ideal.ieee, Ideal.cmp] at h'
  | coe r => exact ⟨r, rfl⟩
  | top =>
    have h' : Ideal.cmp .olt (max (⊤ : EReal) (-⊤)) (Ideal.ofBits .f32 0x7F800000#32) = 1#1 := h
    simp [Ideal.ofBits, Ideal.ieee, Ideal.cmp] at h'

theorem decode (V : FVec Ideal S8x200000x3 .f32) (Fc : IVec S8x400000x3 32)
    (h : fn (F := Ideal) V Fc = fun _ => 1#1) :
    (∀ i, ∃ r : ℝ, V i = (r : EReal)) ∧ (∀ i, 0 ≤ (Fc i).toInt ∧ (Fc i).toInt < 200000) := by
  have h0 := congrFun h ix0
  dsimp only [fn] at h0
  obtain ⟨h1, h2⟩ := IntOp.andi_eq_one.mp h0
  refine ⟨fun i => ?_, fun i => ?_⟩
  · have e := Host.reduce_andi_all _ _ _ _ ix0 h1 i
    exact real_of_abs_lt (V i) e
  · have e := Host.reduce_andi_all _ _ _ _ ix0 h2 i
    obtain ⟨e1, e2⟩ := IntOp.andi_eq_one.mp e
    have g1 : (0#32 : BitVec 32).toInt ≤ (Fc i).toInt := IntOp.cmpi_sge.mp e1
    have g2 : (Fc i).toInt < (200000#32 : BitVec 32).toInt := IntOp.cmpi_slt.mp e2
    have z0 : (0#32 : BitVec 32).toInt = 0 := by decide
    have z1 : (200000#32 : BitVec 32).toInt = 200000 := by decide
    rw [z0] at g1; rw [z1] at g2
    exact ⟨g1, g2⟩

end Cert.Pre_finite_inputs.Decode

end
-- ==== Proof.Spec.lean ====
/-
  The cotangent Laplacian of a batch of eight triangle meshes, as ONE function of the vertex array
  `V : [8, 200000, 3]` and the face array `F : [8, 400000, 3]` (three vertex numbers per face), over the
  extended reals.

  A face `t` (numbered through all meshes: mesh `t / 400000`, face `t % 400000` of it) has three corners
  `p1 p2 p3 ∈ ℝ³`, the vertices its three numbers name. With the squared edge lengths
  `s1 = |p2 - p3|²`, `s2 = |p3 - p1|²`, `s3 = |p1 - p2|²`, the edge lengths `l = √s`, the half perimeter
  `sp = (l1 + l2 + l3) / 2` and Heron's product `sp (sp - l1) (sp - l2) (sp - l3)` (the squared area), the
  cotangent weights of the three edges are `(s2 + s3 - s1) / (8 · area)` and its two rotations.
  Every corner receives a MESSAGE, the two opposite corners weighted by the weights of the two edges at
  this corner, and a DEGREE, the sum of those two weights; the result at vertex `j` is the sum of the
  messages sent to `j` minus the sum of the degrees sent to `j` times the vertex itself.

  Two spellings of the weights are defined: the one that works with the squared lengths and clamps
  Heron's product at zero (`kW…`), and the one that squares the lengths again, takes the root of the
  unclamped product and divides twice (`rW…`). Proof/Weights.lean shows they agree on real corners.
-/
import Idealize.ShloMosaic.PureOps.Ideal
import Idealize.ShloMosaic.Lib.ValueIdx

noncomputable section

open scoped BigOperators

namespace Cert.CotLap

open Idealize.ShloMosaic Idealize.ShloMosaic.ValueIdx

/-- The vertex array's shape, the face array's, the result's. -/
abbrev SV : Shape := ⟨3, ![8, 200000, 3]⟩
abbrev SF : Shape := ⟨3, ![8, 400000, 3]⟩
abbrev SO : Shape := ⟨2, ![1600000, 3]⟩

/-! ## The three float literals both programs carry: one half, two, four -/

def cHalf : EReal := Ideal.ofBits .f32 0x3F000000#32
def cTwo : EReal := Ideal.ofBits .f32 0x40000000#32
def cFour : EReal := Ideal.ofBits .f32 0x40800000#32

/-! ## Numbering -/

/-- The vertex a face's number names: the number read signed and brought into `[0, 200000)` (a number in
    range is itself). -/
def vnum (w : BitVec 32) : Fin 200000 := ⟨min w.toInt.toNat 199999, by omega⟩
/-- The mesh of face `t`, and its number inside that mesh. -/
def fb (t : Fin 3200000) : Fin 8 := ⟨t.val / 400000, by have := t.isLt; omega⟩
def ff (t : Fin 3200000) : Fin 400000 := ⟨t.val % 400000, by omega⟩
/-- The mesh of vertex `j` (numbered through all meshes), its number inside that mesh, and back. -/
def vb (j : Fin 1600000) : Fin 8 := ⟨j.val / 200000, by have := j.isLt; omega⟩
def vn (j : Fin 1600000) : Fin 200000 := ⟨j.val % 200000, by omega⟩
def gv (b : Fin 8) (n : Fin 200000) : Fin 1600000 := ⟨b.val * 200000 + n.val, by have := b.isLt; have := n.isLt; omega⟩

/-- Corner `k` of face `t`: a point of space. -/
def corner (V : SV.Idx → EReal) (F : SF.Idx → BitVec 32) (t : Fin 3200000) (k : Fin 3) : Fin 3 → EReal :=
  fun d => V (ix3 (fb t) (vnum (F (ix3 (fb t) (ff t) k))) d)
/-- The vertex (numbered through all meshes) corner `k` of face `t` is. -/
def tgt (F : SF.Idx → BitVec 32) (t : Fin 3200000) (k : Fin 3) : Fin 1600000 :=
  gv (fb t) (vnum (F (ix3 (fb t) (ff t) k)))

/-! ## The weights of one face -/

/-- The squared distance of two points. -/
def dsq (a b : Fin 3 → EReal) : EReal := ∑ d : Fin 3, (a d - b d) * (a d - b d)

/-- Heron's product of three lengths. -/
def heron (l1 l2 l3 : EReal) : EReal :=
  (l1 + l2 + l3) * cHalf * ((l1 + l2 + l3) * cHalf - l1) * ((l1 + l2 + l3) * cHalf - l2) * ((l1 + l2 + l3) * cHalf - l3)

/-- Eight times the area from the squared lengths, Heron's product clamped at zero. -/
def kDen (s1 s2 s3 : EReal) : EReal :=
  cTwo * Ideal.sqrt (max (heron (Ideal.sqrt s1) (Ideal.sqrt s2) (Ideal.sqrt s3)) 0) * cFour

/-- The weights over the squared lengths: of the edge opposite corner 1 (`23`), corner 2 (`31`), corner 3 (`12`). -/
def kW23 (p1 p2 p3 : Fin 3 → EReal) : EReal :=
  Ideal.div (dsq p3 p1 + dsq p1 p2 - dsq p2 p3) (kDen (dsq p2 p3) (dsq p3 p1) (dsq p1 p2))
def kW31 (p1 p2 p3 : Fin 3 → EReal) : EReal :=
  Ideal.div (dsq p2 p3 + dsq p1 p2 - dsq p3 p1) (kDen (dsq p2 p3) (dsq p3 p1) (dsq p1 p2))
def kW12 (p1 p2 p3 : Fin 3 → EReal) : EReal :=
  Ideal.div (dsq p2 p3 + dsq p3 p1 - dsq p1 p2) (kDen (dsq p2 p3) (dsq p3 p1) (dsq p1 p2))

/-- Four times the area from the lengths, Heron's product as it is. -/
def rArea (l1 l2 l3 : EReal) : EReal := cTwo * Ideal.sqrt (heron l1 l2 l3)

/-- The weights over the lengths squared again, divided by four times the area and then by four. -/
def rW23 (p1 p2 p3 : Fin 3 → EReal) : EReal :=
  Ideal.div (Ideal.div (Ideal.sqrt (dsq p3 p1) * Ideal.sqrt (dsq p3 p1) + Ideal.sqrt (dsq p1 p2) * Ideal.sqrt (dsq p1 p2)
      - Ideal.sqrt (dsq p2 p3) * Ideal.sqrt (dsq p2 p3))
    (rArea (Ideal.sqrt (dsq p2 p3)) (Ideal.sqrt (dsq p3 p1)) (Ideal.sqrt (dsq p1 p2)))) cFour
def rW31 (p1 p2 p3 : Fin 3 → EReal) : EReal :=
  Ideal.div (Ideal.div (Ideal.sqrt (dsq p2 p3) * Ideal.sqrt (dsq p2 p3) + Ideal.sqrt (dsq p1 p2) * Ideal.sqrt (dsq p1 p2)
      - Ideal.sqrt (dsq p3 p1) * Ideal.sqrt (dsq p3 p1))
    (rArea (Ideal.sqrt (dsq p2 p3)) (Ideal.sqrt (dsq p3 p1)) (Ideal.sqrt (dsq p1 p2)))) cFour
def rW12 (p1 p2 p3 : Fin 3 → EReal) : EReal :=
  Ideal.div (Ideal.div (Ideal.sqrt (dsq p2 p3) * Ideal.sqrt (dsq p2 p3) + Ideal.sqrt (dsq p3 p1) * Ideal.sqrt (dsq p3 p1)
      - Ideal.sqrt (dsq p1 p2) * Ideal.sqrt (dsq p1 p2))
    (rArea (Ideal.sqrt (dsq p2 p3)) (Ideal.sqrt (dsq p3 p1)) (Ideal.sqrt (dsq p1 p2)))) cFour

/-! ## What a face sends to each of its corners: rows 0 to 2 the message, row 3 the degree -/

def msg1 (p1 p2 p3 : Fin 3 → EReal) (r : Fin 4) : EReal :=
  if h : r.val < 3 then kW12 p1 p2 p3 * p2 ⟨r.val, h⟩ + kW31 p1 p2 p3 * p3 ⟨r.val, h⟩
  else kW12 p1 p2 p3 + kW31 p1 p2 p3
def msg2 (p1 p2 p3 : Fin 3 → EReal) (r : Fin 4) : EReal :=
  if h : r.val < 3 then kW23 p1 p2 p3 * p3 ⟨r.val, h⟩ + kW12 p1 p2 p3 * p1 ⟨r.val, h⟩
  else kW23 p1 p2 p3 + kW12 p1 p2 p3
def msg3 (p1 p2 p3 : Fin 3 → EReal) (r : Fin 4) : EReal :=
  if h : r.val < 3 then kW31 p1 p2 p3 * p1 ⟨r.val, h⟩ + kW23 p1 p2 p3 * p2 ⟨r.val, h⟩
  else kW31 p1 p2 p3 + kW23 p1 p2 p3

/-- What face `t` sends to its corner `k`. -/
def sent (V : SV.Idx → EReal) (F : SF.Idx → BitVec 32) (k : Fin 3) (t : Fin 3200000) (r : Fin 4) : EReal :=
  match k with
  | ⟨0, _⟩ => msg1 (corner V F t 0) (corner V F t 1) (corner V F t 2) r
  | ⟨1, _⟩ => msg2 (corner V F t 0) (corner V F t 1) (corner V F t 2) r
  | ⟨2, _⟩ => msg3 (corner V F t 0) (corner V F t 1) (corner V F t 2) r

/-- Row `r` of everything sent to vertex `j`: first corners, then second corners, then third corners. -/
def acc (V : SV.Idx → EReal) (F : SF.Idx → BitVec 32) (r : Fin 4) (j : Fin 1600000) : EReal :=
  (∑ t ∈ Finset.univ.filter (fun t : Fin 3200000 => tgt F t 0 = j), sent V F 0 t r)
  + (∑ t ∈ Finset.univ.filter (fun t : Fin 3200000 => tgt F t 1 = j), sent V F 1 t r)
  + (∑ t ∈ Finset.univ.filter (fun t : Fin 3200000 => tgt F t 2 = j), sent V F 2 t r)

/-- THE RESULT: at vertex `j`, coordinate `d`: the messages received minus the degree received times the vertex. -/
def G (V : SV.Idx → EReal) (F : SF.Idx → BitVec 32) : SO.Idx → EReal := fun i =>
  acc V F ⟨(i 1).val, by have := idx2_lt1 i; omega⟩ ⟨(i 0).val, idx2_lt0 i⟩
  - acc V F 3 ⟨(i 0).val, idx2_lt0 i⟩
    * V (ix3 (vb ⟨(i 0).val, idx2_lt0 i⟩) (vn ⟨(i 0).val, idx2_lt0 i⟩) ⟨(i 1).val, idx2_lt1 i⟩)

end Cert.CotLap

end
-- ==== Proof.KBody.lean ====
/-
  The kernel body at one column of a block, at the exact (extended real) values.

  The body reads three blocks of shape (3, 32000), one corner of every face per block, and writes three
  blocks of shape (4, 32000): per corner, rows 0 to 2 the message and row 3 the degree. Column `q` of an
  output block depends on column `q` of the three input blocks only; read there, each output is the
  corresponding message of the specification at the three points that are the three input columns.
-/
import proofs.«162177_j39814346834441_2_alg».proof.Proof.Spec
import proofs.«162177_j39814346834441_2_alg».proof.Proof.Gen.KernelIdeal.Frame
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.CotLap

/-- Column `q` of a (3, 32000) block, as a point of space. -/
abbrev col (x : Vec Ideal S3x32000 .f32) (q : Fin 32000) : Fin 3 → EReal := fun d => x (ix2 d q)

/-! ## The casts of a block to its own shape are the block -/

theorem pay5_apply (x : Vec Ideal S3x32000 .f32) (d : Fin 3) (q : Fin 32000) :
    k0_pay5 x (ix2 d q) = x (ix2 d q) := by
  unfold k0_pay5
  exact shapeCast_apply x _ (ix2 d q) (ix2 d q) rfl

theorem pay6_apply (x : Vec Ideal S3x32000 .f32) (d : Fin 3) (q : Fin 32000) :
    k0_pay6 x (ix2 d q) = x (ix2 d q) := by
  unfold k0_pay6
  exact shapeCast_apply x _ (ix2 d q) (ix2 d q) rfl

theorem pay7_apply (x : Vec Ideal S3x32000 .f32) (d : Fin 3) (q : Fin 32000) :
    k0_pay7 x (ix2 d q) = x (ix2 d q) := by
  unfold k0_pay7
  exact shapeCast_apply x _ (ix2 d q) (ix2 d q) rfl

/-! ## The three sums of squares are the squared distances of the columns -/

/-- The index a reduction over axis 0 of a (3, 32000) block reads at column `q` for the summand `k`: row `k`, column `q`. -/
theorem lift_eq (h : Shape.Reduces S3x32000 [0] S32000) (q : Fin 32000) (k : Fin 3) :
    h.lift (ix1 q) k = ix2 k q := by
  funext a
  match a with
  | ⟨0, _⟩ => exact Fin.ext rfl
  | ⟨1, _⟩ => exact Fin.ext rfl

/-- A one-row cast of a vector of 32000 entries, read at (0, q), is the vector at q. -/
theorem cast_row_apply (x : FVec Ideal S32000 .f32) (h : Shape.ShapeCasts S32000 S1x32000) (q : Fin 32000) :
    shapeCast S1x32000 x h (ix2 0 q) = x (ix1 q) :=
  shapeCast_apply x h (ix2 0 q) (ix1 q) (by
    rw [Shape.rowMajor_val_two, Shape.rowMajor_val_one]; show q.val = 0 * 32000 + q.val; omega)

/-- The sum over the three rows of the squared difference of two blocks, at column `q`. -/
theorem sumsq_apply (a b : FVec Ideal S3x32000 .f32) (acc : BitVec 32) (h : Shape.Reduces S3x32000 [0] S32000)
    (hφ : FKind.Formats .f32) (hacc : acc = FKind.add.neutral .f32 hφ) (q : Fin 32000) :
    multiReduction .add [0] S32000 (mulf (subf a b) (subf a b)) acc h hφ hacc (ix1 q)
      = dsq (fun d => a (ix2 d q)) (fun d => b (ix2 d q)) := by
  refine (Ideal.multiReduction_add_single _ acc h hφ hacc (ix1 q)).trans ?_
  unfold dsq
  refine Finset.sum_congr rfl (fun k _ => ?_)
  rw [lift_eq h q k]
  rfl

theorem pay8_apply (x1 x2 : Vec Ideal S3x32000 .f32) (q : Fin 32000) :
    k0_pay8 x1 x2 (ix2 0 q) = dsq (col x1 q) (col x2 q) := by
  unfold k0_pay8
  rw [cast_row_apply]
  refine (sumsq_apply _ _ _ _ _ _ q).trans ?_
  simp only [pay6_apply, pay7_apply]

theorem pay9_apply (x0 x2 : Vec Ideal S3x32000 .f32) (q : Fin 32000) :
    k0_pay9 x0 x2 (ix2 0 q) = dsq (col x2 q) (col x0 q) := by
  unfold k0_pay9
  rw [cast_row_apply]
  refine (sumsq_apply _ _ _ _ _ _ q).trans ?_
  simp only [pay5_apply, pay7_apply]

theorem pay10_apply (x0 x1 : Vec Ideal S3x32000 .f32) (q : Fin 32000) :
    k0_pay10 x0 x1 (ix2 0 q) = dsq (col x0 q) (col x1 q) := by
  unfold k0_pay10
  rw [cast_row_apply]
  refine (sumsq_apply _ _ _ _ _ _ q).trans ?_
  simp only [pay5_apply, pay6_apply]

/-! ## The denominator and the three weights -/

theorem sqrt_apply (a : FVec Ideal S1x32000 .f32) (i : S1x32000.Idx) : sqrt a i = Ideal.sqrt (a i) := rfl

/-- Eight times the area: twice the root of Heron's product of the three lengths, clamped at zero, times four. -/
theorem pay11_apply (x0 x1 x2 : Vec Ideal S3x32000 .f32) (q : Fin 32000) :
    k0_pay11 x0 x1 x2 (ix2 0 q)
      = kDen (dsq (col x1 q) (col x2 q)) (dsq (col x2 q) (col x0 q)) (dsq (col x0 q) (col x1 q)) := by
  unfold k0_pay11
  simp only [mulf_apply, addf_apply, subf_apply, maximumf_apply, broadcast_apply, sqrt_apply,
    pay8_apply, pay9_apply, pay10_apply]
  rw [show (FloatOps.ofBits (F := Ideal) FTy.f32 0#32) = (0 : EReal) from Ideal.ofBits_zero_f32]
  unfold kDen heron cHalf cTwo cFour
  rfl

/-- The weight of the edge opposite the first corner. -/
theorem pay12_apply (x0 x1 x2 : Vec Ideal S3x32000 .f32) (q : Fin 32000) :
    k0_pay12 x0 x1 x2 (ix2 0 q) = kW23 (col x0 q) (col x1 q) (col x2 q) := by
  unfold k0_pay12
  simp only [divf_apply, addf_apply, subf_apply, pay8_apply, pay9_apply, pay10_apply, pay11_apply]
  rfl

/-- The weight of the edge opposite the second corner. -/
theorem pay13_apply (x0 x1 x2 : Vec Ideal S3x32000 .f32) (q : Fin 32000) :
    k0_pay13 x0 x1 x2 (ix2 0 q) = kW31 (col x0 q) (col x1 q) (col x2 q) := by
  unfold k0_pay13
  simp only [divf_apply, addf_apply, subf_apply, pay8_apply, pay9_apply, pay10_apply, pay11_apply]
  rfl

/-- The weight of the edge opposite the third corner: its numerator, then the quotient. -/
theorem pay14_apply (x0 x1 x2 : Vec Ideal S3x32000 .f32) (q : Fin 32000) :
    k0_pay14 x0 x1 x2 (ix2 0 q)
      = dsq (col x1 q) (col x2 q) + dsq (col x2 q) (col x0 q) - dsq (col x0 q) (col x1 q) := by
  unfold k0_pay14
  simp only [addf_apply, subf_apply, pay8_apply, pay9_apply, pay10_apply]

theorem pay1_apply (x0 x1 x2 : Vec Ideal S3x32000 .f32) (q : Fin 32000) :
    k0_pay1 (k0_pay11 x0 x1 x2) (k0_pay14 x0 x1 x2) (ix2 0 q) = kW12 (col x0 q) (col x1 q) (col x2 q) := by
  unfold k0_pay1
  simp only [divf_apply, pay11_apply, pay14_apply]
  rfl

/-! ## One row laid down three rows, and a block of three rows above a block of one -/

theorem bcast_apply (w : FVec Ideal S1x32000 .f32) (h : Shape.Broadcasts S1x32000 S3x32000) (d : Fin 3) (q : Fin 32000) :
    broadcastTo S3x32000 w h (ix2 d q) = w (ix2 0 q) :=
  broadcastTo_apply w h (ix2 d q) (ix2 0 q) (by
    intro a
    match a with
    | ⟨0, _⟩ => rfl
    | ⟨1, _⟩ => rfl)

theorem concat_apply (u : FVec Ideal S3x32000 .f32) (g : FVec Ideal S1x32000 .f32)
    (h : Shape.Concatenates [S3x32000, S1x32000] S4x32000 0) (r : Fin 4) (q : Fin 32000) :
    concatenate S4x32000 0 [⟨S3x32000, u⟩, ⟨S1x32000, g⟩] h (ix2 r q)
      = if hr : r.val < 3 then u (ix2 ⟨r.val, hr⟩ q) else g (ix2 0 q) := by
  split
  · next hr =>
    exact concatenate_pair_apply_left 0 u g h (ix2 r q) rfl (ix2 ⟨r.val, hr⟩ q) (by
      intro b
      match b with
      | ⟨0, _⟩ => rfl
      | ⟨1, _⟩ => rfl)
  · next hr =>
    exact concatenate_pair_apply_right 0 u g h (ix2 r q) rfl rfl (ix2 0 q) (by
      intro b hb
      match b with
      | ⟨0, _⟩ => exact absurd rfl hb
      | ⟨1, _⟩ => rfl) (by
      show 0 + 3 = r.val
      have := r.isLt
      omega)

/-! ## The three stores -/

theorem zeros2 : (![0, 0] : Fin 2 → Nat) = fun _ => 0 := by
  funext a
  match a with
  | ⟨0, _⟩ => rfl
  | ⟨1, _⟩ => rfl

/-- A load of a whole input block reads the block. -/
theorem ld_whole (x : Vec Ideal S3x32000 .f32) : View.ld x r0_0 = x := View.ld_unit_zero zeros2 _ x

/-- What the first corners receive: the second corner weighted by the edge between the first two, the third by the
    edge between the third and the first; and the sum of the two weights. -/
theorem out0_3_apply (x0 x1 x2 : Vec Ideal S3x32000 .f32) (r : Fin 4) (q : Fin 32000) :
    Gen.out0_3 x0 x1 x2 (ix2 r q)
      = Cert.CotLap.msg1 (fun d => x0 (ix2 d q)) (fun d => x1 (ix2 d q)) (fun d => x2 (ix2 d q)) r := by
  unfold out0_3
  rw [View.canon_unit_zero zeros2, ld_whole, ld_whole, ld_whole]
  unfold k0_pay2
  simp only [concat_apply]
  unfold msg1
  split
  · simp only [addf_apply, mulf_apply, bcast_apply, pay1_apply, pay13_apply, pay6_apply, pay7_apply]
  · simp only [addf_apply, pay1_apply, pay13_apply]

/-- What the second corners receive. -/
theorem out0_4_apply (x0 x1 x2 : Vec Ideal S3x32000 .f32) (r : Fin 4) (q : Fin 32000) :
    Gen.out0_4 x0 x1 x2 (ix2 r q)
      = Cert.CotLap.msg2 (fun d => x0 (ix2 d q)) (fun d => x1 (ix2 d q)) (fun d => x2 (ix2 d q)) r := by
  unfold out0_4
  rw [View.canon_unit_zero zeros2, ld_whole, ld_whole, ld_whole]
  unfold k0_pay3
  simp only [concat_apply]
  unfold msg2
  split
  · simp only [addf_apply, mulf_apply, bcast_apply, pay1_apply, pay12_apply, pay5_apply, pay7_apply]
  · simp only [addf_apply, pay1_apply, pay12_apply]

/-- What the third corners receive. -/
theorem out0_5_apply (x0 x1 x2 : Vec Ideal S3x32000 .f32) (r : Fin 4) (q : Fin 32000) :
    Gen.out0_5 x0 x1 x2 (ix2 r q)
      = Cert.CotLap.msg3 (fun d => x0 (ix2 d q)) (fun d => x1 (ix2 d q)) (fun d => x2 (ix2 d q)) r := by
  unfold out0_5
  rw [View.canon_unit_zero zeros2, ld_whole, ld_whole, ld_whole]
  unfold k0_pay4
  simp only [concat_apply]
  unfold msg3
  split
  · simp only [addf_apply, mulf_apply, bcast_apply, pay12_apply, pay13_apply, pay5_apply, pay6_apply]
  · simp only [addf_apply, pay12_apply, pay13_apply]

end Cert.KernelIdeal.Body

end
-- ==== Proof.KRegion.lean ====
/-
  The kernel's region at the exact (extended real) values: what the three output arrays hold after the grid
  has run, as functions of the three input arrays as the region finds them.

  The grid has 100 points; point `t` reads columns `32000 t` to `32000 t + 31999` of each (3, 3200000)
  input array and writes the same columns of each (4, 3200000) output array. The blocks tile the arrays, so
  every column `t` of an output array ends holding the body's result at that column: the message of the
  specification at the three points that are column `t` of the three input arrays.
-/
import proofs.«162177_j39814346834441_2_alg».proof.Proof.KBody

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)
open Cert.CotLap

variable (m : (ℓ : Loc nD τ sig) → Buf (Elt Ideal) ℓ)

/-! ## The index maps: every window's block at point `t` is block (0, t) -/

theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

theorem lt_100 (t : Fin cfg0.N) : t.val < 100 := lt_of_lt_of_eq t.isLt N_0

/-- Column `q` of block `t`, as a column of the array. -/
def gcol (t : Fin cfg0.N) (q : Fin 32000) : Fin 3200000 :=
  ⟨32000 * t.val + q.val, by have := lt_100 t; have := q.isLt; omega⟩

/-- Where input window 0's block at point `t` sits in its array. -/
theorem emb0 (t : Fin cfg0.N) (d : Fin 3) (q : Fin 32000) :
    ((cfg0.win 0).blk t).view.emb (ix2 d q) = ix2 d (gcol t q) := by
  obtain ⟨e0, e1⟩ := (idx_facts t).1
  funext a; apply Fin.ext
  match a with
  | ⟨0, _⟩ => show win0_0.index t (0 : Fin 2) * 3 + 1 * d.val = d.val; omega
  | ⟨1, _⟩ => show win0_0.index t (1 : Fin 2) * 32000 + 1 * q.val = 32000 * t.val + q.val; omega

/-- Where input window 1's block at point `t` sits in its array. -/
theorem emb1 (t : Fin cfg0.N) (d : Fin 3) (q : Fin 32000) :
    ((cfg0.win 1).blk t).view.emb (ix2 d q) = ix2 d (gcol t q) := by
  obtain ⟨e0, e1⟩ := (idx_facts t).2.1
  funext a; apply Fin.ext
  match a with
  | ⟨0, _⟩ => show win0_1.index t (0 : Fin 2) * 3 + 1 * d.val = d.val; omega
  | ⟨1, _⟩ => show win0_1.index t (1 : Fin 2) * 32000 + 1 * q.val = 32000 * t.val + q.val; omega

/-- Where input window 2's block at point `t` sits in its array. -/
theorem emb2 (t : Fin cfg0.N) (d : Fin 3) (q : Fin 32000) :
    ((cfg0.win 2).blk t).view.emb (ix2 d q) = ix2 d (gcol t q) := by
  obtain ⟨e0, e1⟩ := (idx_facts t).2.2.1
  funext a; apply Fin.ext
  match a with
  | ⟨0, _⟩ => show win0_2.index t (0 : Fin 2) * 3 + 1 * d.val = d.val; omega
  | ⟨1, _⟩ => show win0_2.index t (1 : Fin 2) * 32000 + 1 * q.val = 32000 * t.val + q.val; omega

/-- Where output window 3's block at point `t` sits in its array. -/
theorem emb3 (t : Fin cfg0.N) (r : Fin 4) (q : Fin 32000) :
    ((cfg0.win 3).blk t).view.emb (ix2 r q) = ix2 r (gcol t q) := by
  obtain ⟨e0, e1⟩ := (idx_facts t).2.2.2.1
  funext a; apply Fin.ext
  match a with
  | ⟨0, _⟩ => show win0_3.index t (0 : Fin 2) * 4 + 1 * r.val = r.val; omega
  | ⟨1, _⟩ => show win0_3.index t (1 : Fin 2) * 32000 + 1 * q.val = 32000 * t.val + q.val; omega

/-- Where output window 4's block at point `t` sits in its array. -/
theorem emb4 (t : Fin cfg0.N) (r : Fin 4) (q : Fin 32000) :
    ((cfg0.win 4).blk t).view.emb (ix2 r q) = ix2 r (gcol t q) := by
  obtain ⟨e0, e1⟩ := (idx_facts t).2.2.2.2.1
  funext a; apply Fin.ext
  match a with
  | ⟨0, _⟩ => show win0_4.index t (0 : Fin 2) * 4 + 1 * r.val = r.val; omega
  | ⟨1, _⟩ => show win0_4.index t (1 : Fin 2) * 32000 + 1 * q.val = 32000 * t.val + q.val; omega

/-- Where output window 5's block at point `t` sits in its array. -/
theorem emb5 (t : Fin cfg0.N) (r : Fin 4) (q : Fin 32000) :
    ((cfg0.win 5).blk t).view.emb (ix2 r q) = ix2 r (gcol t q) := by
  obtain ⟨e0, e1⟩ := (idx_facts t).2.2.2.2.2
  funext a; apply Fin.ext
  match a with
  | ⟨0, _⟩ => show win0_5.index t (0 : Fin 2) * 4 + 1 * r.val = r.val; omega
  | ⟨1, _⟩ => show win0_5.index t (1 : Fin 2) * 32000 + 1 * q.val = 32000 * t.val + q.val; omega

/-! ## The input blocks, read off the arrays the region finds -/

theorem iblk0_apply (c : Dev nD) (t : Fin cfg0.N) (d : Fin 3) (q : Fin 32000) :
    iblk m c 0 t (ix2 d q) = V m c main_v20 (ix2 d (gcol t q)) := by
  show V m c main_v20 (((cfg0.win 0).blk t).view.emb (ix2 d q)) = _
  rw [emb0]

theorem iblk1_apply (c : Dev nD) (t : Fin cfg0.N) (d : Fin 3) (q : Fin 32000) :
    iblk m c 1 t (ix2 d q) = V m c main_v38 (ix2 d (gcol t q)) := by
  show V m c main_v38 (((cfg0.win 1).blk t).view.emb (ix2 d q)) = _
  rw [emb1]

theorem iblk2_apply (c : Dev nD) (t : Fin cfg0.N) (d : Fin 3) (q : Fin 32000) :
    iblk m c 2 t (ix2 d q) = V m c main_v56 (ix2 d (gcol t q)) := by
  show V m c main_v56 (((cfg0.win 2).blk t).view.emb (ix2 d q)) = _
  rw [emb2]

/-! ## Output window 3 -/

/-- What the array of window 3 ends holding: at row `r` and column `t`, what a face sends to its corner 1, the face's
    three corners being column `t` of the three input arrays. -/
def G3 (A0 A1 A2 : S3x3200000.Idx → EReal) : S4x3200000.Idx → EReal := fun i =>
  msg1 (fun d => A0 (ix2 d ⟨(i 1).val, idx2_lt1 i⟩)) (fun d => A1 (ix2 d ⟨(i 1).val, idx2_lt1 i⟩))
    (fun d => A2 (ix2 d ⟨(i 1).val, idx2_lt1 i⟩)) ⟨(i 0).val, idx2_lt0 i⟩

theorem G3_apply (A0 A1 A2 : S3x3200000.Idx → EReal) (r : Fin 4) (t : Fin 3200000) :
    G3 A0 A1 A2 (ix2 r t) = msg1 (fun d => A0 (ix2 d t)) (fun d => A1 (ix2 d t)) (fun d => A2 (ix2 d t)) r := rfl

/-- WHAT POINT `t` WRITES BACK is block `t` of `G3` of the three input arrays as the region finds them. -/
theorem flushed3_eq (c : Dev nD) (t : Fin cfg0.N) :
    (dats m 0 c).flushed 3 t
      = ((cfg0.win 3).blk t).view.read (Elt Ideal) (G3 (V m c main_v20) (V m c main_v38) (V m c main_v56)) := by
  show (cfg0.win 3).cut (grid0.coords t) ((dats m 0 c).after 3 t) = _
  rw [after0_3]
  funext j
  obtain ⟨r, q, rfl⟩ : ∃ (r : Fin 4) (q : Fin 32000), j = ix2 r q :=
    ⟨⟨(j 0).val, idx2_lt0 j⟩, ⟨(j 1).val, idx2_lt1 j⟩, eq_ix2 j⟩
  show out0_3 (iblk m c 0 t) (iblk m c 1 t) (iblk m c 2 t) (ix2 r q)
    = G3 (V m c main_v20) (V m c main_v38) (V m c main_v56) (((cfg0.win 3).blk t).view.emb (ix2 r q))
  rw [emb3, G3_apply]
  refine (Body.out0_3_apply _ _ _ r q).trans ?_
  simp only [iblk0_apply, iblk1_apply, iblk2_apply]

/-- An index of the array is in point `t`'s block iff each coordinate is in the block's range on its axis. -/
theorem mem_blk3 (t : Fin cfg0.N) (i : S4x3200000.Idx) :
    i ∈ ((cfg0.win 3).blk t).view.set ↔ ∀ a : Fin 2, win0_3.index t a * S4x32000.size a ≤ (i a).val
      ∧ (i a).val < win0_3.index t a * S4x32000.size a + S4x32000.size a := by
  show i ∈ ((View.whole main_v57_0).slice (win0_3.rect t)).set ↔ _
  rw [View.set_slice_whole, Rect.mem_set_unit]
  exact Iff.rfl

/-- The blocks tile the array: column `t` is in the block of point `t / 32000`. -/
theorem cover3 (i : S4x3200000.Idx) :
    ∃ t : Fin cfg0.N, (cfg0.win 3).flush t = true ∧ i ∈ ((cfg0.win 3).blk t).view.set := by
  have hi0 : (i 0).val < 4 := idx2_lt0 i
  have hi1 : (i 1).val < 3200000 := idx2_lt1 i
  have ht : (i 1).val / 32000 < cfg0.N := by
    show (i 1).val / 32000 < grid0.N
    rw [N_0]; omega
  obtain ⟨e0, e1⟩ := (idx_facts ⟨(i 1).val / 32000, ht⟩).2.2.2.1
  have e1' : win0_3.index ⟨(i 1).val / 32000, ht⟩ (1 : Fin 2) = (i 1).val / 32000 := e1
  refine ⟨⟨(i 1).val / 32000, ht⟩, flush0_3 _, ?_⟩
  rw [mem_blk3]
  intro a
  match a with
  | ⟨0, _⟩ =>
    show win0_3.index ⟨(i 1).val / 32000, ht⟩ (0 : Fin 2) * 4 ≤ (i 0).val
      ∧ (i 0).val < win0_3.index ⟨(i 1).val / 32000, ht⟩ (0 : Fin 2) * 4 + 4
    omega
  | ⟨1, _⟩ =>
    show win0_3.index ⟨(i 1).val / 32000, ht⟩ (1 : Fin 2) * 32000 ≤ (i 1).val
      ∧ (i 1).val < win0_3.index ⟨(i 1).val / 32000, ht⟩ (1 : Fin 2) * 32000 + 32000
    omega

/-- THE ARRAY after the grid has run: `G3` of the three input arrays as the region finds them. -/
theorem final3_eq (c : Dev nD) :
    (dats m 0 c).arrAt 3 cfg0.N = G3 (V m c main_v20) (V m c main_v38) (V m c main_v56) :=
  (dats m 0 c).arrAt_eq_of_cover 3 _ (fun t _ => flushed3_eq m c t) cover3

/-- The same, read at row `r` and column `t`. -/
theorem final3 (c : Dev nD) (r : Fin 4) (t : Fin 3200000) :
    (dats (F := Ideal) m 0 c).arrAt 3 cfg0.N (ix2 r t)
      = Cert.CotLap.msg1 (fun d => V m c main_v20 (ix2 d t)) (fun d => V m c main_v38 (ix2 d t))
          (fun d => V m c main_v56 (ix2 d t)) r := by
  rw [final3_eq]
  rfl

/-! ## Output window 4 -/

/-- What the array of window 4 ends holding: at row `r` and column `t`, what a face sends to its corner 2, the face's
    three corners being column `t` of the three input arrays. -/
def G4 (A0 A1 A2 : S3x3200000.Idx → EReal) : S4x3200000.Idx → EReal := fun i =>
  msg2 (fun d => A0 (ix2 d ⟨(i 1).val, idx2_lt1 i⟩)) (fun d => A1 (ix2 d ⟨(i 1).val, idx2_lt1 i⟩))
    (fun d => A2 (ix2 d ⟨(i 1).val, idx2_lt1 i⟩)) ⟨(i 0).val, idx2_lt0 i⟩

theorem G4_apply (A0 A1 A2 : S3x3200000.Idx → EReal) (r : Fin 4) (t : Fin 3200000) :
    G4 A0 A1 A2 (ix2 r t) = msg2 (fun d => A0 (ix2 d t)) (fun d => A1 (ix2 d t)) (fun d => A2 (ix2 d t)) r := rfl

/-- WHAT POINT `t` WRITES BACK is block `t` of `G4` of the three input arrays as the region finds them. -/
theorem flushed4_eq (c : Dev nD) (t : Fin cfg0.N) :
    (dats m 0 c).flushed 4 t
      = ((cfg0.win 4).blk t).view.read (Elt Ideal) (G4 (V m c main_v20) (V m c main_v38) (V m c main_v56)) := by
  show (cfg0.win 4).cut (grid0.coords t) ((dats m 0 c).after 4 t) = _
  rw [after0_4]
  funext j
  obtain ⟨r, q, rfl⟩ : ∃ (r : Fin 4) (q : Fin 32000), j = ix2 r q :=
    ⟨⟨(j 0).val, idx2_lt0 j⟩, ⟨(j 1).val, idx2_lt1 j⟩, eq_ix2 j⟩
  show out0_4 (iblk m c 0 t) (iblk m c 1 t) (iblk m c 2 t) (ix2 r q)
    = G4 (V m c main_v20) (V m c main_v38) (V m c main_v56) (((cfg0.win 4).blk t).view.emb (ix2 r q))
  rw [emb4, G4_apply]
  refine (Body.out0_4_apply _ _ _ r q).trans ?_
  simp only [iblk0_apply, iblk1_apply, iblk2_apply]

/-- An index of the array is in point `t`'s block iff each coordinate is in the block's range on its axis. -/
theorem mem_blk4 (t : Fin cfg0.N) (i : S4x3200000.Idx) :
    i ∈ ((cfg0.win 4).blk t).view.set ↔ ∀ a : Fin 2, win0_4.index t a * S4x32000.size a ≤ (i a).val
      ∧ (i a).val < win0_4.index t a * S4x32000.size a + S4x32000.size a := by
  show i ∈ ((View.whole main_v57_1).slice (win0_4.rect t)).set ↔ _
  rw [View.set_slice_whole, Rect.mem_set_unit]
  exact Iff.rfl

/-- The blocks tile the array: column `t` is in the block of point `t / 32000`. -/
theorem cover4 (i : S4x3200000.Idx) :
    ∃ t : Fin cfg0.N, (cfg0.win 4).flush t = true ∧ i ∈ ((cfg0.win 4).blk t).view.set := by
  have hi0 : (i 0).val < 4 := idx2_lt0 i
  have hi1 : (i 1).val < 3200000 := idx2_lt1 i
  have ht : (i 1).val / 32000 < cfg0.N := by
    show (i 1).val / 32000 < grid0.N
    rw [N_0]; omega
  obtain ⟨e0, e1⟩ := (idx_facts ⟨(i 1).val / 32000, ht⟩).2.2.2.2.1
  have e1' : win0_4.index ⟨(i 1).val / 32000, ht⟩ (1 : Fin 2) = (i 1).val / 32000 := e1
  refine ⟨⟨(i 1).val / 32000, ht⟩, flush0_4 _, ?_⟩
  rw [mem_blk4]
  intro a
  match a with
  | ⟨0, _⟩ =>
    show win0_4.index ⟨(i 1).val / 32000, ht⟩ (0 : Fin 2) * 4 ≤ (i 0).val
      ∧ (i 0).val < win0_4.index ⟨(i 1).val / 32000, ht⟩ (0 : Fin 2) * 4 + 4
    omega
  | ⟨1, _⟩ =>
    show win0_4.index ⟨(i 1).val / 32000, ht⟩ (1 : Fin 2) * 32000 ≤ (i 1).val
      ∧ (i 1).val < win0_4.index ⟨(i 1).val / 32000, ht⟩ (1 : Fin 2) * 32000 + 32000
    omega

/-- THE ARRAY after the grid has run: `G4` of the three input arrays as the region finds them. -/
theorem final4_eq (c : Dev nD) :
    (dats m 0 c).arrAt 4 cfg0.N = G4 (V m c main_v20) (V m c main_v38) (V m c main_v56) :=
  (dats m 0 c).arrAt_eq_of_cover 4 _ (fun t _ => flushed4_eq m c t) cover4

/-- The same, read at row `r` and column `t`. -/
theorem final4 (c : Dev nD) (r : Fin 4) (t : Fin 3200000) :
    (dats (F := Ideal) m 0 c).arrAt 4 cfg0.N (ix2 r t)
      = Cert.CotLap.msg2 (fun d => V m c main_v20 (ix2 d t)) (fun d => V m c main_v38 (ix2 d t))
          (fun d => V m c main_v56 (ix2 d t)) r := by
  rw [final4_eq]
  rfl

/-! ## Output window 5 -/

/-- What the array of window 5 ends holding: at row `r` and column `t`, what a face sends to its corner 3, the face's
    three corners being column `t` of the three input arrays. -/
def G5 (A0 A1 A2 : S3x3200000.Idx → EReal) : S4x3200000.Idx → EReal := fun i =>
  msg3 (fun d => A0 (ix2 d ⟨(i 1).val, idx2_lt1 i⟩)) (fun d => A1 (ix2 d ⟨(i 1).val, idx2_lt1 i⟩))
    (fun d => A2 (ix2 d ⟨(i 1).val, idx2_lt1 i⟩)) ⟨(i 0).val, idx2_lt0 i⟩

theorem G5_apply (A0 A1 A2 : S3x3200000.Idx → EReal) (r : Fin 4) (t : Fin 3200000) :
    G5 A0 A1 A2 (ix2 r t) = msg3 (fun d => A0 (ix2 d t)) (fun d => A1 (ix2 d t)) (fun d => A2 (ix2 d t)) r := rfl

/-- WHAT POINT `t` WRITES BACK is block `t` of `G5` of the three input arrays as the region finds them. -/
theorem flushed5_eq (c : Dev nD) (t : Fin cfg0.N) :
    (dats m 0 c).flushed 5 t
      = ((cfg0.win 5).blk t).view.read (Elt Ideal) (G5 (V m c main_v20) (V m c main_v38) (V m c main_v56)) := by
  show (cfg0.win 5).cut (grid0.coords t) ((dats m 0 c).after 5 t) = _
  rw [after0_5]
  funext j
  obtain ⟨r, q, rfl⟩ : ∃ (r : Fin 4) (q : Fin 32000), j = ix2 r q :=
    ⟨⟨(j 0).val, idx2_lt0 j⟩, ⟨(j 1).val, idx2_lt1 j⟩, eq_ix2 j⟩
  show out0_5 (iblk m c 0 t) (iblk m c 1 t) (iblk m c 2 t) (ix2 r q)
    = G5 (V m c main_v20) (V m c main_v38) (V m c main_v56) (((cfg0.win 5).blk t).view.emb (ix2 r q))
  rw [emb5, G5_apply]
  refine (Body.out0_5_apply _ _ _ r q).trans ?_
  simp only [iblk0_apply, iblk1_apply, iblk2_apply]

/-- An index of the array is in point `t`'s block iff each coordinate is in the block's range on its axis. -/
theorem mem_blk5 (t : Fin cfg0.N) (i : S4x3200000.Idx) :
    i ∈ ((cfg0.win 5).blk t).view.set ↔ ∀ a : Fin 2, win0_5.index t a * S4x32000.size a ≤ (i a).val
      ∧ (i a).val < win0_5.index t a * S4x32000.size a + S4x32000.size a := by
  show i ∈ ((View.whole main_v57_2).slice (win0_5.rect t)).set ↔ _
  rw [View.set_slice_whole, Rect.mem_set_unit]
  exact Iff.rfl

/-- The blocks tile the array: column `t` is in the block of point `t / 32000`. -/
theorem cover5 (i : S4x3200000.Idx) :
    ∃ t : Fin cfg0.N, (cfg0.win 5).flush t = true ∧ i ∈ ((cfg0.win 5).blk t).view.set := by
  have hi0 : (i 0).val < 4 := idx2_lt0 i
  have hi1 : (i 1).val < 3200000 := idx2_lt1 i
  have ht : (i 1).val / 32000 < cfg0.N := by
    show (i 1).val / 32000 < grid0.N
    rw [N_0]; omega
  obtain ⟨e0, e1⟩ := (idx_facts ⟨(i 1).val / 32000, ht⟩).2.2.2.2.2
  have e1' : win0_5.index ⟨(i 1).val / 32000, ht⟩ (1 : Fin 2) = (i 1).val / 32000 := e1
  refine ⟨⟨(i 1).val / 32000, ht⟩, flush0_5 _, ?_⟩
  rw [mem_blk5]
  intro a
  match a with
  | ⟨0, _⟩ =>
    show win0_5.index ⟨(i 1).val / 32000, ht⟩ (0 : Fin 2) * 4 ≤ (i 0).val
      ∧ (i 0).val < win0_5.index ⟨(i 1).val / 32000, ht⟩ (0 : Fin 2) * 4 + 4
    omega
  | ⟨1, _⟩ =>
    show win0_5.index ⟨(i 1).val / 32000, ht⟩ (1 : Fin 2) * 32000 ≤ (i 1).val
      ∧ (i 1).val < win0_5.index ⟨(i 1).val / 32000, ht⟩ (1 : Fin 2) * 32000 + 32000
    omega

/-- THE ARRAY after the grid has run: `G5` of the three input arrays as the region finds them. -/
theorem final5_eq (c : Dev nD) :
    (dats m 0 c).arrAt 5 cfg0.N = G5 (V m c main_v20) (V m c main_v38) (V m c main_v56) :=
  (dats m 0 c).arrAt_eq_of_cover 5 _ (fun t _ => flushed5_eq m c t) cover5

/-- The same, read at row `r` and column `t`. -/
theorem final5 (c : Dev nD) (r : Fin 4) (t : Fin 3200000) :
    (dats (F := Ideal) m 0 c).arrAt 5 cfg0.N (ix2 r t)
      = Cert.CotLap.msg3 (fun d => V m c main_v20 (ix2 d t)) (fun d => V m c main_v38 (ix2 d t))
          (fun d => V m c main_v56 (ix2 d t)) r := by
  rw [final5_eq]
  rfl

end Cert.KernelIdeal.Region

end
-- ==== Proof.KPre.lean ====
/-
  The three arrays the region reads, as functions of the argument arrays.

  Before the region the program transposes the vertex array to `[3, 8, 200000]` (coordinate first) and, for each
  of the three corners `k`, takes column `k` of the face array, pairs every entry with its mesh number, gathers
  the three coordinates of the vertex so named and lays the result out as `[3, 3200000]`: row `d`, column `t`
  holds coordinate `d` of corner `k` of face `t`.
-/
import proofs.«162177_j39814346834441_2_alg».proof.Proof.Gen.KernelIdeal.Frame
import proofs.«162177_j39814346834441_2_alg».proof.Proof.Spec
import Idealize.ShloMosaic.Lib.StableHlo.Run

noncomputable section

namespace Cert.KernelIdeal.Pre

open Cert.KernelIdeal Cert.KernelIdeal.Gen Idealize.ShloMosaic Idealize.ShloMosaic.TcCoe Idealize.SL.Sem Idealize.ShloMosaic.StableHlo
open Cert.KernelIdeal.Facts

variable {F : FTy → Type} [FloatOps F] [Cert.KernelIdeal.Facts]

/-- Column `off 2` of the face array, each entry (a negative one first raised by 200000) paired with its mesh
    number (a negative one first raised by 8): the start indices of the gather. -/
def startIdx (off : Fin 3 → Nat) (hs : S8x400000x3.Slices off S8x400000x1) (Fc : IVec S8x400000x3 32) : IVec S8x400000x2 32 :=
  let v2 : IVec S8x1 32 := broadcastInDim S8x1 ![0] bcast_S8_S8x1_0 (iotaInDim S8 32 0)
  let v4 : IVec S8x400000 32 := shapeCast S8x400000 (extractStridedSlice S8x400000x1 off Fc hs) shapeCasts_S8x400000x1_S8x400000
  let v9 : IVec S8x1 32 := select (cmpi .slt v2 (broadcastInDim S8x1 ![] bcast_S_S8x1 (constantI S_ 32 0#32)))
    (addi v2 (broadcastInDim S8x1 ![] bcast_S_S8x1 (constantI S_ 32 8#32))) v2
  let v14 : IVec S8x400000 32 := select (cmpi .slt v4 (broadcastInDim S8x400000 ![] bcast_S_S8x400000 (constantI S_ 32 0#32)))
    (addi v4 (broadcastInDim S8x400000 ![] bcast_S_S8x400000 (constantI S_ 32 200000#32))) v4
  concatenate S8x400000x2 2
    [⟨S8x400000x1, broadcastInDim S8x400000x1 ![0, 1] bcast_S8x400000_S8x400000x1_0_1 (broadcastInDim S8x400000 ![0, 1] bcast_S8x1_S8x400000_0_1 v9)⟩,
     ⟨S8x400000x1, broadcastInDim S8x400000x1 ![0, 1] bcast_S8x400000_S8x400000x1_0_1 v14⟩]
    concatenates_S8x400000x1_S8x400000x1_S8x400000x2_d2

/-- The corner array: the transposed vertex array gathered at the start indices, as `[3, 3200000]`. -/
def cornerArr (off : Fin 3 → Nat) (hs : S8x400000x3.Slices off S8x400000x1) (V : FVec F S8x200000x3 .f32) (Fc : IVec S8x400000x3 32) :
    FVec F S3x3200000 .f32 :=
  shapeCast S3x3200000
    (Host.gather gather_S3x8x200000_S8x400000x2_S3x8x400000_0_12_n_n_12_2_311
      (transpose S3x8x200000 [2, 0, 1] V transposes_S8x200000x3_S3x8x200000_2_0_1) (startIdx off hs Fc))
    shapeCasts_S3x8x400000_S3x3200000

variable (m : (ℓ : Loc nD τ sig) → Buf (Elt F) ℓ)

theorem V_v20 (c : Dev nD) : (Gen.V m c main_v20 : FVec F S3x3200000 .f32)
    = cornerArr ![0, 0, 0] slices_S8x400000x3_S8x400000x1_0_0_0 (m ((c : Thread nD τ).loc main_arg0)) (m ((c : Thread nD τ).loc main_arg1)) := by
  show StableHlo.after hostOps0 (fun b => m (c, b)) (Proc.devRef .tc main_v20) = _
  after_results_simp
  rfl

theorem V_v38 (c : Dev nD) : (Gen.V m c main_v38 : FVec F S3x3200000 .f32)
    = cornerArr ![0, 0, 1] slices_S8x400000x3_S8x400000x1_0_0_1 (m ((c : Thread nD τ).loc main_arg0)) (m ((c : Thread nD τ).loc main_arg1)) := by
  show StableHlo.after hostOps0 (fun b => m (c, b)) (Proc.devRef .tc main_v38) = _
  after_results_simp
  rfl

theorem V_v56 (c : Dev nD) : (Gen.V m c main_v56 : FVec F S3x3200000 .f32)
    = cornerArr ![0, 0, 2] slices_S8x400000x3_S8x400000x1_0_0_2 (m ((c : Thread nD τ).loc main_arg0)) (m ((c : Thread nD τ).loc main_arg1)) := by
  show StableHlo.after hostOps0 (fun b => m (c, b)) (Proc.devRef .tc main_v56) = _
  after_results_simp
  rfl

end Cert.KernelIdeal.Pre

end
-- ==== Proof.KPreVal.lean ====
/-
  The corner arrays read at an index: row `d`, column `t` of corner array `k` is coordinate `d` of the vertex
  that entry `k` of face `t` names — provided every entry of the face array is a vertex number, `0 ≤ w < 200000`
  (then neither the "negative number + 200000" step nor the gather's clamp changes it).
-/
import proofs.«162177_j39814346834441_2_alg».proof.Proof.KPre
import Idealize.ShloMosaic.Lib.ValueIdx
import Idealize.ShloMosaic.Lib.Pipeline.Value

noncomputable section

namespace Cert.KernelIdeal.Pre

open Cert.KernelIdeal Cert.KernelIdeal.Gen Idealize.ShloMosaic Idealize.ShloMosaic.ValueIdx
open Cert.KernelIdeal.Facts

variable [Cert.KernelIdeal.Facts]

/-- A word that is not negative is left alone by "if negative add `c`". -/
theorem select_slt_zero {w : Nat} (x c : BitVec w) (h : 0 ≤ x.toInt) :
    Scalar.select (IntOp.cmpi .slt x 0#w) (IntOp.addi x c) x = x := by
  have hn : ¬ x.toInt < 0 := not_lt.mpr h
  simp [Scalar.select, IntOp.cmpi, BitVec.slt, hn]

/-- The gather of this program read at `(d, b, f)`: the operand at coordinate `d`, the mesh and the vertex the
    two start-index components name, each read signed and brought into range. -/
theorem gatherK_apply {α : Type} (x : S3x8x200000.Idx → α) (idx : IVec S8x400000x2 32) (d : Fin 3) (b : Fin 8) (f : Fin 400000) :
    Host.gather gather_S3x8x200000_S8x400000x2_S3x8x400000_0_12_n_n_12_2_311 x idx (ix3 d b f)
      = x (ix3 d ⟨min (idx (ix3 b f 0)).toInt.toNat 7, by omega⟩ ⟨min (idx (ix3 b f 1)).toInt.toNat 199999, by omega⟩) := by
  unfold Host.gather
  congr 1
  funext a
  refine Fin.ext ?_
  show gather_S3x8x200000_S8x400000x2_S3x8x400000_0_12_n_n_12_2_311.start (ix3 d b f) idx a + gather_S3x8x200000_S8x400000x2_S3x8x400000_0_12_n_n_12_2_311.batchCoord (ix3 d b f) a + gather_S3x8x200000_S8x400000x2_S3x8x400000_0_12_n_n_12_2_311.offCoord (ix3 d b f) a = _
  rw [GatherDims.batchCoord_eq_zero _ _ _ (show a ∉ ([] : List (Fin 3)) from List.not_mem_nil)]
  have hsi0 : ∀ h, gather_S3x8x200000_S8x400000x2_S3x8x400000_0_12_n_n_12_2_311.siIdx (ix3 d b f) ⟨List.idxOf (⟨1, by decide⟩ : Fin 3) gather_S3x8x200000_S8x400000x2_S3x8x400000_0_12_n_n_12_2_311.startIndexMap, h⟩ = ix3 b f 0 := by
    intro h
    funext c; refine Fin.ext ?_
    match c with
    | ⟨0, _⟩ => rfl
    | ⟨1, _⟩ => rfl
    | ⟨2, _⟩ => rfl
  have hsi1 : ∀ h, gather_S3x8x200000_S8x400000x2_S3x8x400000_0_12_n_n_12_2_311.siIdx (ix3 d b f) ⟨List.idxOf (⟨2, by decide⟩ : Fin 3) gather_S3x8x200000_S8x400000x2_S3x8x400000_0_12_n_n_12_2_311.startIndexMap, h⟩ = ix3 b f 1 := by
    intro h
    funext c; refine Fin.ext ?_
    match c with
    | ⟨0, _⟩ => rfl
    | ⟨1, _⟩ => rfl
    | ⟨2, _⟩ => rfl
  match a with
  | ⟨0, _⟩ =>
    unfold GatherDims.start GatherDims.offCoord
    rw [dif_neg (by simp [gather_S3x8x200000_S8x400000x2_S3x8x400000_0_12_n_n_12_2_311]),
      dif_pos (by simp [gather_S3x8x200000_S8x400000x2_S3x8x400000_0_12_n_n_12_2_311, GatherDims.sKept, Shape.kept])]
    simp only [Nat.zero_add]
    rfl
  | ⟨1, _⟩ =>
    unfold GatherDims.start GatherDims.offCoord
    rw [dif_pos (by simp [gather_S3x8x200000_S8x400000x2_S3x8x400000_0_12_n_n_12_2_311]),
      dif_neg (by simp [gather_S3x8x200000_S8x400000x2_S3x8x400000_0_12_n_n_12_2_311, GatherDims.sKept, Shape.kept])]
    rw [hsi0]
    rfl
  | ⟨2, _⟩ =>
    unfold GatherDims.start GatherDims.offCoord
    rw [dif_pos (by simp [gather_S3x8x200000_S8x400000x2_S3x8x400000_0_12_n_n_12_2_311]),
      dif_neg (by simp [gather_S3x8x200000_S8x400000x2_S3x8x400000_0_12_n_n_12_2_311, GatherDims.sKept, Shape.kept])]
    rw [hsi1]
    rfl

/-- The mesh-number column of the start indices is the mesh number. -/
theorem startIdx_apply0 (off : Fin 3 → Nat) (hs : S8x400000x3.Slices off S8x400000x1) (Fc : IVec S8x400000x3 32)
    (b : Fin 8) (f : Fin 400000) : startIdx off hs Fc (ix3 b f (0 : Fin 2)) = BitVec.ofNat 32 b.val := by
  unfold startIdx
  dsimp only
  rw [concatenate_pair_apply_left (t := S8x400000x2) (s₁ := S8x400000x1) (s₂ := S8x400000x1) (2 : Fin 3) _ _ _
    (ix3 b f (0 : Fin 2)) rfl (ix3 b f (0 : Fin 1)) (fun a => by match a with | ⟨0, _⟩ => rfl | ⟨1, _⟩ => rfl | ⟨2, _⟩ => rfl)]
  rw [broadcastInDim_apply (s := S8x400000) (t := S8x400000x1) _ _ _ (ix3 b f (0 : Fin 1)) (ix2 b f)
    (by intro a; match a with | ⟨0, _⟩ => rfl | ⟨1, _⟩ => rfl)]
  rw [broadcastInDim_apply (s := S8x1) (t := S8x400000) _ _ _ (ix2 b f) (ix2 b (0 : Fin 1))
    (by intro a; match a with | ⟨0, _⟩ => rfl | ⟨1, _⟩ => rfl)]
  show Scalar.select (IntOp.cmpi .slt (broadcastInDim S8x1 ![0] _ (iotaInDim S8 32 0) (ix2 b (0 : Fin 1))) _) _ _ = _
  rw [broadcastInDim_apply (s := S8) (t := S8x1) _ _ _ (ix2 b (0 : Fin 1)) (ix1 b) (by intro a; match a with | ⟨0, _⟩ => rfl)]
  show Scalar.select (IntOp.cmpi .slt (BitVec.ofNat 32 b.val) 0#32) (IntOp.addi (BitVec.ofNat 32 b.val) _) (BitVec.ofNat 32 b.val) = _
  refine select_slt_zero _ _ ?_
  have := b.isLt
  have hb : (BitVec.ofNat 32 b.val).toNat = b.val := by
    rw [BitVec.toNat_ofNat]; exact Nat.mod_eq_of_lt (by omega)
  rw [BitVec.toInt_eq_toNat_of_lt (by rw [hb]; omega)]
  exact Int.natCast_nonneg _

/-- Column `k` of the face array, laid out as `[8, 400000]`. -/
theorem faceCol_apply (k : Fin 3) (hs : S8x400000x3.Slices ![0, 0, k.val] S8x400000x1) (Fc : IVec S8x400000x3 32)
    (b : Fin 8) (f : Fin 400000) :
    shapeCast S8x400000 (extractStridedSlice S8x400000x1 ![0, 0, k.val] Fc hs) shapeCasts_S8x400000x1_S8x400000 (ix2 b f)
      = Fc (ix3 b f k) := by
  rw [shapeCast_apply (s := S8x400000x1) (t := S8x400000) _ _ (ix2 b f) (ix3 b f (0 : Fin 1)) (by
    rw [Shape.rowMajor_val_three, Shape.rowMajor_val_two]
    show (b.val * 400000 + f.val) * 1 + 0 = b.val * 400000 + f.val
    omega)]
  rw [extractStridedSlice_apply (s := S8x400000x3) (t := S8x400000x1) _ _ _ (ix3 b f (0 : Fin 1)) (ix3 b f k) (by
    intro a
    match a with
    | ⟨0, _⟩ => show b.val = 0 + b.val; omega
    | ⟨1, _⟩ => show f.val = 0 + f.val; omega
    | ⟨2, _⟩ => show k.val = k.val + 0; omega)]

/-- The vertex-number column of the start indices is the face array's entry, when that is not negative. -/
theorem startIdx_apply1 (k : Fin 3) (hs : S8x400000x3.Slices ![0, 0, k.val] S8x400000x1) (Fc : IVec S8x400000x3 32)
    (b : Fin 8) (f : Fin 400000) (h : 0 ≤ (Fc (ix3 b f k)).toInt) :
    startIdx ![0, 0, k.val] hs Fc (ix3 b f (1 : Fin 2)) = Fc (ix3 b f k) := by
  unfold startIdx
  dsimp only
  rw [concatenate_pair_apply_right (t := S8x400000x2) (s₁ := S8x400000x1) (s₂ := S8x400000x1) (2 : Fin 3) _ _ _
    (ix3 b f (1 : Fin 2)) rfl rfl (ix3 b f (0 : Fin 1))
    (fun a ha => by
      match a with
      | ⟨0, _⟩ => rfl
      | ⟨1, _⟩ => rfl
      | ⟨2, _⟩ => exact absurd (Fin.ext rfl) ha)
    (by rfl)]
  rw [broadcastInDim_apply (s := S8x400000) (t := S8x400000x1) _ _ _ (ix3 b f (0 : Fin 1)) (ix2 b f)
    (by intro a; match a with | ⟨0, _⟩ => rfl | ⟨1, _⟩ => rfl)]
  show Scalar.select (IntOp.cmpi .slt
      (shapeCast S8x400000 (extractStridedSlice S8x400000x1 ![0, 0, k.val] Fc hs) _ (ix2 b f)) 0#32)
    (IntOp.addi (shapeCast S8x400000 (extractStridedSlice S8x400000x1 ![0, 0, k.val] Fc hs) _ (ix2 b f)) 200000#32)
    (shapeCast S8x400000 (extractStridedSlice S8x400000x1 ![0, 0, k.val] Fc hs) _ (ix2 b f)) = _
  rw [faceCol_apply]
  exact select_slt_zero _ _ h

/-- THE CORNER ARRAY AT `(d, t)`: coordinate `d` of the vertex that entry `k` of face `t` names. -/
theorem cornerArr_apply (k : Fin 3) (hs : S8x400000x3.Slices ![0, 0, k.val] S8x400000x1)
    (V : FVec Ideal S8x200000x3 .f32) (Fc : IVec S8x400000x3 32)
    (hF : ∀ i, 0 ≤ (Fc i).toInt ∧ (Fc i).toInt < 200000) (d : Fin 3) (t : Fin 3200000) :
    cornerArr (F := Ideal) ![0, 0, k.val] hs V Fc (ix2 d t) = Cert.CotLap.corner V Fc t k d := by
  unfold cornerArr
  rw [shapeCast_apply (s := S3x8x400000) (t := S3x3200000) _ _ (ix2 d t) (ix3 d (Cert.CotLap.fb t) (Cert.CotLap.ff t)) (by
    rw [Shape.rowMajor_val_three, Shape.rowMajor_val_two]
    show (d.val * 8 + t.val / 400000) * 400000 + t.val % 400000 = d.val * 3200000 + t.val
    have := t.isLt
    omega)]
  rw [gatherK_apply]
  rw [transpose_apply (s := S8x200000x3) (t := S3x8x200000) _ _ _ _
    (ix3 (Cert.CotLap.fb t) (Cert.CotLap.vnum (Fc (ix3 (Cert.CotLap.fb t) (Cert.CotLap.ff t) k))) d) (by
      intro a
      match a with
      | ⟨0, _⟩ => rfl
      | ⟨1, _⟩ =>
        show (Cert.CotLap.fb t).val
          = min (startIdx ![0, 0, k.val] hs Fc (ix3 (Cert.CotLap.fb t) (Cert.CotLap.ff t) (0 : Fin 2))).toInt.toNat 7
        rw [startIdx_apply0]
        have h8 := (Cert.CotLap.fb t).isLt
        have hb : (BitVec.ofNat 32 (Cert.CotLap.fb t).val).toNat = (Cert.CotLap.fb t).val := by
          rw [BitVec.toNat_ofNat]; exact Nat.mod_eq_of_lt (by omega)
        rw [BitVec.toInt_eq_toNat_of_lt (by rw [hb]; omega), hb]
        simp only [Int.toNat_natCast]
        omega
      | ⟨2, _⟩ =>
        show (Cert.CotLap.vnum (Fc (ix3 (Cert.CotLap.fb t) (Cert.CotLap.ff t) k))).val
          = min (startIdx ![0, 0, k.val] hs Fc (ix3 (Cert.CotLap.fb t) (Cert.CotLap.ff t) (1 : Fin 2))).toInt.toNat 199999
        rw [startIdx_apply1 k hs Fc _ _ (hF _).1]
        rfl)]
  rfl

end Cert.KernelIdeal.Pre

end
-- ==== Proof.KTail.lean ====
/-
  The lines of the program after the region, as one function of what they read.

  For each corner `k` the program forms the scatter's index column: entry `t` is the vertex number, counted
  through all meshes, of corner `k` of face `t` (the mesh number times 200000 plus the face array's entry; a
  negative sum would be raised by 1600000). The three arrays the region leaves are then added, one after the
  other, into a zero array of shape (4, 1600000), each column `t` at the column its index names. Rows 0 to 2 of
  the sum, less row 3 times the vertex array laid out as (3, 1600000), transposed to (1600000, 3), is the result.
-/
import proofs.«162177_j39814346834441_2_alg».proof.Proof.Gen.KernelIdeal.Frame
import proofs.«162177_j39814346834441_2_alg».proof.Proof.Spec
import proofs.«162177_j39814346834441_2_alg».proof.Proof.KPreVal
import Idealize.ShloMosaic.Lib.StableHlo.Run
import Idealize.ShloMosaic.PureOps.Ideal.Laws
import Idealize.ShloMosaic.Lib.ValueIdx
import Idealize.ShloMosaic.Lib.Pipeline.Value

noncomputable section

open scoped BigOperators

namespace Cert.KernelIdeal.Tail

open Cert.KernelIdeal Cert.KernelIdeal.Gen Idealize.ShloMosaic Idealize.ShloMosaic.TcCoe Idealize.SL.Sem Idealize.ShloMosaic.StableHlo
open Idealize.ShloMosaic.ValueIdx
open Cert.KernelIdeal.Facts

section Generic

variable {F : FTy → Type} [FloatOps F] [Cert.KernelIdeal.Facts]

/-- Column `off 2` of the face array plus 200000 times the mesh number, laid out by face. -/
def sumCol (off : Fin 3 → Nat) (hs : S8x400000x3.Slices off S8x400000x1) (Fc : IVec S8x400000x3 32) : IVec S3200000 32 :=
  shapeCast S3200000
    (addi (shapeCast S8x400000 (extractStridedSlice S8x400000x1 off Fc hs) shapeCasts_S8x400000x1_S8x400000)
      (broadcastInDim S8x400000 ![0, 1] bcast_S8x1_S8x400000_0_1
        (broadcastInDim S8x1 ![0] bcast_S8_S8x1_0
          (muli (iotaInDim S8 32 0) (broadcastInDim S8 ![] bcast_S_S8 (constantI S_ 32 200000#32))))))
    shapeCasts_S8x400000_S3200000

/-- The scatter's index column for the corner whose column of the face array is `off 2`: the face array's entry plus
    200000 times the mesh number, laid out by face, a negative one raised by 1600000. -/
def idxCol (off : Fin 3 → Nat) (hs : S8x400000x3.Slices off S8x400000x1) (Fc : IVec S8x400000x3 32) : IVec S3200000x1 32 :=
  broadcastInDim S3200000x1 ![0] bcast_S3200000_S3200000x1_0
    (select (cmpi .slt (sumCol off hs Fc) (broadcastInDim S3200000 ![] bcast_S_S3200000 (constantI S_ 32 0#32)))
      (addi (sumCol off hs Fc) (broadcastInDim S3200000 ![] bcast_S_S3200000 (constantI S_ 32 1600000#32))) (sumCol off hs Fc))

/-- The three scatters into a zero array. -/
def scat3 (Fc : IVec S8x400000x3 32) (O3 O4 O5 : FVec F S4x3200000 .f32) : FVec F S4x1600000 .f32 :=
  Host.scatterAdd scatter_S4x1600000_S3200000x1_S4x3200000_0_1_1_1
    (Host.scatterAdd scatter_S4x1600000_S3200000x1_S4x3200000_0_1_1_1
      (Host.scatterAdd scatter_S4x1600000_S3200000x1_S4x3200000_0_1_1_1
        (broadcastInDim S4x1600000 ![] bcast_S_S4x1600000 (constant S_ .f32 0x00000000#32))
        (idxCol ![0, 0, 0] slices_S8x400000x3_S8x400000x1_0_0_0 Fc) O3)
      (idxCol ![0, 0, 1] slices_S8x400000x3_S8x400000x1_0_0_1 Fc) O4)
    (idxCol ![0, 0, 2] slices_S8x400000x3_S8x400000x1_0_0_2 Fc) O5

/-- The last lines: rows 0 to 2 of the scattered array less row 3 times the vertex array laid out as (3, 1600000),
    transposed. -/
def finish (Vt : FVec F S3x8x200000 .f32) (S : FVec F S4x1600000 .f32) : FVec F S1600000x3 .f32 :=
  transpose S1600000x3 [1, 0]
    (subf (extractStridedSlice S3x1600000 ![0, 0] S slices_S4x1600000_S3x1600000_0_0)
      (mulf (broadcastInDim S3x1600000 ![0, 1] bcast_S1x1600000_S3x1600000_0_1
          (extractStridedSlice S1x1600000 ![3, 0] S slices_S4x1600000_S1x1600000_3_0))
        (shapeCast S3x1600000 Vt shapeCasts_S3x8x200000_S3x1600000)))
    transposes_S3x1600000_S1600000x3_1_0

/-- The lines after the region: from the transposed vertex array, the face array and the three arrays the region
    leaves to the result. -/
def tailFn (Vt : FVec F S3x8x200000 .f32) (Fc : IVec S8x400000x3 32) (O3 O4 O5 : FVec F S4x3200000 .f32) :
    FVec F S1600000x3 .f32 :=
  finish Vt (scat3 Fc O3 O4 O5)

set_option maxHeartbeats 4000000 in
/-- The lines after the region, run from any contents of the buffers, leave `tailFn` of what they read in the result buffer. -/
theorem after_tail (W : Valuation τ sig (Elt F)) :
    (StableHlo.after hostOps1 W (Proc.devRef .tc main_v105) : FVec F S1600000x3 .f32)
      = tailFn (W (Proc.devRef .tc main_v0)) (W (Proc.devRef .tc main_arg1)) (W (Proc.devRef .tc main_v57_0))
          (W (Proc.devRef .tc main_v57_1)) (W (Proc.devRef .tc main_v57_2)) := by
  after_results_simp
  rfl

end Generic

section AtIdeal

variable [Cert.KernelIdeal.Facts]

open Cert.CotLap

/-! ## A filtered sum over a rank-2 index set whose filter fixes the row -/

theorem sum_row {n0 n1 : Nat} (f : (⟨2, ![n0, n1]⟩ : Shape).Idx → EReal)
    (P : (⟨2, ![n0, n1]⟩ : Shape).Idx → Prop) [DecidablePred P] (Q : Fin n1 → Prop) [DecidablePred Q]
    (r : Fin n0) (h : ∀ (a : Fin n0) (b : Fin n1), P (ix2 a b) ↔ (a = r ∧ Q b)) :
    ∑ u ∈ Finset.univ.filter P, f u = ∑ b ∈ Finset.univ.filter Q, f (ix2 r b) := by
  refine Finset.sum_nbij' (fun u => (⟨(u 1).val, idx2_lt1 u⟩ : Fin n1)) (fun b => ix2 r b) ?_ ?_ ?_ ?_ ?_
  · intro u hu
    obtain ⟨a, b, rfl⟩ : ∃ (a : Fin n0) (b : Fin n1), u = ix2 a b := ⟨u 0, u 1, eq_ix2 u⟩
    exact (Finset.mem_filter_univ _).mpr (((h a b).mp ((Finset.mem_filter_univ _).mp hu)).2)
  · intro b hb
    exact (Finset.mem_filter_univ _).mpr ((h r b).mpr ⟨rfl, ((Finset.mem_filter_univ _).mp hb)⟩)
  · intro u hu
    obtain ⟨a, b, rfl⟩ : ∃ (a : Fin n0) (b : Fin n1), u = ix2 a b := ⟨u 0, u 1, eq_ix2 u⟩
    obtain ⟨rfl, _⟩ := (h a b).mp ((Finset.mem_filter_univ _).mp hu)
    rfl
  · intro b _
    rfl
  · intro u hu
    obtain ⟨a, b, rfl⟩ : ∃ (a : Fin n0) (b : Fin n1), u = ix2 a b := ⟨u 0, u 1, eq_ix2 u⟩
    obtain ⟨rfl, _⟩ := (h a b).mp ((Finset.mem_filter_univ _).mp hu)
    rfl

/-! ## Where an update lands -/

/-- On the row axis an update at (a, b) starts at 0 and has window coordinate `a`. -/
theorem sw0 (idx : IVec S3200000x1 32) (a : Fin 4) (b : Fin 3200000) :
    scatter_S4x1600000_S3200000x1_S4x3200000_0_1_1_1.start (ix2 a b) idx 0
      + (scatter_S4x1600000_S3200000x1_S4x3200000_0_1_1_1.window (ix2 a b) 0 : Int) = (a.val : Int) := by
  unfold ScatterDims.start ScatterDims.window
  rw [dif_neg (by simp [scatter_S4x1600000_S3200000x1_S4x3200000_0_1_1_1]),
    dif_pos (by simp [scatter_S4x1600000_S3200000x1_S4x3200000_0_1_1_1, ScatterDims.sKept, Shape.kept])]
  simp only [Int.zero_add]
  rfl

/-- On the column axis it starts at the index column's entry `b`, read signed, and has window coordinate 0. -/
theorem sw1 (idx : IVec S3200000x1 32) (a : Fin 4) (b : Fin 3200000) :
    scatter_S4x1600000_S3200000x1_S4x3200000_0_1_1_1.start (ix2 a b) idx 1
      + (scatter_S4x1600000_S3200000x1_S4x3200000_0_1_1_1.window (ix2 a b) 1 : Int) = (idx (ix2 b 0)).toInt := by
  unfold ScatterDims.start ScatterDims.window
  rw [dif_pos (by simp [scatter_S4x1600000_S3200000x1_S4x3200000_0_1_1_1]),
    dif_neg (by simp [scatter_S4x1600000_S3200000x1_S4x3200000_0_1_1_1, ScatterDims.sKept, Shape.kept])]
  have hsi : ∀ h, scatter_S4x1600000_S3200000x1_S4x3200000_0_1_1_1.siIdx (ix2 a b)
      ⟨List.idxOf (1 : Fin 2) scatter_S4x1600000_S3200000x1_S4x3200000_0_1_1_1.scatterDimsToOperandDims, h⟩ = ix2 b 0 := by
    intro h
    funext c; refine Fin.ext ?_
    match c with
    | ⟨0, _⟩ => rfl
    | ⟨1, _⟩ => rfl
  rw [hsi]
  simp

/-- An update at (a, b) lands at (r, j) exactly when its row is `r` and the index column's entry `b`, read signed, is `j`. -/
theorem resultIdx_iff (idx : IVec S3200000x1 32) (a r : Fin 4) (b : Fin 3200000) (j : Fin 1600000) :
    scatter_S4x1600000_S3200000x1_S4x3200000_0_1_1_1.resultIdx? (ix2 a b) idx = some (ix2 r j)
      ↔ (a = r ∧ (idx (ix2 b 0)).toInt = (j.val : Int)) := by
  have k0 := sw0 idx a b
  have k1 := sw1 idx a b
  unfold ScatterDims.resultIdx?
  constructor
  · intro h
    split at h
    · next hh =>
      have e := Option.some.inj h
      have e0 : (scatter_S4x1600000_S3200000x1_S4x3200000_0_1_1_1.start (ix2 a b) idx 0
          + (scatter_S4x1600000_S3200000x1_S4x3200000_0_1_1_1.window (ix2 a b) 0 : Int)).toNat = r.val :=
        congrArg (fun f : S4x1600000.Idx => (f 0).val) e
      have e1 : (scatter_S4x1600000_S3200000x1_S4x3200000_0_1_1_1.start (ix2 a b) idx 1
          + (scatter_S4x1600000_S3200000x1_S4x3200000_0_1_1_1.window (ix2 a b) 1 : Int)).toNat = j.val :=
        congrArg (fun f : S4x1600000.Idx => (f 1).val) e
      have h1 : 0 ≤ scatter_S4x1600000_S3200000x1_S4x3200000_0_1_1_1.start (ix2 a b) idx 1
          + (scatter_S4x1600000_S3200000x1_S4x3200000_0_1_1_1.window (ix2 a b) 1 : Int) := (hh 1).1
      rw [k0] at e0
      rw [k1] at e1 h1
      refine ⟨Fin.ext (by omega), by omega⟩
    · exact absurd h (by simp)
  · rintro ⟨rfl, hj⟩
    have hh : ∀ a' : Fin 2, 0 ≤ scatter_S4x1600000_S3200000x1_S4x3200000_0_1_1_1.start (ix2 a b) idx a'
          + (scatter_S4x1600000_S3200000x1_S4x3200000_0_1_1_1.window (ix2 a b) a' : Int)
        ∧ scatter_S4x1600000_S3200000x1_S4x3200000_0_1_1_1.start (ix2 a b) idx a'
          + (scatter_S4x1600000_S3200000x1_S4x3200000_0_1_1_1.window (ix2 a b) a' : Int) < (S4x1600000.size a' : Int) := by
      refine Fin.forall_fin_two.mpr ⟨?_, ?_⟩
      · rw [k0]
        have := a.isLt
        exact ⟨by omega, by show (a.val : Int) < 4; omega⟩
      · rw [k1, hj]
        have := j.isLt
        exact ⟨by omega, by show (j.val : Int) < 1600000; omega⟩
    rw [dif_pos hh]
    refine congrArg some (funext (Fin.forall_fin_two.mpr ⟨Fin.ext ?_, Fin.ext ?_⟩))
    · show (scatter_S4x1600000_S3200000x1_S4x3200000_0_1_1_1.start (ix2 a b) idx 0
          + (scatter_S4x1600000_S3200000x1_S4x3200000_0_1_1_1.window (ix2 a b) 0 : Int)).toNat = a.val
      rw [k0]; omega
    · show (scatter_S4x1600000_S3200000x1_S4x3200000_0_1_1_1.start (ix2 a b) idx 1
          + (scatter_S4x1600000_S3200000x1_S4x3200000_0_1_1_1.window (ix2 a b) 1 : Int)).toNat = j.val
      rw [k1, hj]; omega

/-- THE SCATTER AT (r, j): the operand there plus the updates of row `r` whose index is `j`. -/
theorem scatter_apply (x : FVec Ideal S4x1600000 .f32) (idx : IVec S3200000x1 32) (upd : FVec Ideal S4x3200000 .f32)
    (r : Fin 4) (j : Fin 1600000) :
    Host.scatterAdd scatter_S4x1600000_S3200000x1_S4x3200000_0_1_1_1 x idx upd (ix2 r j)
      = x (ix2 r j) + ∑ t ∈ Finset.univ.filter (fun t : Fin 3200000 => (idx (ix2 t 0)).toInt = (j.val : Int)), upd (ix2 r t) := by
  show Ideal.hostScatterAdd scatter_S4x1600000_S3200000x1_S4x3200000_0_1_1_1 x idx upd (ix2 r j) = _
  unfold Ideal.hostScatterAdd
  refine congrArg (fun s => x (ix2 r j) + s) ?_
  exact sum_row upd _ _ r (fun a b => resultIdx_iff idx a r b j)

/-! ## The index column names the vertex the corner is -/

/-- A word whose signed value is not negative has that value as its unsigned one. -/
theorem toNat_of_nonneg (w : BitVec 32) (h : 0 ≤ w.toInt) : (w.toNat : Int) = w.toInt := by
  have e := BitVec.toInt_eq_toNat_cond w
  have hl := w.isLt
  split at e <;> omega

theorem sumCol_apply (k : Fin 3) (hs : S8x400000x3.Slices ![0, 0, k.val] S8x400000x1) (Fc : IVec S8x400000x3 32)
    (t : Fin 3200000) :
    sumCol ![0, 0, k.val] hs Fc (ix1 t)
      = Fc (ix3 (fb t) (ff t) k) + BitVec.ofNat 32 (fb t).val * 200000#32 := by
  unfold sumCol
  rw [shapeCast_apply (s := S8x400000) (t := S3200000) _ _ (ix1 t) (ix2 (fb t) (ff t)) (by
    rw [Shape.rowMajor_val_two, Shape.rowMajor_val_one]
    show (t.val / 400000) * 400000 + t.val % 400000 = t.val
    omega)]
  show IntOp.addi (shapeCast S8x400000 (extractStridedSlice S8x400000x1 ![0, 0, k.val] Fc hs) shapeCasts_S8x400000x1_S8x400000
      (ix2 (fb t) (ff t))) (broadcastInDim (s := S8x1) S8x400000 ![0, 1] bcast_S8x1_S8x400000_0_1 _ (ix2 (fb t) (ff t))) = _
  rw [Pre.faceCol_apply]
  rw [broadcastInDim_apply (s := S8x1) (t := S8x400000) _ _ _ (ix2 (fb t) (ff t)) (ix2 (fb t) (0 : Fin 1))
    (by intro a; match a with | ⟨0, _⟩ => rfl | ⟨1, _⟩ => rfl)]
  rw [broadcastInDim_apply (s := S8) (t := S8x1) _ _ _ (ix2 (fb t) (0 : Fin 1)) (ix1 (fb t))
    (by intro a; match a with | ⟨0, _⟩ => rfl)]
  rfl

/-- Under the range condition the sum does not wrap: it is the vertex number counted through all meshes. -/
theorem sumCol_toInt (k : Fin 3) (hs : S8x400000x3.Slices ![0, 0, k.val] S8x400000x1) (Fc : IVec S8x400000x3 32)
    (hF : ∀ i, 0 ≤ (Fc i).toInt ∧ (Fc i).toInt < 200000) (t : Fin 3200000) :
    (sumCol ![0, 0, k.val] hs Fc (ix1 t)).toInt = ((tgt Fc t k).val : Int) := by
  rw [sumCol_apply]
  have hw := hF (ix3 (fb t) (ff t) k)
  have hwn := toNat_of_nonneg _ hw.1
  have hb : (fb t).val < 8 := (fb t).isLt
  have hx : (Fc (ix3 (fb t) (ff t) k) + BitVec.ofNat 32 (fb t).val * 200000#32).toNat
      = (Fc (ix3 (fb t) (ff t) k)).toNat + (fb t).val * 200000 := by
    rw [BitVec.toNat_add, BitVec.toNat_mul, BitVec.toNat_ofNat]
    show ((Fc (ix3 (fb t) (ff t) k)).toNat + (fb t).val % 4294967296 * 200000 % 4294967296) % 4294967296 = _
    omega
  have htg : (tgt Fc t k).val = (fb t).val * 200000 + min (Fc (ix3 (fb t) (ff t) k)).toInt.toNat 199999 := rfl
  rw [htg, BitVec.toInt_eq_toNat_of_lt (by rw [hx]; omega), hx]
  omega

theorem idxCol_toInt (k : Fin 3) (hs : S8x400000x3.Slices ![0, 0, k.val] S8x400000x1) (Fc : IVec S8x400000x3 32)
    (hF : ∀ i, 0 ≤ (Fc i).toInt ∧ (Fc i).toInt < 200000) (t : Fin 3200000) :
    (idxCol ![0, 0, k.val] hs Fc (ix2 t 0)).toInt = ((tgt Fc t k).val : Int) := by
  have key := sumCol_toInt k hs Fc hF t
  unfold idxCol
  rw [broadcastInDim_apply (s := S3200000) (t := S3200000x1) _ _ _ (ix2 t (0 : Fin 1)) (ix1 t)
    (by intro a; match a with | ⟨0, _⟩ => rfl)]
  show (Scalar.select (IntOp.cmpi .slt (sumCol ![0, 0, k.val] hs Fc (ix1 t)) 0#32)
    (IntOp.addi (sumCol ![0, 0, k.val] hs Fc (ix1 t)) 1600000#32) (sumCol ![0, 0, k.val] hs Fc (ix1 t))).toInt = _
  rw [Pre.select_slt_zero _ _ (by rw [key]; exact Int.natCast_nonneg _)]
  exact key

/-! ## The three scatters are everything sent to a vertex -/

theorem zero_apply (i : S4x1600000.Idx) :
    broadcastInDim S4x1600000 ![] bcast_S_S4x1600000 (constant (F := Ideal) S_ .f32 0x00000000#32) i = 0 := by
  show Ideal.ofBits .f32 0x00000000#32 = 0
  exact Ideal.ofBits_zero_f32

/-- The faces whose index-column entry is `j` are the faces whose corner `k` is vertex `j`. -/
theorem filter_idxCol (k : Fin 3) (hs : S8x400000x3.Slices ![0, 0, k.val] S8x400000x1) (Fc : IVec S8x400000x3 32)
    (hF : ∀ i, 0 ≤ (Fc i).toInt ∧ (Fc i).toInt < 200000) (j : Fin 1600000) :
    Finset.univ.filter (fun t : Fin 3200000 => (idxCol ![0, 0, k.val] hs Fc (ix2 t 0)).toInt = (j.val : Int))
      = Finset.univ.filter (fun t : Fin 3200000 => tgt Fc t k = j) := by
  refine Finset.filter_congr (fun t _ => ?_)
  rw [idxCol_toInt k hs Fc hF t]
  constructor
  · intro h
    exact Fin.ext (by exact_mod_cast h)
  · intro h
    rw [h]

/-- Row `r` at vertex `j` of the three scatters: everything the faces send to `j`, first corners, then second, then third. -/
theorem scat3_apply (V : FVec Ideal S8x200000x3 .f32) (Fc : IVec S8x400000x3 32)
    (hF : ∀ i, 0 ≤ (Fc i).toInt ∧ (Fc i).toInt < 200000) (O3 O4 O5 : FVec Ideal S4x3200000 .f32)
    (h3 : ∀ r t, O3 (ix2 r t) = sent V Fc 0 t r) (h4 : ∀ r t, O4 (ix2 r t) = sent V Fc 1 t r)
    (h5 : ∀ r t, O5 (ix2 r t) = sent V Fc 2 t r) (r : Fin 4) (j : Fin 1600000) :
    scat3 Fc O3 O4 O5 (ix2 r j) = acc V Fc r j := by
  have f0 : Finset.univ.filter (fun t : Fin 3200000 =>
      (idxCol ![0, 0, 0] slices_S8x400000x3_S8x400000x1_0_0_0 Fc (ix2 t 0)).toInt = (j.val : Int))
      = Finset.univ.filter (fun t : Fin 3200000 => tgt Fc t 0 = j) :=
    filter_idxCol 0 slices_S8x400000x3_S8x400000x1_0_0_0 Fc hF j
  have f1 : Finset.univ.filter (fun t : Fin 3200000 =>
      (idxCol ![0, 0, 1] slices_S8x400000x3_S8x400000x1_0_0_1 Fc (ix2 t 0)).toInt = (j.val : Int))
      = Finset.univ.filter (fun t : Fin 3200000 => tgt Fc t 1 = j) :=
    filter_idxCol 1 slices_S8x400000x3_S8x400000x1_0_0_1 Fc hF j
  have f2 : Finset.univ.filter (fun t : Fin 3200000 =>
      (idxCol ![0, 0, 2] slices_S8x400000x3_S8x400000x1_0_0_2 Fc (ix2 t 0)).toInt = (j.val : Int))
      = Finset.univ.filter (fun t : Fin 3200000 => tgt Fc t 2 = j) :=
    filter_idxCol 2 slices_S8x400000x3_S8x400000x1_0_0_2 Fc hF j
  unfold scat3
  rw [scatter_apply, scatter_apply, scatter_apply, zero_apply, zero_add, f0, f1, f2]
  unfold acc
  simp only [h3, h4, h5]

/-! ## The lines after the region give the specification's result -/

/-- The last lines read at vertex `j`, coordinate `d`: row `d` of the scattered array at `j` less row 3 there times
    coordinate `d` of vertex `j`. -/
theorem finish_apply (V : FVec Ideal S8x200000x3 .f32) (S : FVec Ideal S4x1600000 .f32) (j : Fin 1600000) (d : Fin 3)
    (hd : d.val < 4) :
    finish (transpose S3x8x200000 [2, 0, 1] V transposes_S8x200000x3_S3x8x200000_2_0_1) S (ix2 j d)
      = S (ix2 (⟨d.val, hd⟩ : Fin 4) j) - S (ix2 (3 : Fin 4) j) * V (ix3 (vb j) (vn j) d) := by
  unfold finish
  rw [transpose_apply (s := S3x1600000) (t := S1600000x3) _ _ _ (ix2 j d) (ix2 d j)
    (by intro b; match b with | ⟨0, _⟩ => rfl | ⟨1, _⟩ => rfl)]
  rw [subf_apply, mulf_apply]
  rw [extractStridedSlice_apply (s := S4x1600000) (t := S3x1600000) _ _ _ (ix2 d j) (ix2 (⟨d.val, hd⟩ : Fin 4) j) (by
    intro a
    match a with
    | ⟨0, _⟩ => show d.val = 0 + d.val; omega
    | ⟨1, _⟩ => show j.val = 0 + j.val; omega)]
  rw [broadcastInDim_apply (s := S1x1600000) (t := S3x1600000) _ _ _ (ix2 d j) (ix2 (0 : Fin 1) j)
    (by intro a; match a with | ⟨0, _⟩ => rfl | ⟨1, _⟩ => rfl)]
  rw [extractStridedSlice_apply (s := S4x1600000) (t := S1x1600000) _ _ _ (ix2 (0 : Fin 1) j) (ix2 (3 : Fin 4) j) (by
    intro a
    match a with
    | ⟨0, _⟩ => show 3 = 3 + 0; omega
    | ⟨1, _⟩ => show j.val = 0 + j.val; omega)]
  rw [shapeCast_apply (s := S3x8x200000) (t := S3x1600000) _ _ (ix2 d j) (ix3 d (vb j) (vn j)) (by
    rw [Shape.rowMajor_val_three, Shape.rowMajor_val_two]
    show (d.val * 8 + j.val / 200000) * 200000 + j.val % 200000 = d.val * 1600000 + j.val
    have := j.isLt
    omega)]
  rw [transpose_apply (s := S8x200000x3) (t := S3x8x200000) _ _ _ (ix3 d (vb j) (vn j)) (ix3 (vb j) (vn j) d)
    (by intro b; match b with | ⟨0, _⟩ => rfl | ⟨1, _⟩ => rfl | ⟨2, _⟩ => rfl)]

/-- The specification's result at vertex `j`, coordinate `d`. -/
theorem G_apply (V : FVec Ideal S8x200000x3 .f32) (Fc : IVec S8x400000x3 32) (j : Fin 1600000) (d : Fin 3) (hd : d.val < 4) :
    G V Fc (ix2 j d) = acc V Fc ⟨d.val, hd⟩ j - acc V Fc 3 j * V (ix3 (vb j) (vn j) d) := rfl

/-- THE LINES AFTER THE REGION, given the transposed vertex array, a face array of vertex numbers and three arrays
    holding what every face sends to its three corners, leave the specification's result. -/
theorem tailFn_eq_G (V : FVec Ideal S8x200000x3 .f32) (Fc : IVec S8x400000x3 32)
    (hF : ∀ i, 0 ≤ (Fc i).toInt ∧ (Fc i).toInt < 200000) (O3 O4 O5 : FVec Ideal S4x3200000 .f32)
    (h3 : ∀ r t, O3 (ix2 r t) = sent V Fc 0 t r) (h4 : ∀ r t, O4 (ix2 r t) = sent V Fc 1 t r)
    (h5 : ∀ r t, O5 (ix2 r t) = sent V Fc 2 t r) :
    tailFn (transpose S3x8x200000 [2, 0, 1] V transposes_S8x200000x3_S3x8x200000_2_0_1) Fc O3 O4 O5 = G V Fc := by
  funext i
  obtain ⟨j, d, rfl⟩ : ∃ (j : Fin 1600000) (d : Fin 3), i = ix2 j d :=
    ⟨⟨(i 0).val, idx2_lt0 i⟩, ⟨(i 1).val, idx2_lt1 i⟩, eq_ix2 i⟩
  have hd : d.val < 4 := by have := d.isLt; omega
  unfold tailFn
  rw [finish_apply V _ j d hd, scat3_apply V Fc hF O3 O4 O5 h3 h4 h5, scat3_apply V Fc hF O3 O4 O5 h3 h4 h5,
    G_apply V Fc j d hd]

end AtIdeal

end Cert.KernelIdeal.Tail

end
-- ==== Proof.KValue.lean ====
/-
  The whole value of the program at the exact (extended real) values: run on any memory whose face array
  holds vertex numbers only, it ends with the specification's result `G` of the two argument arrays in its
  result buffer, and the argument arrays as they were.

  The three arrays the region reads are the corner arrays of the arguments; the three arrays it leaves hold,
  at row `r` and column `t`, what face `t` sends to each of its corners; the lines after the region add them
  up vertex by vertex and subtract the degree times the vertex.
-/
import proofs.«162177_j39814346834441_2_alg».proof.Proof.KRegion
import proofs.«162177_j39814346834441_2_alg».proof.Proof.KTail

noncomputable section

namespace Cert.KernelIdeal.HandValue

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.KernelIdeal.Facts
open Cert.CotLap

variable (m : (ℓ : Loc nD τ sig) → Buf (Elt Ideal) ℓ) (ρ : Dev nD → PrngReg)

/-! ## What the lines after the region read -/

/-- The transposed vertex array, computed before the region, is still there after it. -/
theorem V_v0 (c : Dev nD) : (Gen.V m c main_v0 : FVec Ideal S3x8x200000 .f32)
    = transpose S3x8x200000 [2, 0, 1] (m ((c : Thread nD τ).loc main_arg0)) transposes_S8x200000x3_S3x8x200000_2_0_1 := by
  show StableHlo.after hostOps0 (fun b => m (c, b)) (Proc.devRef .tc main_v0) = _
  after_results_simp

/-- The array the region leaves for the first corners: at row `r` and column `t`, what face `t` sends to its first corner. -/
theorem O3_apply (c : Dev nD)
    (hF : ∀ i, 0 ≤ ((m ((c : Thread nD τ).loc main_arg1)) i).toInt ∧ ((m ((c : Thread nD τ).loc main_arg1)) i).toInt < 200000)
    (r : Fin 4) (t : Fin 3200000) :
    (dats (F := Ideal) m 0 c).arrAt 3 cfg0.N (ix2 r t)
      = sent (m ((c : Thread nD τ).loc main_arg0)) (m ((c : Thread nD τ).loc main_arg1)) 0 t r := by
  have c0 : ∀ d : Fin 3, Pre.cornerArr (F := Ideal) ![0, 0, 0] slices_S8x400000x3_S8x400000x1_0_0_0 (m ((c : Thread nD τ).loc main_arg0)) (m ((c : Thread nD τ).loc main_arg1)) (ix2 d t)
      = corner (m ((c : Thread nD τ).loc main_arg0)) (m ((c : Thread nD τ).loc main_arg1)) t 0 d :=
    fun d => Pre.cornerArr_apply 0 slices_S8x400000x3_S8x400000x1_0_0_0 (m ((c : Thread nD τ).loc main_arg0)) (m ((c : Thread nD τ).loc main_arg1)) hF d t
  have c1 : ∀ d : Fin 3, Pre.cornerArr (F := Ideal) ![0, 0, 1] slices_S8x400000x3_S8x400000x1_0_0_1 (m ((c : Thread nD τ).loc main_arg0)) (m ((c : Thread nD τ).loc main_arg1)) (ix2 d t)
      = corner (m ((c : Thread nD τ).loc main_arg0)) (m ((c : Thread nD τ).loc main_arg1)) t 1 d :=
    fun d => Pre.cornerArr_apply 1 slices_S8x400000x3_S8x400000x1_0_0_1 (m ((c : Thread nD τ).loc main_arg0)) (m ((c : Thread nD τ).loc main_arg1)) hF d t
  have c2 : ∀ d : Fin 3, Pre.cornerArr (F := Ideal) ![0, 0, 2] slices_S8x400000x3_S8x400000x1_0_0_2 (m ((c : Thread nD τ).loc main_arg0)) (m ((c : Thread nD τ).loc main_arg1)) (ix2 d t)
      = corner (m ((c : Thread nD τ).loc main_arg0)) (m ((c : Thread nD τ).loc main_arg1)) t 2 d :=
    fun d => Pre.cornerArr_apply 2 slices_S8x400000x3_S8x400000x1_0_0_2 (m ((c : Thread nD τ).loc main_arg0)) (m ((c : Thread nD τ).loc main_arg1)) hF d t
  rw [Region.final3 m c r t, Pre.V_v20, Pre.V_v38, Pre.V_v56]
  simp only [c0, c1, c2]
  rfl

/-- The array the region leaves for the second corners: at row `r` and column `t`, what face `t` sends to its second corner. -/
theorem O4_apply (c : Dev nD)
    (hF : ∀ i, 0 ≤ ((m ((c : Thread nD τ).loc main_arg1)) i).toInt ∧ ((m ((c : Thread nD τ).loc main_arg1)) i).toInt < 200000)
    (r : Fin 4) (t : Fin 3200000) :
    (dats (F := Ideal) m 0 c).arrAt 4 cfg0.N (ix2 r t)
      = sent (m ((c : Thread nD τ).loc main_arg0)) (m ((c : Thread nD τ).loc main_arg1)) 1 t r := by
  have c0 : ∀ d : Fin 3, Pre.cornerArr (F := Ideal) ![0, 0, 0] slices_S8x400000x3_S8x400000x1_0_0_0 (m ((c : Thread nD τ).loc main_arg0)) (m ((c : Thread nD τ).loc main_arg1)) (ix2 d t)
      = corner (m ((c : Thread nD τ).loc main_arg0)) (m ((c : Thread nD τ).loc main_arg1)) t 0 d :=
    fun d => Pre.cornerArr_apply 0 slices_S8x400000x3_S8x400000x1_0_0_0 (m ((c : Thread nD τ).loc main_arg0)) (m ((c : Thread nD τ).loc main_arg1)) hF d t
  have c1 : ∀ d : Fin 3, Pre.cornerArr (F := Ideal) ![0, 0, 1] slices_S8x400000x3_S8x400000x1_0_0_1 (m ((c : Thread nD τ).loc main_arg0)) (m ((c : Thread nD τ).loc main_arg1)) (ix2 d t)
      = corner (m ((c : Thread nD τ).loc main_arg0)) (m ((c : Thread nD τ).loc main_arg1)) t 1 d :=
    fun d => Pre.cornerArr_apply 1 slices_S8x400000x3_S8x400000x1_0_0_1 (m ((c : Thread nD τ).loc main_arg0)) (m ((c : Thread nD τ).loc main_arg1)) hF d t
  have c2 : ∀ d : Fin 3, Pre.cornerArr (F := Ideal) ![0, 0, 2] slices_S8x400000x3_S8x400000x1_0_0_2 (m ((c : Thread nD τ).loc main_arg0)) (m ((c : Thread nD τ).loc main_arg1)) (ix2 d t)
      = corner (m ((c : Thread nD τ).loc main_arg0)) (m ((c : Thread nD τ).loc main_arg1)) t 2 d :=
    fun d => Pre.cornerArr_apply 2 slices_S8x400000x3_S8x400000x1_0_0_2 (m ((c : Thread nD τ).loc main_arg0)) (m ((c : Thread nD τ).loc main_arg1)) hF d t
  rw [Region.final4 m c r t, Pre.V_v20, Pre.V_v38, Pre.V_v56]
  simp only [c0, c1, c2]
  rfl

/-- The array the region leaves for the third corners: at row `r` and column `t`, what face `t` sends to its third corner. -/
theorem O5_apply (c : Dev nD)
    (hF : ∀ i, 0 ≤ ((m ((c : Thread nD τ).loc main_arg1)) i).toInt ∧ ((m ((c : Thread nD τ).loc main_arg1)) i).toInt < 200000)
    (r : Fin 4) (t : Fin 3200000) :
    (dats (F := Ideal) m 0 c).arrAt 5 cfg0.N (ix2 r t)
      = sent (m ((c : Thread nD τ).loc main_arg0)) (m ((c : Thread nD τ).loc main_arg1)) 2 t r := by
  have c0 : ∀ d : Fin 3, Pre.cornerArr (F := Ideal) ![0, 0, 0] slices_S8x400000x3_S8x400000x1_0_0_0 (m ((c : Thread nD τ).loc main_arg0)) (m ((c : Thread nD τ).loc main_arg1)) (ix2 d t)
      = corner (m ((c : Thread nD τ).loc main_arg0)) (m ((c : Thread nD τ).loc main_arg1)) t 0 d :=
    fun d => Pre.cornerArr_apply 0 slices_S8x400000x3_S8x400000x1_0_0_0 (m ((c : Thread nD τ).loc main_arg0)) (m ((c : Thread nD τ).loc main_arg1)) hF d t
  have c1 : ∀ d : Fin 3, Pre.cornerArr (F := Ideal) ![0, 0, 1] slices_S8x400000x3_S8x400000x1_0_0_1 (m ((c : Thread nD τ).loc main_arg0)) (m ((c : Thread nD τ).loc main_arg1)) (ix2 d t)
      = corner (m ((c : Thread nD τ).loc main_arg0)) (m ((c : Thread nD τ).loc main_arg1)) t 1 d :=
    fun d => Pre.cornerArr_apply 1 slices_S8x400000x3_S8x400000x1_0_0_1 (m ((c : Thread nD τ).loc main_arg0)) (m ((c : Thread nD τ).loc main_arg1)) hF d t
  have c2 : ∀ d : Fin 3, Pre.cornerArr (F := Ideal) ![0, 0, 2] slices_S8x400000x3_S8x400000x1_0_0_2 (m ((c : Thread nD τ).loc main_arg0)) (m ((c : Thread nD τ).loc main_arg1)) (ix2 d t)
      = corner (m ((c : Thread nD τ).loc main_arg0)) (m ((c : Thread nD τ).loc main_arg1)) t 2 d :=
    fun d => Pre.cornerArr_apply 2 slices_S8x400000x3_S8x400000x1_0_0_2 (m ((c : Thread nD τ).loc main_arg0)) (m ((c : Thread nD τ).loc main_arg1)) hF d t
  rw [Region.final5 m c r t, Pre.V_v20, Pre.V_v38, Pre.V_v56]
  simp only [c0, c1, c2]
  rfl

/-! ## The result buffer after the lines after the region -/

theorem value_v105 (c : Dev nD)
    (hF : ∀ i, 0 ≤ ((m ((c : Thread nD τ).loc main_arg1)) i).toInt ∧ ((m ((c : Thread nD τ).loc main_arg1)) i).toInt < 200000) :
    Pipeline.afterTail₀ cfgs (dats m) 0 (V0 m) [hostOps1] c main_v105
      = G (m ((c : Thread nD τ).loc main_arg0)) (m ((c : Thread nD τ).loc main_arg1)) := by
  unfold Pipeline.afterTail₀
  show StableHlo.after hostOps1 _ (Proc.devRef .tc main_v105) = _
  refine (Tail.after_tail _).trans ?_
  have e0 : Pipeline.withArrays spec0 c (V0 m c) (fun w => (dats m 0 c).arrAt w cfg0.N) (Proc.devRef .tc main_v0) = V m c main_v0 :=
    Pipeline.withArrays_of_ne _ c (V0 m c) _ main_v0 (by exact (by decide : ∀ w, Pipeline.arrRef spec0 w ≠ main_v0))
  have e1 : Pipeline.withArrays spec0 c (V0 m c) (fun w => (dats m 0 c).arrAt w cfg0.N) (Proc.devRef .tc main_arg1) = V m c main_arg1 :=
    Pipeline.withArrays_of_ne _ c (V0 m c) _ main_arg1 (by exact (by decide : ∀ w, Pipeline.arrRef spec0 w ≠ main_arg1))
  have e3 : Pipeline.withArrays spec0 c (V0 m c) (fun w => (dats m 0 c).arrAt w cfg0.N) (Proc.devRef .tc main_v57_0) = (dats m 0 c).arrAt 3 cfg0.N :=
    Pipeline.withArrays_arr spec0 launch0.win.arr_inj c _ _ 3
  have e4 : Pipeline.withArrays spec0 c (V0 m c) (fun w => (dats m 0 c).arrAt w cfg0.N) (Proc.devRef .tc main_v57_1) = (dats m 0 c).arrAt 4 cfg0.N :=
    Pipeline.withArrays_arr spec0 launch0.win.arr_inj c _ _ 4
  have e5 : Pipeline.withArrays spec0 c (V0 m c) (fun w => (dats m 0 c).arrAt w cfg0.N) (Proc.devRef .tc main_v57_2) = (dats m 0 c).arrAt 5 cfg0.N :=
    Pipeline.withArrays_arr spec0 launch0.win.arr_inj c _ _ 5
  rw [e0, e1, e3, e4, e5, V_v0, V_main_arg1]
  exact Tail.tailFn_eq_G _ _ hF _ _ _ (O3_apply m c hF) (O4_apply m c hF) (O5_apply m c hF)

/-! ## The run -/

/-- THE KERNEL PROGRAM'S VALUE: from any memory whose face array holds vertex numbers only, every weakly fair execution
    ends with `G` of the argument arrays in the result buffer and the argument arrays unchanged. -/
theorem run
    (hF : ∀ (c : Dev nD) i, 0 ≤ ((m ((c.tc : Thread nD τ).loc main_arg1)) i).toInt ∧ ((m ((c.tc : Thread nD τ).loc main_arg1)) i).toInt < 200000) :
    θ_run (defs (F := Ideal)) (onTc (τ := τ) (main (F := Ideal))) ⟨m, fun _ => 0, ρ⟩ (fun r => ∀ c : Dev nD,
      r.2.mem ((c.tc : Thread nD τ).loc main_v105) = Cert.CotLap.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v105 (Pipeline.mem_restRefs_of main_v105 (by decide) (by decide))).trans (value_v105 m c (hF c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HandValue

end
-- ==== Proof.RefOps.lean ====
/- The reference program's @main as four lists of its 181 operations, in order (one list per printed
   window, each entry the printed statement's own operation), and the composed pure functions of three stretches
   of it: one let per operation, the operation's own function applied to its operands. Nothing is proved here. -/
import proofs.«162177_j39814346834441_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v15` (it joins its operands along an axis), under a name. -/
def fn_main_v15 : (⟨S8x400000x3x1, .i32⟩ : BufTy).Contents (Elt F) → (⟨S8x400000x3x1, .i32⟩ : BufTy).Contents (Elt F) → (⟨S8x400000x3x2, .i32⟩ : BufTy).Contents (Elt F) :=
  (fun a b => concatenate S8x400000x3x2 3 [⟨S8x400000x3x1, a⟩, ⟨S8x400000x3x1, b⟩] concatenates_S8x400000x3x1_S8x400000x3x1_S8x400000x3x2_d3)

/-- The function of the operation that writes `main_v66` (it joins its operands along an axis), under a name. -/
def fn_main_v66 : (⟨S8x400000x1, .f32⟩ : BufTy).Contents (Elt F) → (⟨S8x400000x1, .f32⟩ : BufTy).Contents (Elt F) → (⟨S8x400000x1, .f32⟩ : BufTy).Contents (Elt F) → (⟨S8x400000x3, .f32⟩ : BufTy).Contents (Elt F) :=
  (fun u0 u1 u2 => concatenate S8x400000x3 2 [⟨S8x400000x1, u0⟩, ⟨S8x400000x1, u1⟩, ⟨S8x400000x1, u2⟩] concatenates_S8x400000x1_S8x400000x1_S8x400000x1_S8x400000x3_d2)

/-- @main's operations 1 … 60 of 181, in order. -/
abbrev ops_p0 : List (HloOp τ sig (Elt F)) :=
  [ nullary main_c (fun i => lit0 (S3.rowMajor i)),
    nullary main_c_0 (fun i => lit1 (S3.rowMajor i)),
    nullary main_v0 (iotaInDim S8 32 0),
    unary main_v0 main_v1 (broadcastInDim S8x1x1 ![0] bcast_S8_S8x1x1_0 : (⟨S8, .i32⟩ : BufTy).Contents (Elt F) → (⟨S8x1x1, .i32⟩ : BufTy).Contents (Elt F)),
    nullary main_c_1 (constantI S_ 32 0#32),
    unary main_c_1 main_v2 (broadcastInDim S8x1x1 ![] bcast_S_S8x1x1 : (⟨S_, .i32⟩ : BufTy).Contents (Elt F) → (⟨S8x1x1, .i32⟩ : BufTy).Contents (Elt F)),
    binary main_v1 main_v2 main_v3 (cmpi .slt : (⟨S8x1x1, .i32⟩ : BufTy).Contents (Elt F) → (⟨S8x1x1, .i32⟩ : BufTy).Contents (Elt F) → (⟨S8x1x1, .i1⟩ : BufTy).Contents (Elt F)),
    nullary main_c_2 (constantI S_ 32 8#32),
    unary main_c_2 main_v4 (broadcastInDim S8x1x1 ![] bcast_S_S8x1x1 : (⟨S_, .i32⟩ : BufTy).Contents (Elt F) → (⟨S8x1x1, .i32⟩ : BufTy).Contents (Elt F)),
    binary main_v1 main_v4 main_v5 (addi : (⟨S8x1x1, .i32⟩ : BufTy).Contents (Elt F) → (⟨S8x1x1, .i32⟩ : BufTy).Contents (Elt F) → (⟨S8x1x1, .i32⟩ : BufTy).Contents (Elt F)),
    ternary main_v3 main_v5 main_v1 main_v6 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_3 (constantI S_ 32 0#32),
    unary main_c_3 main_v7 (broadcastInDim S8x400000x3 ![] bcast_S_S8x400000x3 : (⟨S_, .i32⟩ : BufTy).Contents (Elt F) → (⟨S8x400000x3, .i32⟩ : BufTy).Contents (Elt F)),
    binary main_arg1 main_v7 main_v8 (cmpi .slt : (⟨S8x400000x3, .i32⟩ : BufTy).Contents (Elt F) → (⟨S8x400000x3, .i32⟩ : BufTy).Contents (Elt F) → (⟨S8x400000x3, .i1⟩ : BufTy).Contents (Elt F)),
    nullary main_c_4 (constantI S_ 32 200000#32),
    unary main_c_4 main_v9 (broadcastInDim S8x400000x3 ![] bcast_S_S8x400000x3 : (⟨S_, .i32⟩ : BufTy).Contents (Elt F) → (⟨S8x400000x3, .i32⟩ : BufTy).Contents (Elt F)),
    binary main_arg1 main_v9 main_v10 (addi : (⟨S8x400000x3, .i32⟩ : BufTy).Contents (Elt F) → (⟨S8x400000x3, .i32⟩ : BufTy).Contents (Elt F) → (⟨S8x400000x3, .i32⟩ : BufTy).Contents (Elt F)),
    ternary main_v8 main_v10 main_arg1 main_v11 (select : (⟨S8x400000x3, .i1⟩ : BufTy).Contents (Elt F) → (⟨S8x400000x3, .i32⟩ : BufTy).Contents (Elt F) → (⟨S8x400000x3, .i32⟩ : BufTy).Contents (Elt F) → (⟨S8x400000x3, .i32⟩ : BufTy).Contents (Elt F)),
    unary main_v6 main_v12 (broadcastInDim S8x400000x3 ![0, 1, 2] bcast_S8x1x1_S8x400000x3_0_1_2 : (⟨S8x1x1, .i32⟩ : BufTy).Contents (Elt F) → (⟨S8x400000x3, .i32⟩ : BufTy).Contents (Elt F)),
    unary main_v12 main_v13 (broadcastInDim S8x400000x3x1 ![0, 1, 2] bcast_S8x400000x3_S8x400000x3x1_0_1_2 : (⟨S8x400000x3, .i32⟩ : BufTy).Contents (Elt F) → (⟨S8x400000x3x1, .i32⟩ : BufTy).Contents (Elt F)),
    unary main_v11 main_v14 (broadcastInDim S8x400000x3x1 ![0, 1, 2] bcast_S8x400000x3_S8x400000x3x1_0_1_2 : (⟨S8x400000x3, .i32⟩ : BufTy).Contents (Elt F) → (⟨S8x400000x3x1, .i32⟩ : BufTy).Contents (Elt F)),
    binary main_v13 main_v14 main_v15 (fn_main_v15 (F := F)),
    binary main_arg0 main_v15 main_v16 ((fun x i => Host.gather gather_S8x200000x3_S8x400000x3x2_S8x400000x3x3_3_01_n_n_01_3_113 x i) : (⟨S8x200000x3, .f32⟩ : BufTy).Contents (Elt F) → (⟨S8x400000x3x2, .i32⟩ : BufTy).Contents (Elt F) → (⟨S8x400000x3x3, .f32⟩ : BufTy).Contents (Elt F)),
    unary main_v16 main_v17 ((extractStridedSlice S8x400000x1x3 ![0, 0, 0, 0] · slices_S8x400000x3x3_S8x400000x1x3_0_0_0_0) : (⟨S8x400000x3x3, .f32⟩ : BufTy).Contents (Elt F) → (⟨S8x400000x1x3, .f32⟩ : BufTy).Contents (Elt F)),
    reshape main_v17 main_v18 rfl shapeCasts_S8x400000x1x3_S8x400000x3,
    unary main_v16 main_v19 ((extractStridedSlice S8x400000x1x3 ![0, 0, 1, 0] · slices_S8x400000x3x3_S8x400000x1x3_0_0_1_0) : (⟨S8x400000x3x3, .f32⟩ : BufTy).Contents (Elt F) → (⟨S8x400000x1x3, .f32⟩ : BufTy).Contents (Elt F)),
    reshape main_v19 main_v20 rfl shapeCasts_S8x400000x1x3_S8x400000x3,
    unary main_v16 main_v21 ((extractStridedSlice S8x400000x1x3 ![0, 0, 2, 0] · slices_S8x400000x3x3_S8x400000x1x3_0_0_2_0) : (⟨S8x400000x3x3, .f32⟩ : BufTy).Contents (Elt F) → (⟨S8x400000x1x3, .f32⟩ : BufTy).Contents (Elt F)),
    reshape main_v21 main_v22 rfl shapeCasts_S8x400000x1x3_S8x400000x3,
    binary main_v20 main_v22 main_v23 (subf : (⟨S8x400000x3, .f32⟩ : BufTy).Contents (Elt F) → (⟨S8x400000x3, .f32⟩ : BufTy).Contents (Elt F) → (⟨S8x400000x3, .f32⟩ : BufTy).Contents (Elt F)),
    binary main_v23 main_v23 main_v24 (mulf : (⟨S8x400000x3, .f32⟩ : BufTy).Contents (Elt F) → (⟨S8x400000x3, .f32⟩ : BufTy).Contents (Elt F) → (⟨S8x400000x3, .f32⟩ : BufTy).Contents (Elt F)),
    nullary main_cst (constant S_ .f32 0x00000000#32),
    binary main_v24 main_cst main_v25 ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)),
    unary main_v25 main_v26 (Host.sqrt : (⟨S8x400000, .f32⟩ : BufTy).Contents (Elt F) → (⟨S8x400000, .f32⟩ : BufTy).Contents (Elt F)),
    binary main_v22 main_v18 main_v27 (subf : (⟨S8x400000x3, .f32⟩ : BufTy).Contents (Elt F) → (⟨S8x400000x3, .f32⟩ : BufTy).Contents (Elt F) → (⟨S8x400000x3, .f32⟩ : BufTy).Contents (Elt F)),
    binary main_v27 main_v27 main_v28 (mulf : (⟨S8x400000x3, .f32⟩ : BufTy).Contents (Elt F) → (⟨S8x400000x3, .f32⟩ : BufTy).Contents (Elt F) → (⟨S8x400000x3, .f32⟩ : BufTy).Contents (Elt F)),
    nullary main_cst_5 (constant S_ .f32 0x00000000#32),
    binary main_v28 main_cst_5 main_v29 ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)),
    unary main_v29 main_v30 (Host.sqrt : (⟨S8x400000, .f32⟩ : BufTy).Contents (Elt F) → (⟨S8x400000, .f32⟩ : BufTy).Contents (Elt F)),
    binary main_v18 main_v20 main_v31 (subf : (⟨S8x400000x3, .f32⟩ : BufTy).Contents (Elt F) → (⟨S8x400000x3, .f32⟩ : BufTy).Contents (Elt F) → (⟨S8x400000x3, .f32⟩ : BufTy).Contents (Elt F)),
    binary main_v31 main_v31 main_v32 (mulf : (⟨S8x400000x3, .f32⟩ : BufTy).Contents (Elt F) → (⟨S8x400000x3, .f32⟩ : BufTy).Contents (Elt F) → (⟨S8x400000x3, .f32⟩ : BufTy).Contents (Elt F)),
    nullary main_cst_6 (constant S_ .f32 0x00000000#32),
    binary main_v32 main_cst_6 main_v33 ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)),
    unary main_v33 main_v34 (Host.sqrt : (⟨S8x400000, .f32⟩ : BufTy).Contents (Elt F) → (⟨S8x400000, .f32⟩ : BufTy).Contents (Elt F)),
    binary main_v26 main_v30 main_v35 (addf : (⟨S8x400000, .f32⟩ : BufTy).Contents (Elt F) → (⟨S8x400000, .f32⟩ : BufTy).Contents (Elt F) → (⟨S8x400000, .f32⟩ : BufTy).Contents (Elt F)),
    binary main_v35 main_v34 main_v36 (addf : (⟨S8x400000, .f32⟩ : BufTy).Contents (Elt F) → (⟨S8x400000, .f32⟩ : BufTy).Contents (Elt F) → (⟨S8x400000, .f32⟩ : BufTy).Contents (Elt F)),
    nullary main_cst_7 (constant S_ .f32 0x3F000000#32),
    unary main_cst_7 main_v37 (broadcastInDim S8x400000 ![] bcast_S_S8x400000 : (⟨S_, .f32⟩ : BufTy).Contents (Elt F) → (⟨S8x400000, .f32⟩ : BufTy).Contents (Elt F)),
    binary main_v36 main_v37 main_v38 (mulf : (⟨S8x400000, .f32⟩ : BufTy).Contents (Elt F) → (⟨S8x400000, .f32⟩ : BufTy).Contents (Elt F) → (⟨S8x400000, .f32⟩ : BufTy).Contents (Elt F)),
    binary main_v38 main_v26 main_v39 (subf : (⟨S8x400000, .f32⟩ : BufTy).Contents (Elt F) → (⟨S8x400000, .f32⟩ : BufTy).Contents (Elt F) → (⟨S8x400000, .f32⟩ : BufTy).Contents (Elt F)),
    binary main_v38 main_v39 main_v40 (mulf : (⟨S8x400000, .f32⟩ : BufTy).Contents (Elt F) → (⟨S8x400000, .f32⟩ : BufTy).Contents (Elt F) → (⟨S8x400000, .f32⟩ : BufTy).Contents (Elt F)),
    binary main_v38 main_v30 main_v41 (subf : (⟨S8x400000, .f32⟩ : BufTy).Contents (Elt F) → (⟨S8x400000, .f32⟩ : BufTy).Contents (Elt F) → (⟨S8x400000, .f32⟩ : BufTy).Contents (Elt F)),
    binary main_v40 main_v41 main_v42 (mulf : (⟨S8x400000, .f32⟩ : BufTy).Contents (Elt F) → (⟨S8x400000, .f32⟩ : BufTy).Contents (Elt F) → (⟨S8x400000, .f32⟩ : BufTy).Contents (Elt F)),
    binary main_v38 main_v34 main_v43 (subf : (⟨S8x400000, .f32⟩ : BufTy).Contents (Elt F) → (⟨S8x400000, .f32⟩ : BufTy).Contents (Elt F) → (⟨S8x400000, .f32⟩ : BufTy).Contents (Elt F)),
    binary main_v42 main_v43 main_v44 (mulf : (⟨S8x400000, .f32⟩ : BufTy).Contents (Elt F) → (⟨S8x400000, .f32⟩ : BufTy).Contents (Elt F) → (⟨S8x400000, .f32⟩ : BufTy).Contents (Elt F)),
    unary main_v44 main_v45 (Host.sqrt : (⟨S8x400000, .f32⟩ : BufTy).Contents (Elt F) → (⟨S8x400000, .f32⟩ : BufTy).Contents (Elt F)),
    nullary main_cst_8 (constant S_ .f32 0x40000000#32),
    unary main_cst_8 main_v46 (broadcastInDim S8x400000 ![] bcast_S_S8x400000 : (⟨S_, .f32⟩ : BufTy).Contents (Elt F) → (⟨S8x400000, .f32⟩ : BufTy).Contents (Elt F)),
    binary main_v46 main_v45 main_v47 (mulf : (⟨S8x400000, .f32⟩ : BufTy).Contents (Elt F) → (⟨S8x400000, .f32⟩ : BufTy).Contents (Elt F) → (⟨S8x400000, .f32⟩ : BufTy).Contents (Elt F)),
    binary main_v30 main_v30 main_v48 (mulf : (⟨S8x400000, .f32⟩ : BufTy).Contents (Elt F) → (⟨S8x400000, .f32⟩ : BufTy).Contents (Elt F) → (⟨S8x400000, .f32⟩ : BufTy).Contents (Elt F)) ]

/-- @main's operations 61 … 84 of 181, in order. -/
abbrev ops_p1 : List (HloOp τ sig (Elt F)) :=
  [ binary main_v34 main_v34 main_v49 (mulf : (⟨S8x400000, .f32⟩ : BufTy).Contents (Elt F) → (⟨S8x400000, .f32⟩ : BufTy).Contents (Elt F) → (⟨S8x400000, .f32⟩ : BufTy).Contents (Elt F)),
    binary main_v48 main_v49 main_v50 (addf : (⟨S8x400000, .f32⟩ : BufTy).Contents (Elt F) → (⟨S8x400000, .f32⟩ : BufTy).Contents (Elt F) → (⟨S8x400000, .f32⟩ : BufTy).Contents (Elt F)),
    binary main_v26 main_v26 main_v51 (mulf : (⟨S8x400000, .f32⟩ : BufTy).Contents (Elt F) → (⟨S8x400000, .f32⟩ : BufTy).Contents (Elt F) → (⟨S8x400000, .f32⟩ : BufTy).Contents (Elt F)),
    binary main_v50 main_v51 main_v52 (subf : (⟨S8x400000, .f32⟩ : BufTy).Contents (Elt F) → (⟨S8x400000, .f32⟩ : BufTy).Contents (Elt F) → (⟨S8x400000, .f32⟩ : BufTy).Contents (Elt F)),
    binary main_v26 main_v26 main_v53 (mulf : (⟨S8x400000, .f32⟩ : BufTy).Contents (Elt F) → (⟨S8x400000, .f32⟩ : BufTy).Contents (Elt F) → (⟨S8x400000, .f32⟩ : BufTy).Contents (Elt F)),
    binary main_v34 main_v34 main_v54 (mulf : (⟨S8x400000, .f32⟩ : BufTy).Contents (Elt F) → (⟨S8x400000, .f32⟩ : BufTy).Contents (Elt F) → (⟨S8x400000, .f32⟩ : BufTy).Contents (Elt F)),
    binary main_v53 main_v54 main_v55 (addf : (⟨S8x400000, .f32⟩ : BufTy).Contents (Elt F) → (⟨S8x400000, .f32⟩ : BufTy).Contents (Elt F) → (⟨S8x400000, .f32⟩ : BufTy).Contents (Elt F)),
    binary main_v30 main_v30 main_v56 (mulf : (⟨S8x400000, .f32⟩ : BufTy).Contents (Elt F) → (⟨S8x400000, .f32⟩ : BufTy).Contents (Elt F) → (⟨S8x400000, .f32⟩ : BufTy).Contents (Elt F)),
    binary main_v55 main_v56 main_v57 (subf : (⟨S8x400000, .f32⟩ : BufTy).Contents (Elt F) → (⟨S8x400000, .f32⟩ : BufTy).Contents (Elt F) → (⟨S8x400000, .f32⟩ : BufTy).Contents (Elt F)),
    binary main_v26 main_v26 main_v58 (mulf : (⟨S8x400000, .f32⟩ : BufTy).Contents (Elt F) → (⟨S8x400000, .f32⟩ : BufTy).Contents (Elt F) → (⟨S8x400000, .f32⟩ : BufTy).Contents (Elt F)),
    binary main_v30 main_v30 main_v59 (mulf : (⟨S8x400000, .f32⟩ : BufTy).Contents (Elt F) → (⟨S8x400000, .f32⟩ : BufTy).Contents (Elt F) → (⟨S8x400000, .f32⟩ : BufTy).Contents (Elt F)),
    binary main_v58 main_v59 main_v60 (addf : (⟨S8x400000, .f32⟩ : BufTy).Contents (Elt F) → (⟨S8x400000, .f32⟩ : BufTy).Contents (Elt F) → (⟨S8x400000, .f32⟩ : BufTy).Contents (Elt F)),
    binary main_v34 main_v34 main_v61 (mulf : (⟨S8x400000, .f32⟩ : BufTy).Contents (Elt F) → (⟨S8x400000, .f32⟩ : BufTy).Contents (Elt F) → (⟨S8x400000, .f32⟩ : BufTy).Contents (Elt F)),
    binary main_v60 main_v61 main_v62 (subf : (⟨S8x400000, .f32⟩ : BufTy).Contents (Elt F) → (⟨S8x400000, .f32⟩ : BufTy).Contents (Elt F) → (⟨S8x400000, .f32⟩ : BufTy).Contents (Elt F)),
    unary main_v52 main_v63 (broadcastInDim S8x400000x1 ![0, 1] bcast_S8x400000_S8x400000x1_0_1 : (⟨S8x400000, .f32⟩ : BufTy).Contents (Elt F) → (⟨S8x400000x1, .f32⟩ : BufTy).Contents (Elt F)),
    unary main_v57 main_v64 (broadcastInDim S8x400000x1 ![0, 1] bcast_S8x400000_S8x400000x1_0_1 : (⟨S8x400000, .f32⟩ : BufTy).Contents (Elt F) → (⟨S8x400000x1, .f32⟩ : BufTy).Contents (Elt F)),
    unary main_v62 main_v65 (broadcastInDim S8x400000x1 ![0, 1] bcast_S8x400000_S8x400000x1_0_1 : (⟨S8x400000, .f32⟩ : BufTy).Contents (Elt F) → (⟨S8x400000x1, .f32⟩ : BufTy).Contents (Elt F)),
    nary ![main_v63, main_v64, main_v65] main_v66 (fun u => fn_main_v66 (F := F) (u 0) (u 1) (u 2)),
    unary main_v47 main_v67 (broadcastInDim S8x400000x1 ![0, 1] bcast_S8x400000_S8x400000x1_0_1 : (⟨S8x400000, .f32⟩ : BufTy).Contents (Elt F) → (⟨S8x400000x1, .f32⟩ : BufTy).Contents (Elt F)),
    unary main_v67 main_v68 (broadcastInDim S8x400000x3 ![0, 1, 2] bcast_S8x400000x1_S8x400000x3_0_1_2 : (⟨S8x400000x1, .f32⟩ : BufTy).Contents (Elt F) → (⟨S8x400000x3, .f32⟩ : BufTy).Contents (Elt F)),
    binary main_v66 main_v68 main_v69 (Host.divf : (⟨S8x400000x3, .f32⟩ : BufTy).Contents (Elt F) → (⟨S8x400000x3, .f32⟩ : BufTy).Contents (Elt F) → (⟨S8x400000x3, .f32⟩ : BufTy).Contents (Elt F)),
    nullary main_cst_9 (constant S_ .f32 0x40800000#32),
    unary main_cst_9 main_v70 (broadcastInDim S8x400000x3 ![] bcast_S_S8x400000x3 : (⟨S_, .f32⟩ : BufTy).Contents (Elt F) → (⟨S8x400000x3, .f32⟩ : BufTy).Contents (Elt F)),
    binary main_v69 main_v70 main_v71 (Host.divf : (⟨S8x400000x3, .f32⟩ : BufTy).Contents (Elt F) → (⟨S8x400000x3, .f32⟩ : BufTy).Contents (Elt F) → (⟨S8x400000x3, .f32⟩ : BufTy).Contents (Elt F)) ]

/-- @main's operations 85 … 91 of 181, in order. -/
abbrev ops_p2 : List (HloOp τ sig (Elt F)) :=
  [ nullary main_v72 (iotaInDim S8 32 0),
    nullary main_c_10 (constantI S_ 32 200000#32),
    unary main_c_10 main_v73 (broadcastInDim S8 ![] bcast_S_S8 : (⟨S_, .i32⟩ : BufTy).Contents (Elt F) → (⟨S8, .i32⟩ : BufTy).Contents (Elt F)),
    binary main_v72 main_v73 main_v74 (muli : (⟨S8, .i32⟩ : BufTy).Contents (Elt F) → (⟨S8, .i32⟩ : BufTy).Contents (Elt F) → (⟨S8, .i32⟩ : BufTy).Contents (Elt F)),
    unary main_v74 main_v75 (broadcastInDim S8x1x1 ![0] bcast_S8_S8x1x1_0 : (⟨S8, .i32⟩ : BufTy).Contents (Elt F) → (⟨S8x1x1, .i32⟩ : BufTy).Contents (Elt F)),
    unary main_v75 main_v76 (broadcastInDim S8x400000x3 ![0, 1, 2] bcast_S8x1x1_S8x400000x3_0_1_2 : (⟨S8x1x1, .i32⟩ : BufTy).Contents (Elt F) → (⟨S8x400000x3, .i32⟩ : BufTy).Contents (Elt F)),
    binary main_arg1 main_v76 main_v77 (addi : (⟨S8x400000x3, .i32⟩ : BufTy).Contents (Elt F) → (⟨S8x400000x3, .i32⟩ : BufTy).Contents (Elt F) → (⟨S8x400000x3, .i32⟩ : BufTy).Contents (Elt F)) ]

/-- @main's operations 92 … 120 of 181, in order. -/
abbrev ops_p3 : List (HloOp τ sig (Elt F)) :=
  [ nullary main_c_11 (constantI S_ 32 0#32),
    unary main_c_11 main_v78 (broadcastInDim S3 ![] bcast_S_S3 : (⟨S_, .i32⟩ : BufTy).Contents (Elt F) → (⟨S3, .i32⟩ : BufTy).Contents (Elt F)),
    binary main_c main_v78 main_v79 (cmpi .slt : (⟨S3, .i32⟩ : BufTy).Contents (Elt F) → (⟨S3, .i32⟩ : BufTy).Contents (Elt F) → (⟨S3, .i1⟩ : BufTy).Contents (Elt F)),
    nullary main_c_12 (constantI S_ 32 3#32),
    unary main_c_12 main_v80 (broadcastInDim S3 ![] bcast_S_S3 : (⟨S_, .i32⟩ : BufTy).Contents (Elt F) → (⟨S3, .i32⟩ : BufTy).Contents (Elt F)),
    binary main_c main_v80 main_v81 (addi : (⟨S3, .i32⟩ : BufTy).Contents (Elt F) → (⟨S3, .i32⟩ : BufTy).Contents (Elt F) → (⟨S3, .i32⟩ : BufTy).Contents (Elt F)),
    ternary main_v79 main_v81 main_c main_v82 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v82 main_v83 (broadcastInDim S3x1 ![0] bcast_S3_S3x1_0 : (⟨S3, .i32⟩ : BufTy).Contents (Elt F) → (⟨S3x1, .i32⟩ : BufTy).Contents (Elt F)),
    binary main_v77 main_v83 main_v84 ((fun x i => Host.gather gather_S8x400000x3_S3x1_S8x400000x3_01_2_n_n_2_1_84000001 x i) : (⟨S8x400000x3, .i32⟩ : BufTy).Contents (Elt F) → (⟨S3x1, .i32⟩ : BufTy).Contents (Elt F) → (⟨S8x400000x3, .i32⟩ : BufTy).Contents (Elt F)),
    reshape main_v84 main_v85 rfl shapeCasts_S8x400000x3_S9600000,
    nullary main_c_13 (constantI S_ 32 0#32),
    unary main_c_13 main_v86 (broadcastInDim S3 ![] bcast_S_S3 : (⟨S_, .i32⟩ : BufTy).Contents (Elt F) → (⟨S3, .i32⟩ : BufTy).Contents (Elt F)),
    binary main_c_0 main_v86 main_v87 (cmpi .slt : (⟨S3, .i32⟩ : BufTy).Contents (Elt F) → (⟨S3, .i32⟩ : BufTy).Contents (Elt F) → (⟨S3, .i1⟩ : BufTy).Contents (Elt F)),
    nullary main_c_14 (constantI S_ 32 3#32),
    unary main_c_14 main_v88 (broadcastInDim S3 ![] bcast_S_S3 : (⟨S_, .i32⟩ : BufTy).Contents (Elt F) → (⟨S3, .i32⟩ : BufTy).Contents (Elt F)),
    binary main_c_0 main_v88 main_v89 (addi : (⟨S3, .i32⟩ : BufTy).Contents (Elt F) → (⟨S3, .i32⟩ : BufTy).Contents (Elt F) → (⟨S3, .i32⟩ : BufTy).Contents (Elt F)),
    ternary main_v87 main_v89 main_c_0 main_v90 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v90 main_v91 (broadcastInDim S3x1 ![0] bcast_S3_S3x1_0 : (⟨S3, .i32⟩ : BufTy).Contents (Elt F) → (⟨S3x1, .i32⟩ : BufTy).Contents (Elt F)),
    binary main_v77 main_v91 main_v92 ((fun x i => Host.gather gather_S8x400000x3_S3x1_S8x400000x3_01_2_n_n_2_1_84000001 x i) : (⟨S8x400000x3, .i32⟩ : BufTy).Contents (Elt F) → (⟨S3x1, .i32⟩ : BufTy).Contents (Elt F) → (⟨S8x400000x3, .i32⟩ : BufTy).Contents (Elt F)),
    reshape main_v92 main_v93 rfl shapeCasts_S8x400000x3_S9600000,
    reshape main_v71 main_v94 rfl shapeCasts_S8x400000x3_S9600000,
    reshape main_arg0 main_v95 rfl shapeCasts_S8x200000x3_S1600000x3,
    nullary main_cst_15 (constant S_ .f32 0x00000000#32),
    unary main_cst_15 main_v96 (broadcastInDim S1600000x3 ![] bcast_S_S1600000x3 : (⟨S_, .f32⟩ : BufTy).Contents (Elt F) → (⟨S1600000x3, .f32⟩ : BufTy).Contents (Elt F)),
    unary main_v94 main_v97 (broadcastInDim S9600000x1 ![0] bcast_S9600000_S9600000x1_0 : (⟨S9600000, .f32⟩ : BufTy).Contents (Elt F) → (⟨S9600000x1, .f32⟩ : BufTy).Contents (Elt F)),
    nullary main_c_16 (constantI S_ 32 0#32),
    unary main_c_16 main_v98 (broadcastInDim S9600000 ![] bcast_S_S9600000 : (⟨S_, .i32⟩ : BufTy).Contents (Elt F) → (⟨S9600000, .i32⟩ : BufTy).Contents (Elt F)),
    binary main_v93 main_v98 main_v99 (cmpi .slt : (⟨S9600000, .i32⟩ : BufTy).Contents (Elt F) → (⟨S9600000, .i32⟩ : BufTy).Contents (Elt F) → (⟨S9600000, .i1⟩ : BufTy).Contents (Elt F)),
    nullary main_c_17 (constantI S_ 32 1600000#32) ]

/-- @main's operations 121 … 180 of 181, in order. -/
abbrev ops_p4 : List (HloOp τ sig (Elt F)) :=
  [ unary main_c_17 main_v100 (broadcastInDim S9600000 ![] bcast_S_S9600000 : (⟨S_, .i32⟩ : BufTy).Contents (Elt F) → (⟨S9600000, .i32⟩ : BufTy).Contents (Elt F)),
    binary main_v93 main_v100 main_v101 (addi : (⟨S9600000, .i32⟩ : BufTy).Contents (Elt F) → (⟨S9600000, .i32⟩ : BufTy).Contents (Elt F) → (⟨S9600000, .i32⟩ : BufTy).Contents (Elt F)),
    ternary main_v99 main_v101 main_v93 main_v102 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v102 main_v103 (broadcastInDim S9600000x1 ![0] bcast_S9600000_S9600000x1_0 : (⟨S9600000, .i32⟩ : BufTy).Contents (Elt F) → (⟨S9600000x1, .i32⟩ : BufTy).Contents (Elt F)),
    binary main_v95 main_v103 main_v104 ((fun x i => Host.gather gather_S1600000x3_S9600000x1_S9600000x3_1_0_n_n_0_1_13 x i) : (⟨S1600000x3, .f32⟩ : BufTy).Contents (Elt F) → (⟨S9600000x1, .i32⟩ : BufTy).Contents (Elt F) → (⟨S9600000x3, .f32⟩ : BufTy).Contents (Elt F)),
    unary main_v97 main_v105 (broadcastInDim S9600000x3 ![0, 1] bcast_S9600000x1_S9600000x3_0_1 : (⟨S9600000x1, .f32⟩ : BufTy).Contents (Elt F) → (⟨S9600000x3, .f32⟩ : BufTy).Contents (Elt F)),
    binary main_v105 main_v104 main_v106 (mulf : (⟨S9600000x3, .f32⟩ : BufTy).Contents (Elt F) → (⟨S9600000x3, .f32⟩ : BufTy).Contents (Elt F) → (⟨S9600000x3, .f32⟩ : BufTy).Contents (Elt F)),
    nullary main_c_18 (constantI S_ 32 0#32),
    unary main_c_18 main_v107 (broadcastInDim S9600000 ![] bcast_S_S9600000 : (⟨S_, .i32⟩ : BufTy).Contents (Elt F) → (⟨S9600000, .i32⟩ : BufTy).Contents (Elt F)),
    binary main_v85 main_v107 main_v108 (cmpi .slt : (⟨S9600000, .i32⟩ : BufTy).Contents (Elt F) → (⟨S9600000, .i32⟩ : BufTy).Contents (Elt F) → (⟨S9600000, .i1⟩ : BufTy).Contents (Elt F)),
    nullary main_c_19 (constantI S_ 32 1600000#32),
    unary main_c_19 main_v109 (broadcastInDim S9600000 ![] bcast_S_S9600000 : (⟨S_, .i32⟩ : BufTy).Contents (Elt F) → (⟨S9600000, .i32⟩ : BufTy).Contents (Elt F)),
    binary main_v85 main_v109 main_v110 (addi : (⟨S9600000, .i32⟩ : BufTy).Contents (Elt F) → (⟨S9600000, .i32⟩ : BufTy).Contents (Elt F) → (⟨S9600000, .i32⟩ : BufTy).Contents (Elt F)),
    ternary main_v108 main_v110 main_v85 main_v111 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v111 main_v112 (broadcastInDim S9600000x1 ![0] bcast_S9600000_S9600000x1_0 : (⟨S9600000, .i32⟩ : BufTy).Contents (Elt F) → (⟨S9600000x1, .i32⟩ : BufTy).Contents (Elt F)),
    ternary main_v96 main_v112 main_v106 main_v113 ((fun x i u => Host.scatterAdd scatter_S1600000x3_S9600000x1_S9600000x3_1_0_0_1 x i u) : (⟨S1600000x3, .f32⟩ : BufTy).Contents (Elt F) → (⟨S9600000x1, .i32⟩ : BufTy).Contents (Elt F) → (⟨S9600000x3, .f32⟩ : BufTy).Contents (Elt F) → (⟨S1600000x3, .f32⟩ : BufTy).Contents (Elt F)),
    unary main_v94 main_v114 (broadcastInDim S9600000x1 ![0] bcast_S9600000_S9600000x1_0 : (⟨S9600000, .f32⟩ : BufTy).Contents (Elt F) → (⟨S9600000x1, .f32⟩ : BufTy).Contents (Elt F)),
    nullary main_c_20 (constantI S_ 32 0#32),
    unary main_c_20 main_v115 (broadcastInDim S9600000 ![] bcast_S_S9600000 : (⟨S_, .i32⟩ : BufTy).Contents (Elt F) → (⟨S9600000, .i32⟩ : BufTy).Contents (Elt F)),
    binary main_v85 main_v115 main_v116 (cmpi .slt : (⟨S9600000, .i32⟩ : BufTy).Contents (Elt F) → (⟨S9600000, .i32⟩ : BufTy).Contents (Elt F) → (⟨S9600000, .i1⟩ : BufTy).Contents (Elt F)),
    nullary main_c_21 (constantI S_ 32 1600000#32),
    unary main_c_21 main_v117 (broadcastInDim S9600000 ![] bcast_S_S9600000 : (⟨S_, .i32⟩ : BufTy).Contents (Elt F) → (⟨S9600000, .i32⟩ : BufTy).Contents (Elt F)),
    binary main_v85 main_v117 main_v118 (addi : (⟨S9600000, .i32⟩ : BufTy).Contents (Elt F) → (⟨S9600000, .i32⟩ : BufTy).Contents (Elt F) → (⟨S9600000, .i32⟩ : BufTy).Contents (Elt F)),
    ternary main_v116 main_v118 main_v85 main_v119 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v119 main_v120 (broadcastInDim S9600000x1 ![0] bcast_S9600000_S9600000x1_0 : (⟨S9600000, .i32⟩ : BufTy).Contents (Elt F) → (⟨S9600000x1, .i32⟩ : BufTy).Contents (Elt F)),
    binary main_v95 main_v120 main_v121 ((fun x i => Host.gather gather_S1600000x3_S9600000x1_S9600000x3_1_0_n_n_0_1_13 x i) : (⟨S1600000x3, .f32⟩ : BufTy).Contents (Elt F) → (⟨S9600000x1, .i32⟩ : BufTy).Contents (Elt F) → (⟨S9600000x3, .f32⟩ : BufTy).Contents (Elt F)),
    unary main_v114 main_v122 (broadcastInDim S9600000x3 ![0, 1] bcast_S9600000x1_S9600000x3_0_1 : (⟨S9600000x1, .f32⟩ : BufTy).Contents (Elt F) → (⟨S9600000x3, .f32⟩ : BufTy).Contents (Elt F)),
    binary main_v122 main_v121 main_v123 (mulf : (⟨S9600000x3, .f32⟩ : BufTy).Contents (Elt F) → (⟨S9600000x3, .f32⟩ : BufTy).Contents (Elt F) → (⟨S9600000x3, .f32⟩ : BufTy).Contents (Elt F)),
    nullary main_c_22 (constantI S_ 32 0#32),
    unary main_c_22 main_v124 (broadcastInDim S9600000 ![] bcast_S_S9600000 : (⟨S_, .i32⟩ : BufTy).Contents (Elt F) → (⟨S9600000, .i32⟩ : BufTy).Contents (Elt F)),
    binary main_v93 main_v124 main_v125 (cmpi .slt : (⟨S9600000, .i32⟩ : BufTy).Contents (Elt F) → (⟨S9600000, .i32⟩ : BufTy).Contents (Elt F) → (⟨S9600000, .i1⟩ : BufTy).Contents (Elt F)),
    nullary main_c_23 (constantI S_ 32 1600000#32),
    unary main_c_23 main_v126 (broadcastInDim S9600000 ![] bcast_S_S9600000 : (⟨S_, .i32⟩ : BufTy).Contents (Elt F) → (⟨S9600000, .i32⟩ : BufTy).Contents (Elt F)),
    binary main_v93 main_v126 main_v127 (addi : (⟨S9600000, .i32⟩ : BufTy).Contents (Elt F) → (⟨S9600000, .i32⟩ : BufTy).Contents (Elt F) → (⟨S9600000, .i32⟩ : BufTy).Contents (Elt F)),
    ternary main_v125 main_v127 main_v93 main_v128 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v128 main_v129 (broadcastInDim S9600000x1 ![0] bcast_S9600000_S9600000x1_0 : (⟨S9600000, .i32⟩ : BufTy).Contents (Elt F) → (⟨S9600000x1, .i32⟩ : BufTy).Contents (Elt F)),
    ternary main_v113 main_v129 main_v123 main_v130 ((fun x i u => Host.scatterAdd scatter_S1600000x3_S9600000x1_S9600000x3_1_0_0_1 x i u) : (⟨S1600000x3, .f32⟩ : BufTy).Contents (Elt F) → (⟨S9600000x1, .i32⟩ : BufTy).Contents (Elt F) → (⟨S9600000x3, .f32⟩ : BufTy).Contents (Elt F) → (⟨S1600000x3, .f32⟩ : BufTy).Contents (Elt F)),
    nullary main_cst_24 (constant S_ .f32 0x00000000#32),
    unary main_cst_24 main_v131 (broadcastInDim S1600000 ![] bcast_S_S1600000 : (⟨S_, .f32⟩ : BufTy).Contents (Elt F) → (⟨S1600000, .f32⟩ : BufTy).Contents (Elt F)),
    nullary main_c_25 (constantI S_ 32 0#32),
    unary main_c_25 main_v132 (broadcastInDim S9600000 ![] bcast_S_S9600000 : (⟨S_, .i32⟩ : BufTy).Contents (Elt F) → (⟨S9600000, .i32⟩ : BufTy).Contents (Elt F)),
    binary main_v85 main_v132 main_v133 (cmpi .slt : (⟨S9600000, .i32⟩ : BufTy).Contents (Elt F) → (⟨S9600000, .i32⟩ : BufTy).Contents (Elt F) → (⟨S9600000, .i1⟩ : BufTy).Contents (Elt F)),
    nullary main_c_26 (constantI S_ 32 1600000#32),
    unary main_c_26 main_v134 (broadcastInDim S9600000 ![] bcast_S_S9600000 : (⟨S_, .i32⟩ : BufTy).Contents (Elt F) → (⟨S9600000, .i32⟩ : BufTy).Contents (Elt F)),
    binary main_v85 main_v134 main_v135 (addi : (⟨S9600000, .i32⟩ : BufTy).Contents (Elt F) → (⟨S9600000, .i32⟩ : BufTy).Contents (Elt F) → (⟨S9600000, .i32⟩ : BufTy).Contents (Elt F)),
    ternary main_v133 main_v135 main_v85 main_v136 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v136 main_v137 (broadcastInDim S9600000x1 ![0] bcast_S9600000_S9600000x1_0 : (⟨S9600000, .i32⟩ : BufTy).Contents (Elt F) → (⟨S9600000x1, .i32⟩ : BufTy).Contents (Elt F)),
    ternary main_v131 main_v137 main_v94 main_v138 ((fun x i u => Host.scatterAdd scatter_S1600000_S9600000x1_S9600000_n_0_0_1 x i u) : (⟨S1600000, .f32⟩ : BufTy).Contents (Elt F) → (⟨S9600000x1, .i32⟩ : BufTy).Contents (Elt F) → (⟨S9600000, .f32⟩ : BufTy).Contents (Elt F) → (⟨S1600000, .f32⟩ : BufTy).Contents (Elt F)),
    nullary main_c_27 (constantI S_ 32 0#32),
    unary main_c_27 main_v139 (broadcastInDim S9600000 ![] bcast_S_S9600000 : (⟨S_, .i32⟩ : BufTy).Contents (Elt F) → (⟨S9600000, .i32⟩ : BufTy).Contents (Elt F)),
    binary main_v93 main_v139 main_v140 (cmpi .slt : (⟨S9600000, .i32⟩ : BufTy).Contents (Elt F) → (⟨S9600000, .i32⟩ : BufTy).Contents (Elt F) → (⟨S9600000, .i1⟩ : BufTy).Contents (Elt F)),
    nullary main_c_28 (constantI S_ 32 1600000#32),
    unary main_c_28 main_v141 (broadcastInDim S9600000 ![] bcast_S_S9600000 : (⟨S_, .i32⟩ : BufTy).Contents (Elt F) → (⟨S9600000, .i32⟩ : BufTy).Contents (Elt F)),
    binary main_v93 main_v141 main_v142 (addi : (⟨S9600000, .i32⟩ : BufTy).Contents (Elt F) → (⟨S9600000, .i32⟩ : BufTy).Contents (Elt F) → (⟨S9600000, .i32⟩ : BufTy).Contents (Elt F)),
    ternary main_v140 main_v142 main_v93 main_v143 (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)),
    unary main_v143 main_v144 (broadcastInDim S9600000x1 ![0] bcast_S9600000_S9600000x1_0 : (⟨S9600000, .i32⟩ : BufTy).Contents (Elt F) → (⟨S9600000x1, .i32⟩ : BufTy).Contents (Elt F)),
    ternary main_v138 main_v144 main_v94 main_v145 ((fun x i u => Host.scatterAdd scatter_S1600000_S9600000x1_S9600000_n_0_0_1 x i u) : (⟨S1600000, .f32⟩ : BufTy).Contents (Elt F) → (⟨S9600000x1, .i32⟩ : BufTy).Contents (Elt F) → (⟨S9600000, .f32⟩ : BufTy).Contents (Elt F) → (⟨S1600000, .f32⟩ : BufTy).Contents (Elt F)),
    unary main_v145 main_v146 (broadcastInDim S1600000x1 ![0] bcast_S1600000_S1600000x1_0 : (⟨S1600000, .f32⟩ : BufTy).Contents (Elt F) → (⟨S1600000x1, .f32⟩ : BufTy).Contents (Elt F)),
    unary main_v146 main_v147 (broadcastInDim S1600000x3 ![0, 1] bcast_S1600000x1_S1600000x3_0_1 : (⟨S1600000x1, .f32⟩ : BufTy).Contents (Elt F) → (⟨S1600000x3, .f32⟩ : BufTy).Contents (Elt F)),
    binary main_v147 main_v95 main_v148 (mulf : (⟨S1600000x3, .f32⟩ : BufTy).Contents (Elt F) → (⟨S1600000x3, .f32⟩ : BufTy).Contents (Elt F) → (⟨S1600000x3, .f32⟩ : BufTy).Contents (Elt F)) ]

/-- @main's operations 181 … 181 of 181, in order. -/
abbrev ops_p5 : List (HloOp τ sig (Elt F)) :=
  [ binary main_v130 main_v148 main_v149 (subf : (⟨S1600000x3, .f32⟩ : BufTy).Contents (Elt F) → (⟨S1600000x3, .f32⟩ : BufTy).Contents (Elt F) → (⟨S1600000x3, .f32⟩ : BufTy).Contents (Elt F)) ]

/-- The weight array: the value of `main_v71` from the two arguments (the operations it depends on, in order). -/
def stC (V : FVec F S8x200000x3 .f32) (Fc : IVec S8x400000x3 32) : FVec F S8x400000x3 .f32 :=
  let v0 : (⟨S8, .i32⟩ : BufTy).Contents (Elt F) := (iotaInDim S8 32 0)
  let v1 : (⟨S8x1x1, .i32⟩ : BufTy).Contents (Elt F) := (broadcastInDim S8x1x1 ![0] bcast_S8_S8x1x1_0 : (⟨S8, .i32⟩ : BufTy).Contents (Elt F) → (⟨S8x1x1, .i32⟩ : BufTy).Contents (Elt F)) v0
  let c_1 : (⟨S_, .i32⟩ : BufTy).Contents (Elt F) := (constantI S_ 32 0#32)
  let v2 : (⟨S8x1x1, .i32⟩ : BufTy).Contents (Elt F) := (broadcastInDim S8x1x1 ![] bcast_S_S8x1x1 : (⟨S_, .i32⟩ : BufTy).Contents (Elt F) → (⟨S8x1x1, .i32⟩ : BufTy).Contents (Elt F)) c_1
  let v3 : (⟨S8x1x1, .i1⟩ : BufTy).Contents (Elt F) := (cmpi .slt : (⟨S8x1x1, .i32⟩ : BufTy).Contents (Elt F) → (⟨S8x1x1, .i32⟩ : BufTy).Contents (Elt F) → (⟨S8x1x1, .i1⟩ : BufTy).Contents (Elt F)) v1 v2
  let c_2 : (⟨S_, .i32⟩ : BufTy).Contents (Elt F) := (constantI S_ 32 8#32)
  let v4 : (⟨S8x1x1, .i32⟩ : BufTy).Contents (Elt F) := (broadcastInDim S8x1x1 ![] bcast_S_S8x1x1 : (⟨S_, .i32⟩ : BufTy).Contents (Elt F) → (⟨S8x1x1, .i32⟩ : BufTy).Contents (Elt F)) c_2
  let v5 : (⟨S8x1x1, .i32⟩ : BufTy).Contents (Elt F) := (addi : (⟨S8x1x1, .i32⟩ : BufTy).Contents (Elt F) → (⟨S8x1x1, .i32⟩ : BufTy).Contents (Elt F) → (⟨S8x1x1, .i32⟩ : BufTy).Contents (Elt F)) v1 v4
  let v6 : (⟨S8x1x1, .i32⟩ : BufTy).Contents (Elt F) := (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)) v3 v5 v1
  let c_3 : (⟨S_, .i32⟩ : BufTy).Contents (Elt F) := (constantI S_ 32 0#32)
  let v7 : (⟨S8x400000x3, .i32⟩ : BufTy).Contents (Elt F) := (broadcastInDim S8x400000x3 ![] bcast_S_S8x400000x3 : (⟨S_, .i32⟩ : BufTy).Contents (Elt F) → (⟨S8x400000x3, .i32⟩ : BufTy).Contents (Elt F)) c_3
  let v8 : (⟨S8x400000x3, .i1⟩ : BufTy).Contents (Elt F) := (cmpi .slt : (⟨S8x400000x3, .i32⟩ : BufTy).Contents (Elt F) → (⟨S8x400000x3, .i32⟩ : BufTy).Contents (Elt F) → (⟨S8x400000x3, .i1⟩ : BufTy).Contents (Elt F)) Fc v7
  let c_4 : (⟨S_, .i32⟩ : BufTy).Contents (Elt F) := (constantI S_ 32 200000#32)
  let v9 : (⟨S8x400000x3, .i32⟩ : BufTy).Contents (Elt F) := (broadcastInDim S8x400000x3 ![] bcast_S_S8x400000x3 : (⟨S_, .i32⟩ : BufTy).Contents (Elt F) → (⟨S8x400000x3, .i32⟩ : BufTy).Contents (Elt F)) c_4
  let v10 : (⟨S8x400000x3, .i32⟩ : BufTy).Contents (Elt F) := (addi : (⟨S8x400000x3, .i32⟩ : BufTy).Contents (Elt F) → (⟨S8x400000x3, .i32⟩ : BufTy).Contents (Elt F) → (⟨S8x400000x3, .i32⟩ : BufTy).Contents (Elt F)) Fc v9
  let v11 : (⟨S8x400000x3, .i32⟩ : BufTy).Contents (Elt F) := (select : (⟨S8x400000x3, .i1⟩ : BufTy).Contents (Elt F) → (⟨S8x400000x3, .i32⟩ : BufTy).Contents (Elt F) → (⟨S8x400000x3, .i32⟩ : BufTy).Contents (Elt F) → (⟨S8x400000x3, .i32⟩ : BufTy).Contents (Elt F)) v8 v10 Fc
  let v12 : (⟨S8x400000x3, .i32⟩ : BufTy).Contents (Elt F) := (broadcastInDim S8x400000x3 ![0, 1, 2] bcast_S8x1x1_S8x400000x3_0_1_2 : (⟨S8x1x1, .i32⟩ : BufTy).Contents (Elt F) → (⟨S8x400000x3, .i32⟩ : BufTy).Contents (Elt F)) v6
  let v13 : (⟨S8x400000x3x1, .i32⟩ : BufTy).Contents (Elt F) := (broadcastInDim S8x400000x3x1 ![0, 1, 2] bcast_S8x400000x3_S8x400000x3x1_0_1_2 : (⟨S8x400000x3, .i32⟩ : BufTy).Contents (Elt F) → (⟨S8x400000x3x1, .i32⟩ : BufTy).Contents (Elt F)) v12
  let v14 : (⟨S8x400000x3x1, .i32⟩ : BufTy).Contents (Elt F) := (broadcastInDim S8x400000x3x1 ![0, 1, 2] bcast_S8x400000x3_S8x400000x3x1_0_1_2 : (⟨S8x400000x3, .i32⟩ : BufTy).Contents (Elt F) → (⟨S8x400000x3x1, .i32⟩ : BufTy).Contents (Elt F)) v11
  let v15 : (⟨S8x400000x3x2, .i32⟩ : BufTy).Contents (Elt F) := ((fun a b => concatenate S8x400000x3x2 3 [⟨S8x400000x3x1, a⟩, ⟨S8x400000x3x1, b⟩] concatenates_S8x400000x3x1_S8x400000x3x1_S8x400000x3x2_d3) : (⟨S8x400000x3x1, .i32⟩ : BufTy).Contents (Elt F) → (⟨S8x400000x3x1, .i32⟩ : BufTy).Contents (Elt F) → (⟨S8x400000x3x2, .i32⟩ : BufTy).Contents (Elt F)) v13 v14
  let v16 : (⟨S8x400000x3x3, .f32⟩ : BufTy).Contents (Elt F) := ((fun x i => Host.gather gather_S8x200000x3_S8x400000x3x2_S8x400000x3x3_3_01_n_n_01_3_113 x i) : (⟨S8x200000x3, .f32⟩ : BufTy).Contents (Elt F) → (⟨S8x400000x3x2, .i32⟩ : BufTy).Contents (Elt F) → (⟨S8x400000x3x3, .f32⟩ : BufTy).Contents (Elt F)) V v15
  let v17 : (⟨S8x400000x1x3, .f32⟩ : BufTy).Contents (Elt F) := ((extractStridedSlice S8x400000x1x3 ![0, 0, 0, 0] · slices_S8x400000x3x3_S8x400000x1x3_0_0_0_0) : (⟨S8x400000x3x3, .f32⟩ : BufTy).Contents (Elt F) → (⟨S8x400000x1x3, .f32⟩ : BufTy).Contents (Elt F)) v16
  let v18 : (⟨S8x400000x3, .f32⟩ : BufTy).Contents (Elt F) := shapeCast S8x400000x3 v17 shapeCasts_S8x400000x1x3_S8x400000x3
  let v19 : (⟨S8x400000x1x3, .f32⟩ : BufTy).Contents (Elt F) := ((extractStridedSlice S8x400000x1x3 ![0, 0, 1, 0] · slices_S8x400000x3x3_S8x400000x1x3_0_0_1_0) : (⟨S8x400000x3x3, .f32⟩ : BufTy).Contents (Elt F) → (⟨S8x400000x1x3, .f32⟩ : BufTy).Contents (Elt F)) v16
  let v20 : (⟨S8x400000x3, .f32⟩ : BufTy).Contents (Elt F) := shapeCast S8x400000x3 v19 shapeCasts_S8x400000x1x3_S8x400000x3
  let v21 : (⟨S8x400000x1x3, .f32⟩ : BufTy).Contents (Elt F) := ((extractStridedSlice S8x400000x1x3 ![0, 0, 2, 0] · slices_S8x400000x3x3_S8x400000x1x3_0_0_2_0) : (⟨S8x400000x3x3, .f32⟩ : BufTy).Contents (Elt F) → (⟨S8x400000x1x3, .f32⟩ : BufTy).Contents (Elt F)) v16
  let v22 : (⟨S8x400000x3, .f32⟩ : BufTy).Contents (Elt F) := shapeCast S8x400000x3 v21 shapeCasts_S8x400000x1x3_S8x400000x3
  let v23 : (⟨S8x400000x3, .f32⟩ : BufTy).Contents (Elt F) := (subf : (⟨S8x400000x3, .f32⟩ : BufTy).Contents (Elt F) → (⟨S8x400000x3, .f32⟩ : BufTy).Contents (Elt F) → (⟨S8x400000x3, .f32⟩ : BufTy).Contents (Elt F)) v20 v22
  let v24 : (⟨S8x400000x3, .f32⟩ : BufTy).Contents (Elt F) := (mulf : (⟨S8x400000x3, .f32⟩ : BufTy).Contents (Elt F) → (⟨S8x400000x3, .f32⟩ : BufTy).Contents (Elt F) → (⟨S8x400000x3, .f32⟩ : BufTy).Contents (Elt F)) v23 v23
  let cst : (⟨S_, .f32⟩ : BufTy).Contents (Elt F) := (constant S_ .f32 0x00000000#32)
  let v25 : (⟨S8x400000, .f32⟩ : BufTy).Contents (Elt F) := ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)) v24 cst
  let v26 : (⟨S8x400000, .f32⟩ : BufTy).Contents (Elt F) := (Host.sqrt : (⟨S8x400000, .f32⟩ : BufTy).Contents (Elt F) → (⟨S8x400000, .f32⟩ : BufTy).Contents (Elt F)) v25
  let v27 : (⟨S8x400000x3, .f32⟩ : BufTy).Contents (Elt F) := (subf : (⟨S8x400000x3, .f32⟩ : BufTy).Contents (Elt F) → (⟨S8x400000x3, .f32⟩ : BufTy).Contents (Elt F) → (⟨S8x400000x3, .f32⟩ : BufTy).Contents (Elt F)) v22 v18
  let v28 : (⟨S8x400000x3, .f32⟩ : BufTy).Contents (Elt F) := (mulf : (⟨S8x400000x3, .f32⟩ : BufTy).Contents (Elt F) → (⟨S8x400000x3, .f32⟩ : BufTy).Contents (Elt F) → (⟨S8x400000x3, .f32⟩ : BufTy).Contents (Elt F)) v27 v27
  let cst_5 : (⟨S_, .f32⟩ : BufTy).Contents (Elt F) := (constant S_ .f32 0x00000000#32)
  let v29 : (⟨S8x400000, .f32⟩ : BufTy).Contents (Elt F) := ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)) v28 cst_5
  let v30 : (⟨S8x400000, .f32⟩ : BufTy).Contents (Elt F) := (Host.sqrt : (⟨S8x400000, .f32⟩ : BufTy).Contents (Elt F) → (⟨S8x400000, .f32⟩ : BufTy).Contents (Elt F)) v29
  let v31 : (⟨S8x400000x3, .f32⟩ : BufTy).Contents (Elt F) := (subf : (⟨S8x400000x3, .f32⟩ : BufTy).Contents (Elt F) → (⟨S8x400000x3, .f32⟩ : BufTy).Contents (Elt F) → (⟨S8x400000x3, .f32⟩ : BufTy).Contents (Elt F)) v18 v20
  let v32 : (⟨S8x400000x3, .f32⟩ : BufTy).Contents (Elt F) := (mulf : (⟨S8x400000x3, .f32⟩ : BufTy).Contents (Elt F) → (⟨S8x400000x3, .f32⟩ : BufTy).Contents (Elt F) → (⟨S8x400000x3, .f32⟩ : BufTy).Contents (Elt F)) v31 v31
  let cst_6 : (⟨S_, .f32⟩ : BufTy).Contents (Elt F) := (constant S_ .f32 0x00000000#32)
  let v33 : (⟨S8x400000, .f32⟩ : BufTy).Contents (Elt F) := ((fun x v => Host.reduceAdd x v reducesTo_S8x400000x3_S8x400000_d2 h_S_) : (⟨S8x400000x3, .f32⟩ : BufTy).Contents (Elt F) → (⟨S_, .f32⟩ : BufTy).Contents (Elt F) → (⟨S8x400000, .f32⟩ : BufTy).Contents (Elt F)) v32 cst_6
  let v34 : (⟨S8x400000, .f32⟩ : BufTy).Contents (Elt F) := (Host.sqrt : (⟨S8x400000, .f32⟩ : BufTy).Contents (Elt F) → (⟨S8x400000, .f32⟩ : BufTy).Contents (Elt F)) v33
  let v35 : (⟨S8x400000, .f32⟩ : BufTy).Contents (Elt F) := (addf : (⟨S8x400000, .f32⟩ : BufTy).Contents (Elt F) → (⟨S8x400000, .f32⟩ : BufTy).Contents (Elt F) → (⟨S8x400000, .f32⟩ : BufTy).Contents (Elt F)) v26 v30
  let v36 : (⟨S8x400000, .f32⟩ : BufTy).Contents (Elt F) := (addf : (⟨S8x400000, .f32⟩ : BufTy).Contents (Elt F) → (⟨S8x400000, .f32⟩ : BufTy).Contents (Elt F) → (⟨S8x400000, .f32⟩ : BufTy).Contents (Elt F)) v35 v34
  let cst_7 : (⟨S_, .f32⟩ : BufTy).Contents (Elt F) := (constant S_ .f32 0x3F000000#32)
  let v37 : (⟨S8x400000, .f32⟩ : BufTy).Contents (Elt F) := (broadcastInDim S8x400000 ![] bcast_S_S8x400000 : (⟨S_, .f32⟩ : BufTy).Contents (Elt F) → (⟨S8x400000, .f32⟩ : BufTy).Contents (Elt F)) cst_7
  let v38 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v36 v37
  let v39 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v38 v26
  let v40 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v38 v39
  let v41 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v38 v30
  let v42 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v40 v41
  let v43 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v38 v34
  let v44 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v42 v43
  let v45 : (⟨S8x400000, .f32⟩ : BufTy).Contents (Elt F) := (Host.sqrt : (⟨S8x400000, .f32⟩ : BufTy).Contents (Elt F) → (⟨S8x400000, .f32⟩ : BufTy).Contents (Elt F)) v44
  let cst_8 : (⟨S_, .f32⟩ : BufTy).Contents (Elt F) := (constant S_ .f32 0x40000000#32)
  let v46 : (⟨S8x400000, .f32⟩ : BufTy).Contents (Elt F) := (broadcastInDim S8x400000 ![] bcast_S_S8x400000 : (⟨S_, .f32⟩ : BufTy).Contents (Elt F) → (⟨S8x400000, .f32⟩ : BufTy).Contents (Elt F)) cst_8
  let v47 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v46 v45
  let v48 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v30 v30
  let v49 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v34 v34
  let v50 : (⟨S8x400000, .f32⟩ : BufTy).Contents (Elt F) := (addf : (⟨S8x400000, .f32⟩ : BufTy).Contents (Elt F) → (⟨S8x400000, .f32⟩ : BufTy).Contents (Elt F) → (⟨S8x400000, .f32⟩ : BufTy).Contents (Elt F)) v48 v49
  let v51 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v26 v26
  let v52 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v50 v51
  let v53 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v26 v26
  let v54 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v34 v34
  let v55 : (⟨S8x400000, .f32⟩ : BufTy).Contents (Elt F) := (addf : (⟨S8x400000, .f32⟩ : BufTy).Contents (Elt F) → (⟨S8x400000, .f32⟩ : BufTy).Contents (Elt F) → (⟨S8x400000, .f32⟩ : BufTy).Contents (Elt F)) v53 v54
  let v56 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v30 v30
  let v57 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v55 v56
  let v58 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v26 v26
  let v59 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v30 v30
  let v60 : (⟨S8x400000, .f32⟩ : BufTy).Contents (Elt F) := (addf : (⟨S8x400000, .f32⟩ : BufTy).Contents (Elt F) → (⟨S8x400000, .f32⟩ : BufTy).Contents (Elt F) → (⟨S8x400000, .f32⟩ : BufTy).Contents (Elt F)) v58 v59
  let v61 : (⟨S8x400000, .f32⟩ : BufTy).Contents (Elt F) := (mulf : (⟨S8x400000, .f32⟩ : BufTy).Contents (Elt F) → (⟨S8x400000, .f32⟩ : BufTy).Contents (Elt F) → (⟨S8x400000, .f32⟩ : BufTy).Contents (Elt F)) v34 v34
  let v62 : (⟨S8x400000, .f32⟩ : BufTy).Contents (Elt F) := (subf : (⟨S8x400000, .f32⟩ : BufTy).Contents (Elt F) → (⟨S8x400000, .f32⟩ : BufTy).Contents (Elt F) → (⟨S8x400000, .f32⟩ : BufTy).Contents (Elt F)) v60 v61
  let v63 : (⟨S8x400000x1, .f32⟩ : BufTy).Contents (Elt F) := (broadcastInDim S8x400000x1 ![0, 1] bcast_S8x400000_S8x400000x1_0_1 : (⟨S8x400000, .f32⟩ : BufTy).Contents (Elt F) → (⟨S8x400000x1, .f32⟩ : BufTy).Contents (Elt F)) v52
  let v64 : (⟨S8x400000x1, .f32⟩ : BufTy).Contents (Elt F) := (broadcastInDim S8x400000x1 ![0, 1] bcast_S8x400000_S8x400000x1_0_1 : (⟨S8x400000, .f32⟩ : BufTy).Contents (Elt F) → (⟨S8x400000x1, .f32⟩ : BufTy).Contents (Elt F)) v57
  let v65 : (⟨S8x400000x1, .f32⟩ : BufTy).Contents (Elt F) := (broadcastInDim S8x400000x1 ![0, 1] bcast_S8x400000_S8x400000x1_0_1 : (⟨S8x400000, .f32⟩ : BufTy).Contents (Elt F) → (⟨S8x400000x1, .f32⟩ : BufTy).Contents (Elt F)) v62
  let v66 : (⟨S8x400000x3, .f32⟩ : BufTy).Contents (Elt F) := concatenate S8x400000x3 2 [⟨S8x400000x1, v63⟩, ⟨S8x400000x1, v64⟩, ⟨S8x400000x1, v65⟩] concatenates_S8x400000x1_S8x400000x1_S8x400000x1_S8x400000x3_d2
  let v67 : (⟨S8x400000x1, .f32⟩ : BufTy).Contents (Elt F) := (broadcastInDim S8x400000x1 ![0, 1] bcast_S8x400000_S8x400000x1_0_1 : (⟨S8x400000, .f32⟩ : BufTy).Contents (Elt F) → (⟨S8x400000x1, .f32⟩ : BufTy).Contents (Elt F)) v47
  let v68 : (⟨S8x400000x3, .f32⟩ : BufTy).Contents (Elt F) := (broadcastInDim S8x400000x3 ![0, 1, 2] bcast_S8x400000x1_S8x400000x3_0_1_2 : (⟨S8x400000x1, .f32⟩ : BufTy).Contents (Elt F) → (⟨S8x400000x3, .f32⟩ : BufTy).Contents (Elt F)) v67
  let v69 : (⟨S8x400000x3, .f32⟩ : BufTy).Contents (Elt F) := (Host.divf : (⟨S8x400000x3, .f32⟩ : BufTy).Contents (Elt F) → (⟨S8x400000x3, .f32⟩ : BufTy).Contents (Elt F) → (⟨S8x400000x3, .f32⟩ : BufTy).Contents (Elt F)) v66 v68
  let cst_9 : (⟨S_, .f32⟩ : BufTy).Contents (Elt F) := (constant S_ .f32 0x40800000#32)
  let v70 : (⟨S8x400000x3, .f32⟩ : BufTy).Contents (Elt F) := (broadcastInDim S8x400000x3 ![] bcast_S_S8x400000x3 : (⟨S_, .f32⟩ : BufTy).Contents (Elt F) → (⟨S8x400000x3, .f32⟩ : BufTy).Contents (Elt F)) cst_9
  let v71 : (⟨S8x400000x3, .f32⟩ : BufTy).Contents (Elt F) := (Host.divf : (⟨S8x400000x3, .f32⟩ : BufTy).Contents (Elt F) → (⟨S8x400000x3, .f32⟩ : BufTy).Contents (Elt F) → (⟨S8x400000x3, .f32⟩ : BufTy).Contents (Elt F)) v69 v70
  v71

/-- The face array with each mesh's vertex offset added: the value of `main_v77` from the second argument. -/
def stFg (Fc : IVec S8x400000x3 32) : IVec S8x400000x3 32 :=
  let v72 : (⟨S8, .i32⟩ : BufTy).Contents (Elt F) := (iotaInDim S8 32 0)
  let c_10 : (⟨S_, .i32⟩ : BufTy).Contents (Elt F) := (constantI S_ 32 200000#32)
  let v73 : (⟨S8, .i32⟩ : BufTy).Contents (Elt F) := (broadcastInDim S8 ![] bcast_S_S8 : (⟨S_, .i32⟩ : BufTy).Contents (Elt F) → (⟨S8, .i32⟩ : BufTy).Contents (Elt F)) c_10
  let v74 : (⟨S8, .i32⟩ : BufTy).Contents (Elt F) := (muli : (⟨S8, .i32⟩ : BufTy).Contents (Elt F) → (⟨S8, .i32⟩ : BufTy).Contents (Elt F) → (⟨S8, .i32⟩ : BufTy).Contents (Elt F)) v72 v73
  let v75 : (⟨S8x1x1, .i32⟩ : BufTy).Contents (Elt F) := (broadcastInDim S8x1x1 ![0] bcast_S8_S8x1x1_0 : (⟨S8, .i32⟩ : BufTy).Contents (Elt F) → (⟨S8x1x1, .i32⟩ : BufTy).Contents (Elt F)) v74
  let v76 : (⟨S8x400000x3, .i32⟩ : BufTy).Contents (Elt F) := (broadcastInDim S8x400000x3 ![0, 1, 2] bcast_S8x1x1_S8x400000x3_0_1_2 : (⟨S8x1x1, .i32⟩ : BufTy).Contents (Elt F) → (⟨S8x400000x3, .i32⟩ : BufTy).Contents (Elt F)) v75
  let v77 : (⟨S8x400000x3, .i32⟩ : BufTy).Contents (Elt F) := (addi : (⟨S8x400000x3, .i32⟩ : BufTy).Contents (Elt F) → (⟨S8x400000x3, .i32⟩ : BufTy).Contents (Elt F) → (⟨S8x400000x3, .i32⟩ : BufTy).Contents (Elt F)) Fc v76
  v77

/-- The result from the vertex array, the weight array and the offset face array: the value of `main_v149`
    from `main_arg0`, `main_v71` and `main_v77` (the operations after them, and the two constant tables). -/
def stTail (V : FVec F S8x200000x3 .f32) (C : FVec F S8x400000x3 .f32) (Fg : IVec S8x400000x3 32) : FVec F S1600000x3 .f32 :=
  let c : (⟨S3, .i32⟩ : BufTy).Contents (Elt F) := (fun i => lit0 (S3.rowMajor i))
  let c_0 : (⟨S3, .i32⟩ : BufTy).Contents (Elt F) := (fun i => lit1 (S3.rowMajor i))
  let c_11 : (⟨S_, .i32⟩ : BufTy).Contents (Elt F) := (constantI S_ 32 0#32)
  let v78 : (⟨S3, .i32⟩ : BufTy).Contents (Elt F) := (broadcastInDim S3 ![] bcast_S_S3 : (⟨S_, .i32⟩ : BufTy).Contents (Elt F) → (⟨S3, .i32⟩ : BufTy).Contents (Elt F)) c_11
  let v79 : (⟨S3, .i1⟩ : BufTy).Contents (Elt F) := (cmpi .slt : (⟨S3, .i32⟩ : BufTy).Contents (Elt F) → (⟨S3, .i32⟩ : BufTy).Contents (Elt F) → (⟨S3, .i1⟩ : BufTy).Contents (Elt F)) c v78
  let c_12 : (⟨S_, .i32⟩ : BufTy).Contents (Elt F) := (constantI S_ 32 3#32)
  let v80 : (⟨S3, .i32⟩ : BufTy).Contents (Elt F) := (broadcastInDim S3 ![] bcast_S_S3 : (⟨S_, .i32⟩ : BufTy).Contents (Elt F) → (⟨S3, .i32⟩ : BufTy).Contents (Elt F)) c_12
  let v81 : (⟨S3, .i32⟩ : BufTy).Contents (Elt F) := (addi : (⟨S3, .i32⟩ : BufTy).Contents (Elt F) → (⟨S3, .i32⟩ : BufTy).Contents (Elt F) → (⟨S3, .i32⟩ : BufTy).Contents (Elt F)) c v80
  let v82 : (⟨S3, .i32⟩ : BufTy).Contents (Elt F) := (select : (⟨S3, .i1⟩ : BufTy).Contents (Elt F) → (⟨S3, .i32⟩ : BufTy).Contents (Elt F) → (⟨S3, .i32⟩ : BufTy).Contents (Elt F) → (⟨S3, .i32⟩ : BufTy).Contents (Elt F)) v79 v81 c
  let v83 : (⟨S3x1, .i32⟩ : BufTy).Contents (Elt F) := (broadcastInDim S3x1 ![0] bcast_S3_S3x1_0 : (⟨S3, .i32⟩ : BufTy).Contents (Elt F) → (⟨S3x1, .i32⟩ : BufTy).Contents (Elt F)) v82
  let v84 : (⟨S8x400000x3, .i32⟩ : BufTy).Contents (Elt F) := ((fun x i => Host.gather gather_S8x400000x3_S3x1_S8x400000x3_01_2_n_n_2_1_84000001 x i) : (⟨S8x400000x3, .i32⟩ : BufTy).Contents (Elt F) → (⟨S3x1, .i32⟩ : BufTy).Contents (Elt F) → (⟨S8x400000x3, .i32⟩ : BufTy).Contents (Elt F)) Fg v83
  let v85 : (⟨S9600000, .i32⟩ : BufTy).Contents (Elt F) := shapeCast S9600000 v84 shapeCasts_S8x400000x3_S9600000
  let c_13 : (⟨S_, .i32⟩ : BufTy).Contents (Elt F) := (constantI S_ 32 0#32)
  let v86 : (⟨S3, .i32⟩ : BufTy).Contents (Elt F) := (broadcastInDim S3 ![] bcast_S_S3 : (⟨S_, .i32⟩ : BufTy).Contents (Elt F) → (⟨S3, .i32⟩ : BufTy).Contents (Elt F)) c_13
  let v87 : (⟨S3, .i1⟩ : BufTy).Contents (Elt F) := (cmpi .slt : (⟨S3, .i32⟩ : BufTy).Contents (Elt F) → (⟨S3, .i32⟩ : BufTy).Contents (Elt F) → (⟨S3, .i1⟩ : BufTy).Contents (Elt F)) c_0 v86
  let c_14 : (⟨S_, .i32⟩ : BufTy).Contents (Elt F) := (constantI S_ 32 3#32)
  let v88 : (⟨S3, .i32⟩ : BufTy).Contents (Elt F) := (broadcastInDim S3 ![] bcast_S_S3 : (⟨S_, .i32⟩ : BufTy).Contents (Elt F) → (⟨S3, .i32⟩ : BufTy).Contents (Elt F)) c_14
  let v89 : (⟨S3, .i32⟩ : BufTy).Contents (Elt F) := (addi : (⟨S3, .i32⟩ : BufTy).Contents (Elt F) → (⟨S3, .i32⟩ : BufTy).Contents (Elt F) → (⟨S3, .i32⟩ : BufTy).Contents (Elt F)) c_0 v88
  let v90 : (⟨S3, .i32⟩ : BufTy).Contents (Elt F) := (select : (⟨S3, .i1⟩ : BufTy).Contents (Elt F) → (⟨S3, .i32⟩ : BufTy).Contents (Elt F) → (⟨S3, .i32⟩ : BufTy).Contents (Elt F) → (⟨S3, .i32⟩ : BufTy).Contents (Elt F)) v87 v89 c_0
  let v91 : (⟨S3x1, .i32⟩ : BufTy).Contents (Elt F) := (broadcastInDim S3x1 ![0] bcast_S3_S3x1_0 : (⟨S3, .i32⟩ : BufTy).Contents (Elt F) → (⟨S3x1, .i32⟩ : BufTy).Contents (Elt F)) v90
  let v92 : (⟨S8x400000x3, .i32⟩ : BufTy).Contents (Elt F) := ((fun x i => Host.gather gather_S8x400000x3_S3x1_S8x400000x3_01_2_n_n_2_1_84000001 x i) : (⟨S8x400000x3, .i32⟩ : BufTy).Contents (Elt F) → (⟨S3x1, .i32⟩ : BufTy).Contents (Elt F) → (⟨S8x400000x3, .i32⟩ : BufTy).Contents (Elt F)) Fg v91
  let v93 : (⟨S9600000, .i32⟩ : BufTy).Contents (Elt F) := shapeCast S9600000 v92 shapeCasts_S8x400000x3_S9600000
  let v94 : (⟨S9600000, .f32⟩ : BufTy).Contents (Elt F) := shapeCast S9600000 C shapeCasts_S8x400000x3_S9600000
  let v95 : (⟨S1600000x3, .f32⟩ : BufTy).Contents (Elt F) := shapeCast S1600000x3 V shapeCasts_S8x200000x3_S1600000x3
  let cst_15 : (⟨S_, .f32⟩ : BufTy).Contents (Elt F) := (constant S_ .f32 0x00000000#32)
  let v96 : (⟨S1600000x3, .f32⟩ : BufTy).Contents (Elt F) := (broadcastInDim S1600000x3 ![] bcast_S_S1600000x3 : (⟨S_, .f32⟩ : BufTy).Contents (Elt F) → (⟨S1600000x3, .f32⟩ : BufTy).Contents (Elt F)) cst_15
  let v97 : (⟨S9600000x1, .f32⟩ : BufTy).Contents (Elt F) := (broadcastInDim S9600000x1 ![0] bcast_S9600000_S9600000x1_0 : (⟨S9600000, .f32⟩ : BufTy).Contents (Elt F) → (⟨S9600000x1, .f32⟩ : BufTy).Contents (Elt F)) v94
  let c_16 : (⟨S_, .i32⟩ : BufTy).Contents (Elt F) := (constantI S_ 32 0#32)
  let v98 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_16
  let v99 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v93 v98
  let c_17 : (⟨S_, .i32⟩ : BufTy).Contents (Elt F) := (constantI S_ 32 1600000#32)
  let v100 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_17
  let v101 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v93 v100
  let v102 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v99 v101 v93
  let v103 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v102
  let v104 : (⟨S9600000x3, .f32⟩ : BufTy).Contents (Elt F) := ((fun x i => Host.gather gather_S1600000x3_S9600000x1_S9600000x3_1_0_n_n_0_1_13 x i) : (⟨S1600000x3, .f32⟩ : BufTy).Contents (Elt F) → (⟨S9600000x1, .i32⟩ : BufTy).Contents (Elt F) → (⟨S9600000x3, .f32⟩ : BufTy).Contents (Elt F)) v95 v103
  let v105 : (⟨S9600000x3, .f32⟩ : BufTy).Contents (Elt F) := (broadcastInDim S9600000x3 ![0, 1] bcast_S9600000x1_S9600000x3_0_1 : (⟨S9600000x1, .f32⟩ : BufTy).Contents (Elt F) → (⟨S9600000x3, .f32⟩ : BufTy).Contents (Elt F)) v97
  let v106 : (⟨S9600000x3, .f32⟩ : BufTy).Contents (Elt F) := (mulf : (⟨S9600000x3, .f32⟩ : BufTy).Contents (Elt F) → (⟨S9600000x3, .f32⟩ : BufTy).Contents (Elt F) → (⟨S9600000x3, .f32⟩ : BufTy).Contents (Elt F)) v105 v104
  let c_18 : (⟨S_, .i32⟩ : BufTy).Contents (Elt F) := (constantI S_ 32 0#32)
  let v107 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_18
  let v108 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v85 v107
  let c_19 : (⟨S_, .i32⟩ : BufTy).Contents (Elt F) := (constantI S_ 32 1600000#32)
  let v109 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_19
  let v110 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v85 v109
  let v111 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v108 v110 v85
  let v112 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v111
  let v113 : (⟨S1600000x3, .f32⟩ : BufTy).Contents (Elt F) := ((fun x i u => Host.scatterAdd scatter_S1600000x3_S9600000x1_S9600000x3_1_0_0_1 x i u) : (⟨S1600000x3, .f32⟩ : BufTy).Contents (Elt F) → (⟨S9600000x1, .i32⟩ : BufTy).Contents (Elt F) → (⟨S9600000x3, .f32⟩ : BufTy).Contents (Elt F) → (⟨S1600000x3, .f32⟩ : BufTy).Contents (Elt F)) v96 v112 v106
  let v114 : (⟨S9600000x1, .f32⟩ : BufTy).Contents (Elt F) := (broadcastInDim S9600000x1 ![0] bcast_S9600000_S9600000x1_0 : (⟨S9600000, .f32⟩ : BufTy).Contents (Elt F) → (⟨S9600000x1, .f32⟩ : BufTy).Contents (Elt F)) v94
  let c_20 : (⟨S_, .i32⟩ : BufTy).Contents (Elt F) := (constantI S_ 32 0#32)
  let v115 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_20
  let v116 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v85 v115
  let c_21 : (⟨S_, .i32⟩ : BufTy).Contents (Elt F) := (constantI S_ 32 1600000#32)
  let v117 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_21
  let v118 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v85 v117
  let v119 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v116 v118 v85
  let v120 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v119
  let v121 : (⟨S9600000x3, .f32⟩ : BufTy).Contents (Elt F) := ((fun x i => Host.gather gather_S1600000x3_S9600000x1_S9600000x3_1_0_n_n_0_1_13 x i) : (⟨S1600000x3, .f32⟩ : BufTy).Contents (Elt F) → (⟨S9600000x1, .i32⟩ : BufTy).Contents (Elt F) → (⟨S9600000x3, .f32⟩ : BufTy).Contents (Elt F)) v95 v120
  let v122 : (⟨S9600000x3, .f32⟩ : BufTy).Contents (Elt F) := (broadcastInDim S9600000x3 ![0, 1] bcast_S9600000x1_S9600000x3_0_1 : (⟨S9600000x1, .f32⟩ : BufTy).Contents (Elt F) → (⟨S9600000x3, .f32⟩ : BufTy).Contents (Elt F)) v114
  let v123 : (⟨S9600000x3, .f32⟩ : BufTy).Contents (Elt F) := (mulf : (⟨S9600000x3, .f32⟩ : BufTy).Contents (Elt F) → (⟨S9600000x3, .f32⟩ : BufTy).Contents (Elt F) → (⟨S9600000x3, .f32⟩ : BufTy).Contents (Elt F)) v122 v121
  let c_22 : (⟨S_, .i32⟩ : BufTy).Contents (Elt F) := (constantI S_ 32 0#32)
  let v124 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_22
  let v125 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v93 v124
  let c_23 : (⟨S_, .i32⟩ : BufTy).Contents (Elt F) := (constantI S_ 32 1600000#32)
  let v126 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_23
  let v127 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v93 v126
  let v128 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v125 v127 v93
  let v129 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v128
  let v130 : (⟨S1600000x3, .f32⟩ : BufTy).Contents (Elt F) := ((fun x i u => Host.scatterAdd scatter_S1600000x3_S9600000x1_S9600000x3_1_0_0_1 x i u) : (⟨S1600000x3, .f32⟩ : BufTy).Contents (Elt F) → (⟨S9600000x1, .i32⟩ : BufTy).Contents (Elt F) → (⟨S9600000x3, .f32⟩ : BufTy).Contents (Elt F) → (⟨S1600000x3, .f32⟩ : BufTy).Contents (Elt F)) v113 v129 v123
  let cst_24 : (⟨S_, .f32⟩ : BufTy).Contents (Elt F) := (constant S_ .f32 0x00000000#32)
  let v131 : (⟨S1600000, .f32⟩ : BufTy).Contents (Elt F) := (broadcastInDim S1600000 ![] bcast_S_S1600000 : (⟨S_, .f32⟩ : BufTy).Contents (Elt F) → (⟨S1600000, .f32⟩ : BufTy).Contents (Elt F)) cst_24
  let c_25 : (⟨S_, .i32⟩ : BufTy).Contents (Elt F) := (constantI S_ 32 0#32)
  let v132 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_25
  let v133 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v85 v132
  let c_26 : (⟨S_, .i32⟩ : BufTy).Contents (Elt F) := (constantI S_ 32 1600000#32)
  let v134 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_26
  let v135 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v85 v134
  let v136 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v133 v135 v85
  let v137 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v136
  let v138 : (⟨S1600000, .f32⟩ : BufTy).Contents (Elt F) := ((fun x i u => Host.scatterAdd scatter_S1600000_S9600000x1_S9600000_n_0_0_1 x i u) : (⟨S1600000, .f32⟩ : BufTy).Contents (Elt F) → (⟨S9600000x1, .i32⟩ : BufTy).Contents (Elt F) → (⟨S9600000, .f32⟩ : BufTy).Contents (Elt F) → (⟨S1600000, .f32⟩ : BufTy).Contents (Elt F)) v131 v137 v94
  let c_27 : (⟨S_, .i32⟩ : BufTy).Contents (Elt F) := (constantI S_ 32 0#32)
  let v139 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_27
  let v140 : (⟨S9600000, .i1⟩ : BufTy).Contents (Elt F) := (cmpi .slt : (⟨S9600000, .i32⟩ : BufTy).Contents (Elt F) → (⟨S9600000, .i32⟩ : BufTy).Contents (Elt F) → (⟨S9600000, .i1⟩ : BufTy).Contents (Elt F)) v93 v139
  let c_28 : (⟨S_, .i32⟩ : BufTy).Contents (Elt F) := (constantI S_ 32 1600000#32)
  let v141 : (⟨S9600000, .i32⟩ : BufTy).Contents (Elt F) := (broadcastInDim S9600000 ![] bcast_S_S9600000 : (⟨S_, .i32⟩ : BufTy).Contents (Elt F) → (⟨S9600000, .i32⟩ : BufTy).Contents (Elt F)) c_28
  let v142 : (⟨S9600000, .i32⟩ : BufTy).Contents (Elt F) := (addi : (⟨S9600000, .i32⟩ : BufTy).Contents (Elt F) → (⟨S9600000, .i32⟩ : BufTy).Contents (Elt F) → (⟨S9600000, .i32⟩ : BufTy).Contents (Elt F)) v93 v141
  let v143 : (⟨S9600000, .i32⟩ : BufTy).Contents (Elt F) := (select : (⟨S9600000, .i1⟩ : BufTy).Contents (Elt F) → (⟨S9600000, .i32⟩ : BufTy).Contents (Elt F) → (⟨S9600000, .i32⟩ : BufTy).Contents (Elt F) → (⟨S9600000, .i32⟩ : BufTy).Contents (Elt F)) v140 v142 v93
  let v144 : (⟨S9600000x1, .i32⟩ : BufTy).Contents (Elt F) := (broadcastInDim S9600000x1 ![0] bcast_S9600000_S9600000x1_0 : (⟨S9600000, .i32⟩ : BufTy).Contents (Elt F) → (⟨S9600000x1, .i32⟩ : BufTy).Contents (Elt F)) v143
  let v145 : (⟨S1600000, .f32⟩ : BufTy).Contents (Elt F) := ((fun x i u => Host.scatterAdd scatter_S1600000_S9600000x1_S9600000_n_0_0_1 x i u) : (⟨S1600000, .f32⟩ : BufTy).Contents (Elt F) → (⟨S9600000x1, .i32⟩ : BufTy).Contents (Elt F) → (⟨S9600000, .f32⟩ : BufTy).Contents (Elt F) → (⟨S1600000, .f32⟩ : BufTy).Contents (Elt F)) v138 v144 v94
  let v146 : (⟨S1600000x1, .f32⟩ : BufTy).Contents (Elt F) := (broadcastInDim S1600000x1 ![0] bcast_S1600000_S1600000x1_0 : (⟨S1600000, .f32⟩ : BufTy).Contents (Elt F) → (⟨S1600000x1, .f32⟩ : BufTy).Contents (Elt F)) v145
  let v147 : (⟨S1600000x3, .f32⟩ : BufTy).Contents (Elt F) := (broadcastInDim S1600000x3 ![0, 1] bcast_S1600000x1_S1600000x3_0_1 : (⟨S1600000x1, .f32⟩ : BufTy).Contents (Elt F) → (⟨S1600000x3, .f32⟩ : BufTy).Contents (Elt F)) v146
  let v148 : (⟨S1600000x3, .f32⟩ : BufTy).Contents (Elt F) := (mulf : (⟨S1600000x3, .f32⟩ : BufTy).Contents (Elt F) → (⟨S1600000x3, .f32⟩ : BufTy).Contents (Elt F) → (⟨S1600000x3, .f32⟩ : BufTy).Contents (Elt F)) v147 v95
  let v149 : (⟨S1600000x3, .f32⟩ : BufTy).Contents (Elt F) := (subf : (⟨S1600000x3, .f32⟩ : BufTy).Contents (Elt F) → (⟨S1600000x3, .f32⟩ : BufTy).Contents (Elt F) → (⟨S1600000x3, .f32⟩ : BufTy).Contents (Elt F)) v130 v148
  v149

/-- The whole result from the two arguments. -/
def out (V : FVec F S8x200000x3 .f32) (Fc : IVec S8x400000x3 32) : FVec F S1600000x3 .f32 :=
  stTail V (stC V Fc) (stFg (F := F) Fc)

end Cert.ReferenceIdeal.HandRun

end
-- ==== Proof.RefRun.lean ====
/-
  The run of the reference program, whose @main is a straight line of 181 host operations printed in four windows:
  every weakly fair execution terminates with the result buffer at `out` of the two arguments' launch contents
  (the composed function of RefOps.lean) and the arguments unchanged.

  The operation list is cut where the printed windows end and where the three stretches of the composition end.
  `after` of the whole list is read stretch by stretch: after the first stretch the weight array is `stC` of the
  arguments, after the second the offset face array is `stFg`, after the third the result is `stTail` of those;
  each reading is one pass over the stretch's operations (each operation's result at its own buffer is its function
  of its operands, any other buffer keeps its contents), closed by unfolding the composed function.
-/
import proofs.«162177_j39814346834441_2_alg».proof.Proof.RefOps
import Idealize.ShloMosaic.Lib.Pipeline.Frame

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operation list and the program -/

/-- The second printed window's operations: three of the pieces. -/
def ops_w1 : List (HloOp τ sig (Elt F)) := ops_p1 ++ (ops_p2 ++ ops_p3)

/-- @main's 181 operations, in order. -/
def ops : List (HloOp τ sig (Elt F)) := ops_p0 ++ (ops_w1 ++ (ops_p4 ++ ops_p5))

set_option maxRecDepth 8192 in
set_option maxHeartbeats 4000000 in
theorem main_part0_eq (c : Dev nD) : main_part0 (F := F) c = seq ops_p0 := rfl
set_option maxRecDepth 8192 in
set_option maxHeartbeats 4000000 in
theorem main_part1_eq (c : Dev nD) : main_part1 (F := F) c = seq ops_w1 := rfl
set_option maxRecDepth 8192 in
set_option maxHeartbeats 4000000 in
theorem main_part2_eq (c : Dev nD) : main_part2 (F := F) c = seq ops_p4 := rfl
set_option maxRecDepth 8192 in
theorem main_part3_eq (c : Dev nD) : main_part3 (F := F) c = seq ops_p5 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

section Sub
local macro "bufs_sub" : tactic =>
  `(tactic| (simp only [List.Forall, nullary_bufs_sub, unary_bufs_sub, binary_bufs_sub, ternary_bufs_sub, reshape_bufs_sub,
      nary_bufs_sub, and_self]))

set_option maxRecDepth 8192 in
theorem ops_p0_sub : (ops_p0 : List (HloOp τ sig (Elt F))).Forall fun op => op.bufs ⊆ tcRefs τ sig := by bufs_sub
set_option maxRecDepth 8192 in
theorem ops_p1_sub : (ops_p1 : List (HloOp τ sig (Elt F))).Forall fun op => op.bufs ⊆ tcRefs τ sig := by bufs_sub
set_option maxRecDepth 8192 in
theorem ops_p2_sub : (ops_p2 : List (HloOp τ sig (Elt F))).Forall fun op => op.bufs ⊆ tcRefs τ sig := by bufs_sub
set_option maxRecDepth 8192 in
theorem ops_p3_sub : (ops_p3 : List (HloOp τ sig (Elt F))).Forall fun op => op.bufs ⊆ tcRefs τ sig := by bufs_sub
set_option maxRecDepth 8192 in
theorem ops_p4_sub : (ops_p4 : List (HloOp τ sig (Elt F))).Forall fun op => op.bufs ⊆ tcRefs τ sig := by bufs_sub
set_option maxRecDepth 8192 in
theorem ops_p5_sub : (ops_p5 : List (HloOp τ sig (Elt F))).Forall fun op => op.bufs ⊆ tcRefs τ sig := by bufs_sub
end Sub

theorem ops_sub : (ops : List (HloOp τ sig (Elt F))).Forall fun op => op.bufs ⊆ tcRefs τ sig :=
  List.forall_iff_forall_mem.mpr fun op h => by
    simp only [ops, ops_w1, List.mem_append] at h
    rcases h with h | (h | h | h) | h | h
    exacts [List.forall_iff_forall_mem.mp ops_p0_sub op h, List.forall_iff_forall_mem.mp ops_p1_sub op h,
      List.forall_iff_forall_mem.mp ops_p2_sub op h, List.forall_iff_forall_mem.mp ops_p3_sub op h,
      List.forall_iff_forall_mem.mp ops_p4_sub op h, List.forall_iff_forall_mem.mp ops_p5_sub op h]

/-! ## The buffers after each stretch -/

/-- The device's buffer contents after the first stretch (operations 1 … 84: through the weight array). -/
def valA (V0 : Valuation τ sig (Elt F)) : Valuation τ sig (Elt F) := after ops_p1 (after ops_p0 V0)
/-- After the second stretch (operations 85 … 91: the offset face array). -/
def valB (V0 : Valuation τ sig (Elt F)) : Valuation τ sig (Elt F) := after ops_p2 (valA V0)
/-- After the third stretch (operations 92 … 181: the result). -/
def valC (V0 : Valuation τ sig (Elt F)) : Valuation τ sig (Elt F) := after ops_p5 (after ops_p4 (after ops_p3 (valB V0)))

theorem after_ops (V0 : Valuation τ sig (Elt F)) : after ops V0 = valC V0 := by
  simp only [ops, ops_w1, StableHlo.after_append]
  rfl

/-- Reads one buffer after a stretch whose operation lists have been unfolded: each operation's result at its own
    buffer is its function of its operands, any other buffer keeps its contents; an operand family of a join is read
    at its literal positions and the reading resumed. -/
local macro "read_stretch" : tactic =>
  `(tactic| (after_results_simp
             try dsimp only [Matrix.cons_val]
             try after_results_simp))

set_option maxRecDepth 8192 in
set_option maxHeartbeats 8000000 in
theorem valA_main_arg0 (V0 : Valuation τ sig (Elt F)) :
    valA V0 (no_index (Proc.devRef .tc main_arg0)) = V0 (Proc.devRef .tc main_arg0) := by
  unfold valA
  simp only [ops_p0, ops_p1]
  after_results_simp

set_option maxRecDepth 8192 in
set_option maxHeartbeats 8000000 in
theorem valA_main_arg1 (V0 : Valuation τ sig (Elt F)) :
    valA V0 (no_index (Proc.devRef .tc main_arg1)) = V0 (Proc.devRef .tc main_arg1) := by
  unfold valA
  simp only [ops_p0, ops_p1]
  after_results_simp

set_option maxRecDepth 8192 in
set_option maxHeartbeats 8000000 in
theorem valA_main_c (V0 : Valuation τ sig (Elt F)) :
    valA V0 (no_index (Proc.devRef .tc main_c)) = fun i => lit0 (S3.rowMajor i) := by
  unfold valA
  simp only [ops_p0, ops_p1]
  after_results_simp
  rfl

set_option maxRecDepth 8192 in
set_option maxHeartbeats 8000000 in
theorem valA_main_c_0 (V0 : Valuation τ sig (Elt F)) :
    valA V0 (no_index (Proc.devRef .tc main_c_0)) = fun i => lit1 (S3.rowMajor i) := by
  unfold valA
  simp only [ops_p0, ops_p1]
  after_results_simp
  rfl

set_option maxRecDepth 8192 in
set_option maxHeartbeats 16000000 in
theorem valA_main_v71 (V0 : Valuation τ sig (Elt F)) :
    valA V0 (no_index (Proc.devRef .tc main_v71))
      = stC (V0 (Proc.devRef .tc main_arg0)) (V0 (Proc.devRef .tc main_arg1)) := by
  unfold valA
  simp only [ops_p0, ops_p1]
  read_stretch
  rfl

/-! The second stretch: the offset face array from the second argument; everything else is kept. -/

theorem valB_main_arg0 (V0 : Valuation τ sig (Elt F)) :
    valB V0 (no_index (Proc.devRef .tc main_arg0)) = V0 (Proc.devRef .tc main_arg0) := by
  unfold valB
  simp only [ops_p2]
  after_results_simp
  exact valA_main_arg0 V0

theorem valB_main_arg1 (V0 : Valuation τ sig (Elt F)) :
    valB V0 (no_index (Proc.devRef .tc main_arg1)) = V0 (Proc.devRef .tc main_arg1) := by
  unfold valB
  simp only [ops_p2]
  after_results_simp
  exact valA_main_arg1 V0

theorem valB_main_c (V0 : Valuation τ sig (Elt F)) :
    valB V0 (no_index (Proc.devRef .tc main_c)) = fun i => lit0 (S3.rowMajor i) := by
  unfold valB
  simp only [ops_p2]
  after_results_simp
  exact valA_main_c V0

theorem valB_main_c_0 (V0 : Valuation τ sig (Elt F)) :
    valB V0 (no_index (Proc.devRef .tc main_c_0)) = fun i => lit1 (S3.rowMajor i) := by
  unfold valB
  simp only [ops_p2]
  after_results_simp
  exact valA_main_c_0 V0

theorem valB_main_v71 (V0 : Valuation τ sig (Elt F)) :
    valB V0 (no_index (Proc.devRef .tc main_v71))
      = stC (V0 (Proc.devRef .tc main_arg0)) (V0 (Proc.devRef .tc main_arg1)) := by
  unfold valB
  simp only [ops_p2]
  after_results_simp
  exact valA_main_v71 V0

theorem valB_main_v77 (V0 : Valuation τ sig (Elt F)) :
    valB V0 (no_index (Proc.devRef .tc main_v77)) = stFg (F := F) (V0 (Proc.devRef .tc main_arg1)) := by
  unfold valB
  simp only [ops_p2]
  after_results_simp
  simp only [valA_main_arg1]
  rfl

/-! The third stretch: the result from the vertex array, the weight array and the offset face array. -/

set_option maxRecDepth 8192 in
set_option maxHeartbeats 8000000 in
theorem valC_main_arg0 (V0 : Valuation τ sig (Elt F)) :
    valC V0 (no_index (Proc.devRef .tc main_arg0)) = V0 (Proc.devRef .tc main_arg0) := by
  unfold valC
  simp only [ops_p3, ops_p4, ops_p5]
  after_results_simp
  exact valB_main_arg0 V0

set_option maxRecDepth 8192 in
set_option maxHeartbeats 8000000 in
theorem valC_main_arg1 (V0 : Valuation τ sig (Elt F)) :
    valC V0 (no_index (Proc.devRef .tc main_arg1)) = V0 (Proc.devRef .tc main_arg1) := by
  unfold valC
  simp only [ops_p3, ops_p4, ops_p5]
  after_results_simp
  exact valB_main_arg1 V0

set_option maxRecDepth 8192 in
set_option maxHeartbeats 16000000 in
theorem valC_main_v149 (V0 : Valuation τ sig (Elt F)) :
    valC V0 (no_index (Proc.devRef .tc main_v149))
      = out (V0 (Proc.devRef .tc main_arg0)) (V0 (Proc.devRef .tc main_arg1)) := by
  unfold valC
  simp only [ops_p3, ops_p4, ops_p5]
  after_results_simp
  simp only [valB_main_arg0, valB_main_c, valB_main_c_0, valB_main_v71, valB_main_v77]
  rfl

/-! ## The run -/

/-- On every device, for any float values, from any memory with zero counters: every weakly fair execution of @main
    terminates with the result buffer at `out` of the two arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v149).trans (by simp only [after_ops]; exact valC_main_v149 (launchContents m c)),
      (h c main_arg0).trans (by simp only [after_ops]; exact valC_main_arg0 (launchContents m c)),
      (h c main_arg1).trans (by simp only [after_ops]; exact valC_main_arg1 (launchContents m c))⟩)
    (run_seq scopedRefs_eq scopedSems_eq defs main (fun _ => ops) main_eq (fun _ => ops_sub) m ρ)

end Cert.ReferenceIdeal.HandRun

end
-- ==== Proof.RefWeights.lean ====
/-
  The reference's weight array read at an index, over the extended reals.

  For mesh b and face f with corners P 0, P 1, P 2 (the vertices the face's three numbers name), the three entries of
  the weight array at (b, f, ·) are the cotangent weights rW23, rW31, rW12 of the corners. The array is a chain of
  whole-array operations; each is read at an index by its own small lemma (a broadcast reads its operand at the
  named coordinates, a join reads the piece its coordinate falls in, the gather reads the vertex its two start
  coordinates name after clamping, a slice and a reshape move coordinates, the sum over the last axis is a sum of
  three terms, everything else is pointwise), and the chain of readings ends at the weights' definitions.
-/
import proofs.«162177_j39814346834441_2_alg».proof.Proof.RefOps
import proofs.«162177_j39814346834441_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Weights

open Cert.ReferenceIdeal Cert.ReferenceIdeal.Gen Cert.ReferenceIdeal.HandRun Idealize.ShloMosaic Idealize.ShloMosaic.ValueIdx
open scoped BigOperators

variable {α : Type}

/-! ## Broadcasts read at an index -/

/-- A rank-zero array broadcast to any shape reads its one element everywhere. -/
theorem bcast0_apply {t : Shape} (h : S_.BroadcastsInDim t ![]) (x : S_.Idx → α) (j : t.Idx) :
    broadcastInDim t ![] h x j = x ix0 :=
  broadcastInDim_apply _ h x j ix0 (fun a => a.elim0)

theorem bcast_8_811_apply (h : S8.BroadcastsInDim S8x1x1 (![0] : Fin 1 → Fin S8x1x1.rank)) (x : S8.Idx → α) (b : Fin 8) (u v : Fin 1) :
    broadcastInDim S8x1x1 (![0] : Fin 1 → Fin S8x1x1.rank) h x (ix3 b u v) = x (ix1 b) :=
  broadcastInDim_apply _ h x _ (ix1 b) (fun a => by match a with | ⟨0, _⟩ => rfl)

theorem bcast_811_84003_apply (h : S8x1x1.BroadcastsInDim S8x400000x3 (![0, 1, 2] : Fin 3 → Fin S8x400000x3.rank)) (x : S8x1x1.Idx → α)
    (b : Fin 8) (f : Fin 400000) (k : Fin 3) :
    broadcastInDim S8x400000x3 (![0, 1, 2] : Fin 3 → Fin S8x400000x3.rank) h x (ix3 b f k) = x (ix3 b 0 0) :=
  broadcastInDim_apply _ h x _ (ix3 b 0 0) (fun a => by
    match a with
    | ⟨0, _⟩ => rfl
    | ⟨1, _⟩ => rfl
    | ⟨2, _⟩ => rfl)

theorem bcast_84003_840031_apply (h : S8x400000x3.BroadcastsInDim S8x400000x3x1 (![0, 1, 2] : Fin 3 → Fin S8x400000x3x1.rank)) (x : S8x400000x3.Idx → α)
    (b : Fin 8) (f : Fin 400000) (k : Fin 3) (u : Fin 1) :
    broadcastInDim S8x400000x3x1 (![0, 1, 2] : Fin 3 → Fin S8x400000x3x1.rank) h x (ix4 b f k u) = x (ix3 b f k) :=
  broadcastInDim_apply _ h x _ (ix3 b f k) (fun a => by
    match a with
    | ⟨0, _⟩ => rfl
    | ⟨1, _⟩ => rfl
    | ⟨2, _⟩ => rfl)

theorem bcast_8400_84001_apply (h : S8x400000.BroadcastsInDim S8x400000x1 (![0, 1] : Fin 2 → Fin S8x400000x1.rank)) (x : S8x400000.Idx → α)
    (b : Fin 8) (f : Fin 400000) (u : Fin 1) :
    broadcastInDim S8x400000x1 (![0, 1] : Fin 2 → Fin S8x400000x1.rank) h x (ix3 b f u) = x (ix2 b f) :=
  broadcastInDim_apply _ h x _ (ix2 b f) (fun a => by
    match a with
    | ⟨0, _⟩ => rfl
    | ⟨1, _⟩ => rfl)

theorem bcast_84001_84003_apply (h : S8x400000x1.BroadcastsInDim S8x400000x3 (![0, 1, 2] : Fin 3 → Fin S8x400000x3.rank)) (x : S8x400000x1.Idx → α)
    (b : Fin 8) (f : Fin 400000) (k : Fin 3) :
    broadcastInDim S8x400000x3 (![0, 1, 2] : Fin 3 → Fin S8x400000x3.rank) h x (ix3 b f k) = x (ix3 b f 0) :=
  broadcastInDim_apply _ h x _ (ix3 b f 0) (fun a => by
    match a with
    | ⟨0, _⟩ => rfl
    | ⟨1, _⟩ => rfl
    | ⟨2, _⟩ => rfl)

/-! ## Joins read at an index -/

theorem join2_left_apply (x₁ x₂ : S8x400000x3x1.Idx → α)
    (h : Shape.Concatenates [S8x400000x3x1, S8x400000x3x1] S8x400000x3x2 3) (b : Fin 8) (f : Fin 400000) (k : Fin 3) :
    concatenate S8x400000x3x2 3 [⟨S8x400000x3x1, x₁⟩, ⟨S8x400000x3x1, x₂⟩] h (ix4 b f k 0) = x₁ (ix4 b f k 0) :=
  concatenate_pair_apply_left 3 x₁ x₂ h _ rfl (ix4 b f k 0) (fun a => by
    match a with
    | ⟨0, _⟩ => rfl
    | ⟨1, _⟩ => rfl
    | ⟨2, _⟩ => rfl
    | ⟨3, _⟩ => rfl)

theorem join2_right_apply (x₁ x₂ : S8x400000x3x1.Idx → α)
    (h : Shape.Concatenates [S8x400000x3x1, S8x400000x3x1] S8x400000x3x2 3) (b : Fin 8) (f : Fin 400000) (k : Fin 3) :
    concatenate S8x400000x3x2 3 [⟨S8x400000x3x1, x₁⟩, ⟨S8x400000x3x1, x₂⟩] h (ix4 b f k 1) = x₂ (ix4 b f k 0) :=
  concatenate_pair_apply_right 3 x₁ x₂ h _ rfl rfl (ix4 b f k 0) (fun a ha => by
    match a with
    | ⟨0, _⟩ => rfl
    | ⟨1, _⟩ => rfl
    | ⟨2, _⟩ => rfl
    | ⟨3, _⟩ => exact absurd rfl ha) rfl

theorem join3_apply0 (x₀ x₁ x₂ : S8x400000x1.Idx → α)
    (h : Shape.Concatenates [S8x400000x1, S8x400000x1, S8x400000x1] S8x400000x3 2) (b : Fin 8) (f : Fin 400000) :
    concatenate S8x400000x3 2 [⟨S8x400000x1, x₀⟩, ⟨S8x400000x1, x₁⟩, ⟨S8x400000x1, x₂⟩] h (ix3 b f 0) = x₀ (ix3 b f 0) :=
  concatenate_apply_piece (t := S8x400000x3) 2 [⟨S8x400000x1, x₀⟩, ⟨S8x400000x1, x₁⟩, ⟨S8x400000x1, x₂⟩] h (ix3 b f 0) 0 (by show (0 : ℕ) < 3; omega) S8x400000x1 x₀ rfl rfl 0 rfl (ix3 b f 0) (fun a ha => by
    match a with
    | ⟨0, _⟩ => rfl
    | ⟨1, _⟩ => rfl
    | ⟨2, _⟩ => exact absurd rfl ha) rfl

theorem join3_apply1 (x₀ x₁ x₂ : S8x400000x1.Idx → α)
    (h : Shape.Concatenates [S8x400000x1, S8x400000x1, S8x400000x1] S8x400000x3 2) (b : Fin 8) (f : Fin 400000) :
    concatenate S8x400000x3 2 [⟨S8x400000x1, x₀⟩, ⟨S8x400000x1, x₁⟩, ⟨S8x400000x1, x₂⟩] h (ix3 b f 1) = x₁ (ix3 b f 0) :=
  concatenate_apply_piece (t := S8x400000x3) 2 [⟨S8x400000x1, x₀⟩, ⟨S8x400000x1, x₁⟩, ⟨S8x400000x1, x₂⟩] h (ix3 b f 1) 1 (by show (1 : ℕ) < 3; omega) S8x400000x1 x₁ rfl rfl 1 rfl (ix3 b f 0) (fun a ha => by
    match a with
    | ⟨0, _⟩ => rfl
    | ⟨1, _⟩ => rfl
    | ⟨2, _⟩ => exact absurd rfl ha) rfl

theorem join3_apply2 (x₀ x₁ x₂ : S8x400000x1.Idx → α)
    (h : Shape.Concatenates [S8x400000x1, S8x400000x1, S8x400000x1] S8x400000x3 2) (b : Fin 8) (f : Fin 400000) :
    concatenate S8x400000x3 2 [⟨S8x400000x1, x₀⟩, ⟨S8x400000x1, x₁⟩, ⟨S8x400000x1, x₂⟩] h (ix3 b f 2) = x₂ (ix3 b f 0) :=
  concatenate_apply_piece (t := S8x400000x3) 2 [⟨S8x400000x1, x₀⟩, ⟨S8x400000x1, x₁⟩, ⟨S8x400000x1, x₂⟩] h (ix3 b f 2) 2 (by show (2 : ℕ) < 3; omega) S8x400000x1 x₂ rfl rfl 2 rfl (ix3 b f 0) (fun a ha => by
    match a with
    | ⟨0, _⟩ => rfl
    | ⟨1, _⟩ => rfl
    | ⟨2, _⟩ => exact absurd rfl ha) rfl

/-! ## A slice of the corner axis and the reshape that drops it -/

theorem corner_apply (g : S8x400000x3x3.Idx → α) (o : Nat) (h : S8x400000x3x3.Slices ![0, 0, o, 0] S8x400000x1x3)
    (h2 : S8x400000x1x3.ShapeCasts S8x400000x3) (b : Fin 8) (f : Fin 400000) (d k : Fin 3) (hk : k.val = o) :
    shapeCast S8x400000x3 (extractStridedSlice S8x400000x1x3 ![0, 0, o, 0] g h) h2 (ix3 b f d) = g (ix4 b f k d) := by
  rw [shapeCast_apply _ h2 (ix3 b f d) (ix4 b f 0 d) (by
    rw [Shape.rowMajor_val_four, Shape.rowMajor_val_three]
    show ((b.val * 400000 + f.val) * 1 + 0) * 3 + d.val = (b.val * 400000 + f.val) * 3 + d.val
    rw [Nat.mul_one, Nat.add_zero])]
  exact slice4_axis2_apply o g h b f 0 d k (by rw [hk]; rfl)

theorem corner0_apply (g : S8x400000x3x3.Idx → α) (h : S8x400000x3x3.Slices ![0, 0, 0, 0] S8x400000x1x3)
    (h2 : S8x400000x1x3.ShapeCasts S8x400000x3) (b : Fin 8) (f : Fin 400000) (d : Fin 3) :
    shapeCast S8x400000x3 (extractStridedSlice S8x400000x1x3 ![0, 0, 0, 0] g h) h2 (ix3 b f d) = g (ix4 b f 0 d) :=
  corner_apply g 0 h h2 b f d 0 rfl
theorem corner1_apply (g : S8x400000x3x3.Idx → α) (h : S8x400000x3x3.Slices ![0, 0, 1, 0] S8x400000x1x3)
    (h2 : S8x400000x1x3.ShapeCasts S8x400000x3) (b : Fin 8) (f : Fin 400000) (d : Fin 3) :
    shapeCast S8x400000x3 (extractStridedSlice S8x400000x1x3 ![0, 0, 1, 0] g h) h2 (ix3 b f d) = g (ix4 b f 1 d) :=
  corner_apply g 1 h h2 b f d 1 rfl
theorem corner2_apply (g : S8x400000x3x3.Idx → α) (h : S8x400000x3x3.Slices ![0, 0, 2, 0] S8x400000x1x3)
    (h2 : S8x400000x1x3.ShapeCasts S8x400000x3) (b : Fin 8) (f : Fin 400000) (d : Fin 3) :
    shapeCast S8x400000x3 (extractStridedSlice S8x400000x1x3 ![0, 0, 2, 0] g h) h2 (ix3 b f d) = g (ix4 b f 2 d) :=
  corner_apply g 2 h h2 b f d 2 rfl

/-! ## The sum over the coordinate axis -/

theorem sum3_apply (x : FVec Ideal S8x400000x3 .f32) (init : FVec Ideal S_ .f32)
    (h' : S8x400000x3.ReducesTo [2] S8x400000) (hu : 0 < S_.numel) (b : Fin 8) (f : Fin 400000) :
    Host.reduceAdd x init h' hu (ix2 b f) = init ix0 + ∑ d : Fin 3, x (ix3 b f d) := by
  have h : S8x400000x3.Reduces [2] S8x400000 := by decide
  show Ideal.hostReduceAdd h' x (init (Shape.Idx.first hu)) (ix2 b f) = _
  rw [Ideal.hostReduceAdd_single h' h]
  have e0 : Shape.Idx.first hu = (ix0 : S_.Idx) := funext fun a => a.elim0
  rw [e0]
  congr 1
  show ∑ d : Fin 3, x (h.lift (ix2 b f) d) = ∑ d : Fin 3, x (ix3 b f d)
  refine Finset.sum_congr rfl fun d _ => congrArg x (funext fun a => Fin.ext ?_)
  match a with
  | ⟨0, _⟩ => rfl
  | ⟨1, _⟩ => rfl
  | ⟨2, _⟩ => rfl

/-! ## The gather of the corners -/

/-- A word read signed and clamped into `[0, n)`. -/
def clampFin (n : Nat) (hn : 0 < n) (w : BitVec 32) : Fin n := ⟨min w.toInt.toNat (n - 1), by omega⟩

/-- The gather reads, at mesh b, face f, corner k, coordinate d, the vertex array at the mesh and the vertex its two
    start coordinates name, each read signed and clamped into range, and coordinate d. -/
theorem gather_apply (x : S8x200000x3.Idx → α) (idx : IVec S8x400000x3x2 32) (b : Fin 8) (f : Fin 400000) (k d : Fin 3) :
    Host.gather gather_S8x200000x3_S8x400000x3x2_S8x400000x3x3_3_01_n_n_01_3_113 x idx (ix4 b f k d)
      = x (ix3 (clampFin 8 (by decide) (idx (ix4 b f k 0))) (clampFin 200000 (by decide) (idx (ix4 b f k 1))) d) := by
  unfold Host.gather
  congr 1
  funext a
  refine Fin.ext ?_
  show gather_S8x200000x3_S8x400000x3x2_S8x400000x3x3_3_01_n_n_01_3_113.start (ix4 b f k d) idx a + gather_S8x200000x3_S8x400000x3x2_S8x400000x3x3_3_01_n_n_01_3_113.batchCoord (ix4 b f k d) a + gather_S8x200000x3_S8x400000x3x2_S8x400000x3x3_3_01_n_n_01_3_113.offCoord (ix4 b f k d) a = _
  rw [GatherDims.batchCoord_eq_zero _ _ _ (show a ∉ ([] : List (Fin 3)) from List.not_mem_nil)]
  have hsi0 : ∀ h, gather_S8x200000x3_S8x400000x3x2_S8x400000x3x3_3_01_n_n_01_3_113.siIdx (ix4 b f k d) ⟨List.idxOf (⟨0, by decide⟩ : Fin 3) gather_S8x200000x3_S8x400000x3x2_S8x400000x3x3_3_01_n_n_01_3_113.startIndexMap, h⟩ = ix4 b f k 0 := by
    intro h
    funext c; refine Fin.ext ?_
    match c with
    | ⟨0, _⟩ => rfl
    | ⟨1, _⟩ => rfl
    | ⟨2, _⟩ => rfl
    | ⟨3, _⟩ => rfl
  have hsi1 : ∀ h, gather_S8x200000x3_S8x400000x3x2_S8x400000x3x3_3_01_n_n_01_3_113.siIdx (ix4 b f k d) ⟨List.idxOf (⟨1, by decide⟩ : Fin 3) gather_S8x200000x3_S8x400000x3x2_S8x400000x3x3_3_01_n_n_01_3_113.startIndexMap, h⟩ = ix4 b f k 1 := by
    intro h
    funext c; refine Fin.ext ?_
    match c with
    | ⟨0, _⟩ => rfl
    | ⟨1, _⟩ => rfl
    | ⟨2, _⟩ => rfl
    | ⟨3, _⟩ => rfl
  match a with
  | ⟨0, _⟩ =>
    unfold GatherDims.start GatherDims.offCoord
    rw [dif_pos (by simp [gather_S8x200000x3_S8x400000x3x2_S8x400000x3x3_3_01_n_n_01_3_113]),
      dif_neg (by simp [gather_S8x200000x3_S8x400000x3x2_S8x400000x3x3_3_01_n_n_01_3_113, GatherDims.sKept, Shape.kept])]
    rw [hsi0]
    rfl
  | ⟨1, _⟩ =>
    unfold GatherDims.start GatherDims.offCoord
    rw [dif_pos (by simp [gather_S8x200000x3_S8x400000x3x2_S8x400000x3x3_3_01_n_n_01_3_113]),
      dif_neg (by simp [gather_S8x200000x3_S8x400000x3x2_S8x400000x3x3_3_01_n_n_01_3_113, GatherDims.sKept, Shape.kept])]
    rw [hsi1]
    rfl
  | ⟨2, _⟩ =>
    unfold GatherDims.start GatherDims.offCoord
    rw [dif_neg (by simp [gather_S8x200000x3_S8x400000x3x2_S8x400000x3x3_3_01_n_n_01_3_113]),
      dif_pos (by simp [gather_S8x200000x3_S8x400000x3x2_S8x400000x3x3_3_01_n_n_01_3_113, GatherDims.sKept, Shape.kept])]
    simp only [Nat.zero_add]
    rfl

/-! ## The two start coordinates -/

/-- The mesh column: a mesh number below eight is not negative, so the "negative index" branch is not taken. -/
theorem mesh_word (b : Fin 8) :
    Scalar.select (IntOp.cmpi .slt (BitVec.ofNat 32 b.val) 0#32) (IntOp.addi (BitVec.ofNat 32 b.val) 8#32) (BitVec.ofNat 32 b.val)
      = BitVec.ofNat 32 b.val := by
  fin_cases b <;> decide

/-- … and clamping it into the mesh range gives the mesh back. -/
theorem mesh_clamp (b : Fin 8) (h : 0 < 8) : clampFin 8 h (BitVec.ofNat 32 b.val) = b := by
  apply Fin.ext
  show min (BitVec.ofNat 32 b.val).toInt.toNat (8 - 1) = b.val
  fin_cases b <;> decide

/-- The vertex column: a vertex number that is not negative is left as it is. -/
theorem face_word (w : BitVec 32) (h : 0 ≤ w.toInt) :
    Scalar.select (IntOp.cmpi .slt w 0#32) (IntOp.addi w 200000#32) w = w := by
  have h0 : IntOp.cmpi .slt w 0#32 = 0#1 := by
    show BitVec.ofBool (w.slt 0#32) = 0#1
    have : w.slt 0#32 = false := by
      rw [BitVec.slt]
      simp only [BitVec.toInt_zero, decide_eq_false_iff_not, not_lt]
      exact h
    rw [this]; rfl
  rw [h0, select_zero]

/-- … and clamping it into the vertex range is the vertex the number names. -/
theorem face_clamp (w : BitVec 32) (h : 0 < 200000) : clampFin 200000 h w = Cert.CotLap.vnum w := rfl

/-! ## The pointwise operations -/

theorem hdivf_apply {s : Shape} (x y : FVec Ideal s .f32) (i : s.Idx) : Host.divf x y i = Ideal.div (x i) (y i) := rfl
theorem hsqrt_apply {s : Shape} (x : FVec Ideal s .f32) (i : s.Idx) : Host.sqrt x i = Ideal.sqrt (x i) := rfl
theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl
theorem iota8_apply (b : Fin 8) : iotaInDim S8 32 0 (ix1 b) = BitVec.ofNat 32 b.val := rfl

/-! ## The weight array at an index -/

section
variable (V : FVec Ideal S8x200000x3 .f32) (Fc : IVec S8x400000x3 32)

theorem stC_apply0 (hF : ∀ i, 0 ≤ (Fc i).toInt ∧ (Fc i).toInt < 200000) (b : Fin 8) (f : Fin 400000) :
    stC V Fc (ix3 b f 0)
      = Cert.CotLap.rW23 (fun d : Fin 3 => V (ix3 b (Cert.CotLap.vnum (Fc (ix3 b f 0))) d))
          (fun d : Fin 3 => V (ix3 b (Cert.CotLap.vnum (Fc (ix3 b f 1))) d))
          (fun d : Fin 3 => V (ix3 b (Cert.CotLap.vnum (Fc (ix3 b f 2))) d)) := by
  -- the two divisions and the join of the three numerators, at the index
  simp only [stC]
  simp only [hdivf_apply, join3_apply0]
  rw [bcast_8400_84001_apply, bcast_84001_84003_apply, bcast_8400_84001_apply]
  -- everything pointwise down to the three sums; under each sum the corners, the gather and the join of its start columns
  simp only [hdivf_apply, hsqrt_apply, mulf_apply, addf_apply, subf_apply, bcast0_apply, constant_apply, sum3_apply,
    corner0_apply, corner1_apply, corner2_apply, gather_apply, join2_left_apply, join2_right_apply, select_apply,
    cmpi_apply, addi_apply, iota8_apply, constantI_apply, Ideal.ofBits_zero_f32, zero_add]
  -- the start columns: the mesh number, and the face's vertex number
  repeat rw [bcast_84003_840031_apply]
  repeat rw [bcast_811_84003_apply]
  simp only [select_apply, cmpi_apply, addi_apply, bcast0_apply, constantI_apply]
  repeat rw [bcast_8_811_apply]
  simp only [iota8_apply, bcast0_apply, constantI_apply, mesh_word, mesh_clamp, fun i => face_word (Fc i) (hF i).1,
    face_clamp]
  repeat rw [bcast0_apply]
  simp only [constantI_apply, mesh_word, mesh_clamp, fun i => face_word (Fc i) (hF i).1]
  rfl

theorem stC_apply1 (hF : ∀ i, 0 ≤ (Fc i).toInt ∧ (Fc i).toInt < 200000) (b : Fin 8) (f : Fin 400000) :
    stC V Fc (ix3 b f 1)
      = Cert.CotLap.rW31 (fun d : Fin 3 => V (ix3 b (Cert.CotLap.vnum (Fc (ix3 b f 0))) d))
          (fun d : Fin 3 => V (ix3 b (Cert.CotLap.vnum (Fc (ix3 b f 1))) d))
          (fun d : Fin 3 => V (ix3 b (Cert.CotLap.vnum (Fc (ix3 b f 2))) d)) := by
  -- the two divisions and the join of the three numerators, at the index
  simp only [stC]
  simp only [hdivf_apply, join3_apply1]
  rw [bcast_8400_84001_apply, bcast_84001_84003_apply, bcast_8400_84001_apply]
  -- everything pointwise down to the three sums; under each sum the corners, the gather and the join of its start columns
  simp only [hdivf_apply, hsqrt_apply, mulf_apply, addf_apply, subf_apply, bcast0_apply, constant_apply, sum3_apply,
    corner0_apply, corner1_apply, corner2_apply, gather_apply, join2_left_apply, join2_right_apply, select_apply,
    cmpi_apply, addi_apply, iota8_apply, constantI_apply, Ideal.ofBits_zero_f32, zero_add]
  -- the start columns: the mesh number, and the face's vertex number
  repeat rw [bcast_84003_840031_apply]
  repeat rw [bcast_811_84003_apply]
  simp only [select_apply, cmpi_apply, addi_apply, bcast0_apply, constantI_apply]
  repeat rw [bcast_8_811_apply]
  simp only [iota8_apply, bcast0_apply, constantI_apply, mesh_word, mesh_clamp, fun i => face_word (Fc i) (hF i).1,
    face_clamp]
  repeat rw [bcast0_apply]
  simp only [constantI_apply, mesh_word, mesh_clamp, fun i => face_word (Fc i) (hF i).1]
  rfl

theorem stC_apply2 (hF : ∀ i, 0 ≤ (Fc i).toInt ∧ (Fc i).toInt < 200000) (b : Fin 8) (f : Fin 400000) :
    stC V Fc (ix3 b f 2)
      = Cert.CotLap.rW12 (fun d : Fin 3 => V (ix3 b (Cert.CotLap.vnum (Fc (ix3 b f 0))) d))
          (fun d : Fin 3 => V (ix3 b (Cert.CotLap.vnum (Fc (ix3 b f 1))) d))
          (fun d : Fin 3 => V (ix3 b (Cert.CotLap.vnum (Fc (ix3 b f 2))) d)) := by
  -- the two divisions and the join of the three numerators, at the index
  simp only [stC]
  simp only [hdivf_apply, join3_apply2]
  rw [bcast_8400_84001_apply, bcast_84001_84003_apply, bcast_8400_84001_apply]
  -- everything pointwise down to the three sums; under each sum the corners, the gather and the join of its start columns
  simp only [hdivf_apply, hsqrt_apply, mulf_apply, addf_apply, subf_apply, bcast0_apply, constant_apply, sum3_apply,
    corner0_apply, corner1_apply, corner2_apply, gather_apply, join2_left_apply, join2_right_apply, select_apply,
    cmpi_apply, addi_apply, iota8_apply, constantI_apply, Ideal.ofBits_zero_f32, zero_add]
  -- the start columns: the mesh number, and the face's vertex number
  repeat rw [bcast_84003_840031_apply]
  repeat rw [bcast_811_84003_apply]
  simp only [select_apply, cmpi_apply, addi_apply, bcast0_apply, constantI_apply]
  repeat rw [bcast_8_811_apply]
  simp only [iota8_apply, bcast0_apply, constantI_apply, mesh_word, mesh_clamp, fun i => face_word (Fc i) (hF i).1,
    face_clamp]
  repeat rw [bcast0_apply]
  simp only [constantI_apply, mesh_word, mesh_clamp, fun i => face_word (Fc i) (hF i).1]
  rfl

end

end Cert.ReferenceIdeal.Weights

end
-- ==== Proof.RefIdx.lean ====
/-
  The reference's last stretch restated through its few distinct pieces, and its index pieces read at an index.

  Entry `u = 3 t + k` of the flattened face data belongs to face `t` and edge `k`; the edge's two ends are the
  corners `[1, 2, 0][k]` ("row") and `[2, 0, 1][k]` ("column") of the face. The program scatters
  `weight · vertex(column end)` to the row end, `weight · vertex(row end)` to the column end, and the weight to both
  ends, then subtracts the accumulated weight times the vertex itself.
-/
import proofs.«162177_j39814346834441_2_alg».proof.Proof.RefOps
import proofs.«162177_j39814346834441_2_alg».proof.Proof.Spec
import Idealize.ShloMosaic.Lib.ValueIdx
import Idealize.ShloMosaic.Lib.Pipeline.Value

noncomputable section

namespace Cert.ReferenceIdeal.TailIdx

open Cert.ReferenceIdeal Cert.ReferenceIdeal.Gen Cert.ReferenceIdeal.HandRun Idealize.ShloMosaic Idealize.ShloMosaic.ValueIdx

variable {F : FTy → Type} [FloatOps F]

/-- One end of every edge: column `tbl k` of the offset face array for edge `k`, flattened. -/
def permIdx (tbl : Fin 3 → BitVec 32) (Fg : IVec S8x400000x3 32) : IVec S9600000 32 :=
  shapeCast S9600000
    (Host.gather gather_S8x400000x3_S3x1_S8x400000x3_01_2_n_n_2_1_84000001 Fg
      (broadcastInDim S3x1 ![0] bcast_S3_S3x1_0
        (select (cmpi .slt (fun i : S3.Idx => tbl (S3.rowMajor i)) (broadcastInDim S3 ![] bcast_S_S3 (constantI S_ 32 0#32)))
          (addi (fun i : S3.Idx => tbl (S3.rowMajor i)) (broadcastInDim S3 ![] bcast_S_S3 (constantI S_ 32 3#32)))
          (fun i : S3.Idx => tbl (S3.rowMajor i)))))
    shapeCasts_S8x400000x3_S9600000

/-- "If negative add 1600000", as a column. -/
def normIdx (x : IVec S9600000 32) : IVec S9600000x1 32 :=
  broadcastInDim S9600000x1 ![0] bcast_S9600000_S9600000x1_0
    (select (cmpi .slt x (broadcastInDim S9600000 ![] bcast_S_S9600000 (constantI S_ 32 0#32)))
      (addi x (broadcastInDim S9600000 ![] bcast_S_S9600000 (constantI S_ 32 1600000#32))) x)

/-- The last stretch through those pieces. -/
def tail2 (V : FVec F S8x200000x3 .f32) (C : FVec F S8x400000x3 .f32) (Fg : IVec S8x400000x3 32) : FVec F S1600000x3 .f32 :=
  let rows := permIdx lit0 Fg
  let cols := permIdx lit1 Fg
  let w : FVec F S9600000 .f32 := shapeCast S9600000 C shapeCasts_S8x400000x3_S9600000
  let x : FVec F S1600000x3 .f32 := shapeCast S1600000x3 V shapeCasts_S8x200000x3_S1600000x3
  let wcol : FVec F S9600000x3 .f32 := broadcastInDim S9600000x3 ![0, 1] bcast_S9600000x1_S9600000x3_0_1
    (broadcastInDim S9600000x1 ![0] bcast_S9600000_S9600000x1_0 w)
  let s1 := Host.scatterAdd scatter_S1600000x3_S9600000x1_S9600000x3_1_0_0_1
    (broadcastInDim S1600000x3 ![] bcast_S_S1600000x3 (constant S_ .f32 0x00000000#32)) (normIdx rows)
    (mulf wcol (Host.gather gather_S1600000x3_S9600000x1_S9600000x3_1_0_n_n_0_1_13 x (normIdx cols)))
  let s2 := Host.scatterAdd scatter_S1600000x3_S9600000x1_S9600000x3_1_0_0_1 s1 (normIdx cols)
    (mulf wcol (Host.gather gather_S1600000x3_S9600000x1_S9600000x3_1_0_n_n_0_1_13 x (normIdx rows)))
  let g1 := Host.scatterAdd scatter_S1600000_S9600000x1_S9600000_n_0_0_1
    (broadcastInDim S1600000 ![] bcast_S_S1600000 (constant S_ .f32 0x00000000#32)) (normIdx rows) w
  let g2 := Host.scatterAdd scatter_S1600000_S9600000x1_S9600000_n_0_0_1 g1 (normIdx cols) w
  subf s2 (mulf (broadcastInDim S1600000x3 ![0, 1] bcast_S1600000x1_S1600000x3_0_1
    (broadcastInDim S1600000x1 ![0] bcast_S1600000_S1600000x1_0 g2)) x)

theorem stTail_eq (V : FVec F S8x200000x3 .f32) (C : FVec F S8x400000x3 .f32) (Fg : IVec S8x400000x3 32) :
    stTail V C Fg = tail2 V C Fg := rfl

/-! ## The two gathers of this stretch read at an index -/

/-- Picking a column of the face array by a table of three column numbers: result `(b, f, k)` is the operand at
    `(b, f, table[k])`, the table entry read signed and brought into `[0, 2]`. -/
theorem gatherPerm_apply {α : Type} (x : S8x400000x3.Idx → α) (idx : IVec S3x1 32) (b : Fin 8) (f : Fin 400000) (k : Fin 3) :
    Host.gather gather_S8x400000x3_S3x1_S8x400000x3_01_2_n_n_2_1_84000001 x idx (ix3 b f k)
      = x (ix3 b f ⟨min (idx (ix2 k (0 : Fin 1))).toInt.toNat 2, by omega⟩) := by
  unfold Host.gather
  congr 1
  funext a
  refine Fin.ext ?_
  show gather_S8x400000x3_S3x1_S8x400000x3_01_2_n_n_2_1_84000001.start (ix3 b f k) idx a + gather_S8x400000x3_S3x1_S8x400000x3_01_2_n_n_2_1_84000001.batchCoord (ix3 b f k) a + gather_S8x400000x3_S3x1_S8x400000x3_01_2_n_n_2_1_84000001.offCoord (ix3 b f k) a = _
  rw [GatherDims.batchCoord_eq_zero _ _ _ (show a ∉ ([] : List (Fin 3)) from List.not_mem_nil)]
  have hsi : ∀ h, gather_S8x400000x3_S3x1_S8x400000x3_01_2_n_n_2_1_84000001.siIdx (ix3 b f k) ⟨List.idxOf (⟨2, by decide⟩ : Fin 3) gather_S8x400000x3_S3x1_S8x400000x3_01_2_n_n_2_1_84000001.startIndexMap, h⟩ = ix2 k (0 : Fin 1) := by
    intro h
    funext c; refine Fin.ext ?_
    match c with
    | ⟨0, _⟩ => rfl
    | ⟨1, _⟩ => rfl
  match a with
  | ⟨0, _⟩ =>
    unfold GatherDims.start GatherDims.offCoord
    rw [dif_neg (by simp [gather_S8x400000x3_S3x1_S8x400000x3_01_2_n_n_2_1_84000001]), dif_pos (by simp [gather_S8x400000x3_S3x1_S8x400000x3_01_2_n_n_2_1_84000001, GatherDims.sKept, Shape.kept])]
    simp only [Nat.zero_add]
    rfl
  | ⟨1, _⟩ =>
    unfold GatherDims.start GatherDims.offCoord
    rw [dif_neg (by simp [gather_S8x400000x3_S3x1_S8x400000x3_01_2_n_n_2_1_84000001]), dif_pos (by simp [gather_S8x400000x3_S3x1_S8x400000x3_01_2_n_n_2_1_84000001, GatherDims.sKept, Shape.kept])]
    simp only [Nat.zero_add]
    rfl
  | ⟨2, _⟩ =>
    unfold GatherDims.start GatherDims.offCoord
    rw [dif_pos (by simp [gather_S8x400000x3_S3x1_S8x400000x3_01_2_n_n_2_1_84000001]), dif_neg (by simp [gather_S8x400000x3_S3x1_S8x400000x3_01_2_n_n_2_1_84000001, GatherDims.sKept, Shape.kept])]
    rw [hsi]
    rfl

/-- Picking rows of the flattened vertex array by a column of row numbers: result `(u, d)` is the operand at
    `(row[u], d)`, the row number read signed and brought into `[0, 1599999]`. -/
theorem gatherRows_apply {α : Type} (x : S1600000x3.Idx → α) (idx : IVec S9600000x1 32) (u : Fin 9600000) (d : Fin 3) :
    Host.gather gather_S1600000x3_S9600000x1_S9600000x3_1_0_n_n_0_1_13 x idx (ix2 u d)
      = x (ix2 ⟨min (idx (ix2 u (0 : Fin 1))).toInt.toNat 1599999, by omega⟩ d) := by
  unfold Host.gather
  congr 1
  funext a
  refine Fin.ext ?_
  show gather_S1600000x3_S9600000x1_S9600000x3_1_0_n_n_0_1_13.start (ix2 u d) idx a + gather_S1600000x3_S9600000x1_S9600000x3_1_0_n_n_0_1_13.batchCoord (ix2 u d) a + gather_S1600000x3_S9600000x1_S9600000x3_1_0_n_n_0_1_13.offCoord (ix2 u d) a = _
  rw [GatherDims.batchCoord_eq_zero _ _ _ (show a ∉ ([] : List (Fin 2)) from List.not_mem_nil)]
  have hsi : ∀ h, gather_S1600000x3_S9600000x1_S9600000x3_1_0_n_n_0_1_13.siIdx (ix2 u d) ⟨List.idxOf (⟨0, by decide⟩ : Fin 2) gather_S1600000x3_S9600000x1_S9600000x3_1_0_n_n_0_1_13.startIndexMap, h⟩ = ix2 u (0 : Fin 1) := by
    intro h
    funext c; refine Fin.ext ?_
    match c with
    | ⟨0, _⟩ => rfl
    | ⟨1, _⟩ => rfl
  match a with
  | ⟨0, _⟩ =>
    unfold GatherDims.start GatherDims.offCoord
    rw [dif_pos (by simp [gather_S1600000x3_S9600000x1_S9600000x3_1_0_n_n_0_1_13]), dif_neg (by simp [gather_S1600000x3_S9600000x1_S9600000x3_1_0_n_n_0_1_13, GatherDims.sKept, Shape.kept])]
    rw [hsi]
    rfl
  | ⟨1, _⟩ =>
    unfold GatherDims.start GatherDims.offCoord
    rw [dif_neg (by simp [gather_S1600000x3_S9600000x1_S9600000x3_1_0_n_n_0_1_13]), dif_pos (by simp [gather_S1600000x3_S9600000x1_S9600000x3_1_0_n_n_0_1_13, GatherDims.sKept, Shape.kept])]
    simp only [Nat.zero_add]
    rfl

/-! ## Words -/

/-- A word that is not negative is left alone by "if negative add `c`". -/
theorem select_slt_zero {w : Nat} (x c : BitVec w) (h : 0 ≤ x.toInt) :
    Scalar.select (IntOp.cmpi .slt x 0#w) (IntOp.addi x c) x = x := by
  have hn : ¬ x.toInt < 0 := not_lt.mpr h
  simp [Scalar.select, IntOp.cmpi, BitVec.slt, hn]

/-- A 32-bit word read signed that is not negative is its unsigned reading. -/
theorem toNat_of_toInt_nonneg (x : BitVec 32) (h : 0 ≤ x.toInt) : x.toInt = (x.toNat : ℤ) ∧ x.toNat < 2147483648 := by
  have hc := BitVec.toInt_eq_toNat_cond x
  have hl := x.isLt
  split at hc
  · exact ⟨hc, by omega⟩
  · exfalso; omega

/-- A small number as a word, read back. -/
theorem toNat_ofNat_small (n : Nat) (h : n < 4294967296) : (BitVec.ofNat 32 n).toNat = n := by
  rw [BitVec.toNat_ofNat]; exact Nat.mod_eq_of_lt (by omega)

theorem toInt_of_toNat_small (x : BitVec 32) (h : x.toNat < 2147483648) : x.toInt = (x.toNat : ℤ) :=
  BitVec.toInt_eq_toNat_of_lt (by omega)

/-- A vertex number plus its mesh's offset, as words: no wrap. -/
theorem toNat_offset (x : BitVec 32) (b : Fin 8) (h0 : 0 ≤ x.toInt) (h1 : x.toInt < 200000) :
    (IntOp.addi x (IntOp.muli (BitVec.ofNat 32 b.val) 200000#32)).toNat = b.val * 200000 + x.toInt.toNat := by
  obtain ⟨e, _⟩ := toNat_of_toInt_nonneg x h0
  have hb := b.isLt
  have hm : (IntOp.muli (BitVec.ofNat 32 b.val) 200000#32).toNat = b.val * 200000 := by
    show (BitVec.ofNat 32 b.val * 200000#32).toNat = _
    rw [BitVec.toNat_mul, toNat_ofNat_small _ (by omega)]
    show b.val * 200000 % 4294967296 = _
    exact Nat.mod_eq_of_lt (by omega)
  show (x + IntOp.muli (BitVec.ofNat 32 b.val) 200000#32).toNat = _
  rw [BitVec.toNat_add, hm]
  have : x.toNat < 200000 := by omega
  show (x.toNat + b.val * 200000) % 4294967296 = _
  rw [Nat.mod_eq_of_lt (by omega)]
  omega

/-! ## The index pieces -/

/-- The offset face array: a vertex number plus its mesh's offset. -/
theorem stFg_apply (Fc : IVec S8x400000x3 32) (b : Fin 8) (f : Fin 400000) (k : Fin 3) :
    stFg (F := F) Fc (ix3 b f k) = IntOp.addi (Fc (ix3 b f k)) (IntOp.muli (BitVec.ofNat 32 b.val) 200000#32) := by
  unfold stFg
  dsimp only
  show IntOp.addi (Fc (ix3 b f k))
    (broadcastInDim S8x400000x3 ![0, 1, 2] bcast_S8x1x1_S8x400000x3_0_1_2
      (broadcastInDim S8x1x1 ![0] bcast_S8_S8x1x1_0
        (muli (iotaInDim S8 32 0) (broadcastInDim S8 ![] bcast_S_S8 (constantI S_ 32 200000#32)))) (ix3 b f k)) = _
  rw [broadcastInDim_apply (s := S8x1x1) (t := S8x400000x3) _ _ _ (ix3 b f k) (ix3 b (0 : Fin 1) (0 : Fin 1))
    (by intro a; match a with | ⟨0, _⟩ => rfl | ⟨1, _⟩ => rfl | ⟨2, _⟩ => rfl)]
  rw [broadcastInDim_apply (s := S8) (t := S8x1x1) _ _ _ (ix3 b (0 : Fin 1) (0 : Fin 1)) (ix1 b)
    (by intro a; match a with | ⟨0, _⟩ => rfl)]
  rfl

/-- One end of edge `k` of face `t`: the offset face array at the column the table names. -/
theorem permIdx_apply (tbl : Fin 3 → BitVec 32) (Fg : IVec S8x400000x3 32) (t : Fin 3200000) (k pk : Fin 3)
    (htbl : tbl k = BitVec.ofNat 32 pk.val) :
    permIdx tbl Fg (ix1 (⟨3 * t.val + k.val, by have := t.isLt; have := k.isLt; omega⟩ : Fin 9600000))
      = Fg (ix3 (Cert.CotLap.fb t) (Cert.CotLap.ff t) pk) := by
  unfold permIdx
  rw [shapeCast_apply (s := S8x400000x3) (t := S9600000) _ _ _ (ix3 (Cert.CotLap.fb t) (Cert.CotLap.ff t) k) (by
    rw [Shape.rowMajor_val_three, Shape.rowMajor_val_one]
    show (t.val / 400000 * 400000 + t.val % 400000) * 3 + k.val = 3 * t.val + k.val
    omega)]
  rw [gatherPerm_apply]
  have e : (⟨min ((broadcastInDim S3x1 ![0] bcast_S3_S3x1_0
      (select (cmpi .slt (fun i : S3.Idx => tbl (S3.rowMajor i)) (broadcastInDim S3 ![] bcast_S_S3 (constantI S_ 32 0#32)))
        (addi (fun i : S3.Idx => tbl (S3.rowMajor i)) (broadcastInDim S3 ![] bcast_S_S3 (constantI S_ 32 3#32)))
        (fun i : S3.Idx => tbl (S3.rowMajor i)))) (ix2 k (0 : Fin 1))).toInt.toNat 2, by omega⟩ : Fin 3) = pk := by
    refine Fin.ext ?_
    show min (_ : BitVec 32).toInt.toNat 2 = pk.val
    rw [broadcastInDim_apply (s := S3) (t := S3x1) _ _ _ (ix2 k (0 : Fin 1)) (ix1 k)
      (by intro a; match a with | ⟨0, _⟩ => rfl)]
    have hk : S3.rowMajor (ix1 k) = k := Fin.ext (Shape.rowMajor_val_one _)
    show min (Scalar.select (IntOp.cmpi .slt (tbl (S3.rowMajor (ix1 k))) 0#32)
      (IntOp.addi (tbl (S3.rowMajor (ix1 k))) 3#32) (tbl (S3.rowMajor (ix1 k)))).toInt.toNat 2 = pk.val
    rw [hk, htbl]
    have hp := pk.isLt
    have hn : (BitVec.ofNat 32 pk.val).toNat = pk.val := toNat_ofNat_small _ (by omega)
    have hi : (BitVec.ofNat 32 pk.val).toInt = (pk.val : ℤ) := by
      rw [toInt_of_toNat_small _ (by omega), hn]
    rw [select_slt_zero _ _ (by rw [hi]; omega), hi]
    simp only [Int.toNat_natCast]
    omega
  rw [e]

/-- "If negative add 1600000" leaves a word that is not negative alone. -/
theorem normIdx_apply (x : IVec S9600000 32) (u : Fin 9600000) (h : 0 ≤ (x (ix1 u)).toInt) :
    normIdx x (ix2 u (0 : Fin 1)) = x (ix1 u) := by
  unfold normIdx
  rw [broadcastInDim_apply (s := S9600000) (t := S9600000x1) _ _ _ (ix2 u (0 : Fin 1)) (ix1 u)
    (by intro a; match a with | ⟨0, _⟩ => rfl)]
  exact select_slt_zero _ _ h

/-- The flattened weight array at entry `3 t + k` is the weight of edge `k` of face `t`. -/
theorem flatW_apply {α : Type} (C : S8x400000x3.Idx → α) (t : Fin 3200000) (k : Fin 3) :
    shapeCast S9600000 C shapeCasts_S8x400000x3_S9600000
        (ix1 (⟨3 * t.val + k.val, by have := t.isLt; have := k.isLt; omega⟩ : Fin 9600000))
      = C (ix3 (Cert.CotLap.fb t) (Cert.CotLap.ff t) k) := by
  rw [shapeCast_apply (s := S8x400000x3) (t := S9600000) _ _ _ (ix3 (Cert.CotLap.fb t) (Cert.CotLap.ff t) k) (by
    rw [Shape.rowMajor_val_three, Shape.rowMajor_val_one]
    show (t.val / 400000 * 400000 + t.val % 400000) * 3 + k.val = 3 * t.val + k.val
    omega)]

/-- The flattened vertex array at row `j` is vertex `j % 200000` of mesh `j / 200000`. -/
theorem flatV_apply {α : Type} (V : S8x200000x3.Idx → α) (j : Fin 1600000) (d : Fin 3) :
    shapeCast S1600000x3 V shapeCasts_S8x200000x3_S1600000x3 (ix2 j d)
      = V (ix3 (Cert.CotLap.vb j) (Cert.CotLap.vn j) d) := by
  rw [shapeCast_apply (s := S8x200000x3) (t := S1600000x3) _ _ _ (ix3 (Cert.CotLap.vb j) (Cert.CotLap.vn j) d) (by
    rw [Shape.rowMajor_val_three, Shape.rowMajor_val_two]
    show (j.val / 200000 * 200000 + j.val % 200000) * 3 + d.val = j.val * 3 + d.val
    omega)]

end Cert.ReferenceIdeal.TailIdx

end
-- ==== Proof.SumIdx.lean ====
/-
  Re-indexing of finite sums with values in the extended reals. Only the commutative-monoid structure of
  addition is used: a filtered sum is carried along a bijection of the index sets, a sum over pairs is the
  iterated sum, and a sum of sums is regrouped.

  * A filtered sum over a rank-2 index set whose filter fixes one coordinate is the filtered sum over the
    other coordinate; the rank-1 form passes from the index set to its one coordinate.
  * A number `u < 9600000` is `3 t + k` for exactly one pair `t < 3200000`, `k < 3`; a filtered sum over the
    numbers is the filtered sum over the pairs.
  * Two filtered sums over pairs `(t, k)`, one filtered through the rotation `k ↦ k + 1` and one through the
    rotation `k ↦ k + 2` (mod 3), split into their three fibres in `k` and regroup by the corner the filter
    looks at.
-/
import proofs.«162177_j39814346834441_2_alg».proof.Proof.Spec
import Mathlib.Tactic

noncomputable section

open scoped BigOperators

namespace Cert.CotLap

open Idealize.ShloMosaic Idealize.ShloMosaic.ValueIdx

/-! ## A filter that fixes one coordinate -/

theorem sum_filter_row {n0 n1 : Nat} (f : (⟨2, ![n0, n1]⟩ : Shape).Idx → EReal)
    (P : (⟨2, ![n0, n1]⟩ : Shape).Idx → Prop) [DecidablePred P] (Q : Fin n1 → Prop) [DecidablePred Q]
    (r : Fin n0) (h : ∀ (a : Fin n0) (b : Fin n1), P (ix2 a b) ↔ (a = r ∧ Q b)) :
    ∑ u ∈ Finset.univ.filter P, f u = ∑ b ∈ Finset.univ.filter Q, f (ix2 r b) := by
  refine Finset.sum_nbij' (fun u => (⟨(u 1).val, idx2_lt1 u⟩ : Fin n1)) (fun b => ix2 r b) ?_ ?_ ?_ ?_ ?_
  · intro u hu
    obtain ⟨a, b, rfl⟩ : ∃ (a : Fin n0) (b : Fin n1), u = ix2 a b := ⟨u 0, u 1, eq_ix2 u⟩
    exact (Finset.mem_filter_univ _).mpr (((h a b).mp ((Finset.mem_filter_univ _).mp hu)).2)
  · intro b hb
    exact (Finset.mem_filter_univ _).mpr ((h r b).mpr ⟨rfl, ((Finset.mem_filter_univ _).mp hb)⟩)
  · intro u hu
    obtain ⟨a, b, rfl⟩ : ∃ (a : Fin n0) (b : Fin n1), u = ix2 a b := ⟨u 0, u 1, eq_ix2 u⟩
    obtain ⟨rfl, _⟩ := (h a b).mp ((Finset.mem_filter_univ _).mp hu)
    rfl
  · intro b _
    rfl
  · intro u hu
    obtain ⟨a, b, rfl⟩ : ∃ (a : Fin n0) (b : Fin n1), u = ix2 a b := ⟨u 0, u 1, eq_ix2 u⟩
    obtain ⟨rfl, _⟩ := (h a b).mp ((Finset.mem_filter_univ _).mp hu)
    rfl

theorem sum_filter_col {n0 n1 : Nat} (f : (⟨2, ![n0, n1]⟩ : Shape).Idx → EReal)
    (P : (⟨2, ![n0, n1]⟩ : Shape).Idx → Prop) [DecidablePred P] (c : Fin n1) (Q' : Fin n0 → Prop)
    [DecidablePred Q'] (h : ∀ (a : Fin n0) (b : Fin n1), P (ix2 a b) ↔ (Q' a ∧ b = c)) :
    ∑ u ∈ Finset.univ.filter P, f u = ∑ a ∈ Finset.univ.filter Q', f (ix2 a c) := by
  refine Finset.sum_nbij' (fun u => (⟨(u 0).val, idx2_lt0 u⟩ : Fin n0)) (fun a => ix2 a c) ?_ ?_ ?_ ?_ ?_
  · intro u hu
    obtain ⟨a, b, rfl⟩ : ∃ (a : Fin n0) (b : Fin n1), u = ix2 a b := ⟨u 0, u 1, eq_ix2 u⟩
    exact (Finset.mem_filter_univ _).mpr (((h a b).mp ((Finset.mem_filter_univ _).mp hu)).1)
  · intro a ha
    exact (Finset.mem_filter_univ _).mpr ((h a c).mpr ⟨((Finset.mem_filter_univ _).mp ha), rfl⟩)
  · intro u hu
    obtain ⟨a, b, rfl⟩ : ∃ (a : Fin n0) (b : Fin n1), u = ix2 a b := ⟨u 0, u 1, eq_ix2 u⟩
    obtain ⟨_, rfl⟩ := (h a b).mp ((Finset.mem_filter_univ _).mp hu)
    rfl
  · intro a _
    rfl
  · intro u hu
    obtain ⟨a, b, rfl⟩ : ∃ (a : Fin n0) (b : Fin n1), u = ix2 a b := ⟨u 0, u 1, eq_ix2 u⟩
    obtain ⟨_, rfl⟩ := (h a b).mp ((Finset.mem_filter_univ _).mp hu)
    rfl

theorem sum_filter_ix1 {n : Nat} (f : (⟨1, ![n]⟩ : Shape).Idx → EReal)
    (P : (⟨1, ![n]⟩ : Shape).Idx → Prop) [DecidablePred P] (Q : Fin n → Prop) [DecidablePred Q]
    (h : ∀ a : Fin n, P (ix1 a) ↔ Q a) :
    ∑ u ∈ Finset.univ.filter P, f u = ∑ a ∈ Finset.univ.filter Q, f (ix1 a) := by
  refine Finset.sum_nbij' (fun u => (⟨(u 0).val, (u 0).isLt⟩ : Fin n)) (fun a => ix1 a) ?_ ?_ ?_ ?_ ?_
  · intro u hu
    obtain ⟨a, rfl⟩ : ∃ a : Fin n, u = ix1 a := ⟨u 0, eq_ix1 u⟩
    exact (Finset.mem_filter_univ _).mpr ((h a).mp ((Finset.mem_filter_univ _).mp hu))
  · intro a ha
    exact (Finset.mem_filter_univ _).mpr ((h a).mpr ((Finset.mem_filter_univ _).mp ha))
  · intro u _
    obtain ⟨a, rfl⟩ : ∃ a : Fin n, u = ix1 a := ⟨u 0, eq_ix1 u⟩
    rfl
  · intro a _
    rfl
  · intro u _
    obtain ⟨a, rfl⟩ : ∃ a : Fin n, u = ix1 a := ⟨u 0, eq_ix1 u⟩
    rfl

/-! ## The flat pair index `3 t + k` -/

/-- The number of corner `k` of face `t` when the corners of all faces are numbered face by face. -/
def enc (t : Fin 3200000) (k : Fin 3) : Fin 9600000 :=
  ⟨3 * t.val + k.val, by have := t.isLt; have := k.isLt; omega⟩

@[simp] theorem enc_val (t : Fin 3200000) (k : Fin 3) : (enc t k).val = 3 * t.val + k.val := rfl

/-- Every number below `9600000` is the number of one corner of one face. -/
theorem eq_enc (u : Fin 9600000) :
    u = enc ⟨u.val / 3, by have := u.isLt; omega⟩ ⟨u.val % 3, by omega⟩ := by
  apply Fin.ext
  rw [enc_val]
  show u.val = 3 * (u.val / 3) + u.val % 3
  omega

theorem enc_div (t : Fin 3200000) (k : Fin 3) : (enc t k).val / 3 = t.val := by
  rw [enc_val]; have := k.isLt; omega

theorem enc_mod (t : Fin 3200000) (k : Fin 3) : (enc t k).val % 3 = k.val := by
  rw [enc_val]; have := k.isLt; omega

theorem enc_inj {t t' : Fin 3200000} {k k' : Fin 3} (h : enc t k = enc t' k') : t = t' ∧ k = k' := by
  have hv : 3 * t.val + k.val = 3 * t'.val + k'.val := by
    have := congrArg Fin.val h
    rwa [enc_val, enc_val] at this
  have := k.isLt; have := k'.isLt
  exact ⟨Fin.ext (by omega), Fin.ext (by omega)⟩

theorem sum_filter_enc (f : Fin 9600000 → EReal) (P : Fin 9600000 → Prop) [DecidablePred P] :
    ∑ u ∈ Finset.univ.filter P, f u
      = ∑ p ∈ (Finset.univ : Finset (Fin 3200000 × Fin 3)).filter (fun p => P (enc p.1 p.2)),
          f (enc p.1 p.2) := by
  refine Finset.sum_nbij'
    (fun u => ((⟨u.val / 3, by have := u.isLt; omega⟩ : Fin 3200000), (⟨u.val % 3, by omega⟩ : Fin 3)))
    (fun p => enc p.1 p.2) ?_ ?_ ?_ ?_ ?_
  · intro u hu
    rw [Finset.mem_filter_univ] at hu ⊢
    rw [eq_enc u] at hu
    exact hu
  · intro p hp
    rw [Finset.mem_filter_univ] at hp ⊢
    exact hp
  · intro u _
    exact (eq_enc u).symm
  · intro p _
    exact Prod.ext (Fin.ext (enc_div p.1 p.2)) (Fin.ext (enc_mod p.1 p.2))
  · intro u _
    exact congrArg f (eq_enc u)

/-! ## Two passes over the corners, regrouped by corner -/

/-- The rotation `k ↦ k + 1` of the three corners. -/
def prm_r : Fin 3 → Fin 3 := ![1, 2, 0]
/-- The rotation `k ↦ k + 2` of the three corners. -/
def prm_c : Fin 3 → Fin 3 := ![2, 0, 1]

@[simp] theorem prm_r_0 : prm_r 0 = 1 := rfl
@[simp] theorem prm_r_1 : prm_r 1 = 2 := rfl
@[simp] theorem prm_r_2 : prm_r 2 = 0 := rfl
@[simp] theorem prm_c_0 : prm_c 0 = 2 := rfl
@[simp] theorem prm_c_1 : prm_c 1 = 0 := rfl
@[simp] theorem prm_c_2 : prm_c 2 = 1 := rfl

/-- A filtered sum over pairs `(t, k)`, `k` one of three, is the sum of its three fibres over `k`. -/
theorem sum_pair_fibres_gen {T : Type*} [Fintype T] {J : Type*} [DecidableEq J] (tg : T → Fin 3 → J) (j : J)
    (σ : Fin 3 → Fin 3) (A : T → Fin 3 → EReal) :
    ∑ p ∈ (Finset.univ : Finset (T × Fin 3)).filter (fun p => tg p.1 (σ p.2) = j), A p.1 p.2
      = (∑ t ∈ Finset.univ.filter (fun t => tg t (σ 0) = j), A t 0)
        + (∑ t ∈ Finset.univ.filter (fun t => tg t (σ 1) = j), A t 1)
        + (∑ t ∈ Finset.univ.filter (fun t => tg t (σ 2) = j), A t 2) := by
  rw [Finset.sum_filter, Fintype.sum_prod_type]
  simp only [Fin.sum_univ_three]
  rw [Finset.sum_add_distrib, Finset.sum_add_distrib]
  rw [Finset.sum_filter (fun t => tg t (σ 0) = j), Finset.sum_filter (fun t => tg t (σ 1) = j),
    Finset.sum_filter (fun t => tg t (σ 2) = j)]

/-- The two passes regrouped by corner, over any finite set of faces. -/
theorem two_passes_gen {T : Type*} [Fintype T] {J : Type*} [DecidableEq J] (tg : T → Fin 3 → J) (j : J)
    (A B : T → Fin 3 → EReal) :
    (∑ p ∈ (Finset.univ : Finset (T × Fin 3)).filter (fun p => tg p.1 (prm_r p.2) = j), A p.1 p.2)
      + (∑ p ∈ (Finset.univ : Finset (T × Fin 3)).filter (fun p => tg p.1 (prm_c p.2) = j), B p.1 p.2)
      = (∑ t ∈ Finset.univ.filter (fun t => tg t 0 = j), (A t 2 + B t 1))
        + (∑ t ∈ Finset.univ.filter (fun t => tg t 1 = j), (A t 0 + B t 2))
        + (∑ t ∈ Finset.univ.filter (fun t => tg t 2 = j), (A t 1 + B t 0)) := by
  rw [sum_pair_fibres_gen tg j prm_r A, sum_pair_fibres_gen tg j prm_c B]
  rw [Finset.sum_add_distrib, Finset.sum_add_distrib, Finset.sum_add_distrib]
  -- the rotations evaluated: `k + 1` sends 0, 1, 2 to 1, 2, 0 and `k + 2` sends them to 2, 0, 1
  show (∑ t ∈ Finset.univ.filter (fun t => tg t 1 = j), A t 0)
        + (∑ t ∈ Finset.univ.filter (fun t => tg t 2 = j), A t 1)
        + (∑ t ∈ Finset.univ.filter (fun t => tg t 0 = j), A t 2)
      + ((∑ t ∈ Finset.univ.filter (fun t => tg t 2 = j), B t 0)
        + (∑ t ∈ Finset.univ.filter (fun t => tg t 0 = j), B t 1)
        + (∑ t ∈ Finset.univ.filter (fun t => tg t 1 = j), B t 2))
      = (∑ t ∈ Finset.univ.filter (fun t => tg t 0 = j), A t 2)
          + (∑ t ∈ Finset.univ.filter (fun t => tg t 0 = j), B t 1)
        + ((∑ t ∈ Finset.univ.filter (fun t => tg t 1 = j), A t 0)
          + (∑ t ∈ Finset.univ.filter (fun t => tg t 1 = j), B t 2))
        + ((∑ t ∈ Finset.univ.filter (fun t => tg t 2 = j), A t 1)
          + (∑ t ∈ Finset.univ.filter (fun t => tg t 2 = j), B t 0))
  abel

theorem two_passes {J : Type*} [DecidableEq J] (tg : Fin 3200000 → Fin 3 → J) (j : J)
    (A B : Fin 3200000 → Fin 3 → EReal) :
    (∑ p ∈ (Finset.univ : Finset (Fin 3200000 × Fin 3)).filter (fun p => tg p.1 (prm_r p.2) = j), A p.1 p.2)
      + (∑ p ∈ (Finset.univ : Finset (Fin 3200000 × Fin 3)).filter (fun p => tg p.1 (prm_c p.2) = j), B p.1 p.2)
      = (∑ t ∈ Finset.univ.filter (fun t => tg t 0 = j), (A t 2 + B t 1))
        + (∑ t ∈ Finset.univ.filter (fun t => tg t 1 = j), (A t 0 + B t 2))
        + (∑ t ∈ Finset.univ.filter (fun t => tg t 2 = j), (A t 1 + B t 0)) :=
  two_passes_gen tg j A B

end Cert.CotLap

end
-- ==== Proof.RefScatter.lean ====
/-
  The reference's two float scatter-adds read at an index.

  A scatter-add returns, at every operand index, the operand's value plus the sum of the updates whose result
  index is that index. For the scatter by rows (operand `[1600000, 3]`, one row number per update row, updates
  `[9600000, 3]`) update `(u, c)` starts at row `idx[u]` and has window coordinate `c` on the second axis, so it
  lands at `(idx[u], c)`; for the flat scatter (operand `[1600000]`, updates `[9600000]`) update `u` lands at
  `idx[u]`. When the row numbers are the values of a map `tg` into `[0, 1600000)` every update lands inside the
  operand, and the updates landing at `(j, d)` (at `j`) are those with `tg u = j` (and `c = d`).
-/
import proofs.«162177_j39814346834441_2_alg».proof.Proof.Gen.ReferenceIdeal
import proofs.«162177_j39814346834441_2_alg».proof.Proof.SumIdx
import Idealize.ShloMosaic.Lib.ValueIdx

noncomputable section

open scoped BigOperators

namespace Cert.ReferenceIdeal.TailIdx

open Cert.ReferenceIdeal Cert.ReferenceIdeal.Gen Idealize.ShloMosaic Idealize.ShloMosaic.ValueIdx

/-! ## The scatter by rows -/

/-- Update `(u, c)` reads its one start component at `(u, 0)` of the row numbers. -/
theorem scatterRows_siIdx (u : Fin 9600000) (c : Fin 3) (hh) :
    scatter_S1600000x3_S9600000x1_S9600000x3_1_0_0_1.siIdx (ix2 u c)
        ⟨List.idxOf (⟨0, by decide⟩ : Fin 2) scatter_S1600000x3_S9600000x1_S9600000x3_1_0_0_1.scatterDimsToOperandDims, hh⟩
      = ix2 u (0 : Fin 1) := by
  funext b; refine Fin.ext ?_
  match b with
  | ⟨0, _⟩ => rfl
  | ⟨1, _⟩ => rfl

theorem scatterRows_start0 (idx : IVec S9600000x1 32) (u : Fin 9600000) (c : Fin 3) (p) :
    scatter_S1600000x3_S9600000x1_S9600000x3_1_0_0_1.start (ix2 u c) idx ⟨0, p⟩ = (idx (ix2 u (0 : Fin 1))).toInt := by
  unfold ScatterDims.start
  rw [dif_pos (by simp [scatter_S1600000x3_S9600000x1_S9600000x3_1_0_0_1])]
  rw [scatterRows_siIdx]

theorem scatterRows_start1 (idx : IVec S9600000x1 32) (u : Fin 9600000) (c : Fin 3) (p) :
    scatter_S1600000x3_S9600000x1_S9600000x3_1_0_0_1.start (ix2 u c) idx ⟨1, p⟩ = 0 := by
  unfold ScatterDims.start
  rw [dif_neg (by simp [scatter_S1600000x3_S9600000x1_S9600000x3_1_0_0_1])]

theorem scatterRows_window0 (u : Fin 9600000) (c : Fin 3) (p) :
    scatter_S1600000x3_S9600000x1_S9600000x3_1_0_0_1.window (ix2 u c) ⟨0, p⟩ = 0 := by
  unfold ScatterDims.window
  rw [dif_neg (by simp [scatter_S1600000x3_S9600000x1_S9600000x3_1_0_0_1, ScatterDims.sKept, Shape.kept])]

theorem scatterRows_window1 (u : Fin 9600000) (c : Fin 3) (p) :
    scatter_S1600000x3_S9600000x1_S9600000x3_1_0_0_1.window (ix2 u c) ⟨1, p⟩ = c.val := by
  unfold ScatterDims.window
  rw [dif_pos (by simp [scatter_S1600000x3_S9600000x1_S9600000x3_1_0_0_1, ScatterDims.sKept, Shape.kept])]
  rfl

/-- Under row numbers that are the values of `tg`, update `(u, c)` lands at `(tg u, c)`. -/
theorem scatterRows_resultIdx (idx : IVec S9600000x1 32) (tg : Fin 9600000 → Fin 1600000)
    (h : ∀ u, (idx (ix2 u (0 : Fin 1))).toInt = ((tg u).val : ℤ)) (u : Fin 9600000) (c : Fin 3) :
    scatter_S1600000x3_S9600000x1_S9600000x3_1_0_0_1.resultIdx? (ix2 u c) idx = some (ix2 (tg u) c) := by
  have hall : ∀ a, 0 ≤ scatter_S1600000x3_S9600000x1_S9600000x3_1_0_0_1.start (ix2 u c) idx a + scatter_S1600000x3_S9600000x1_S9600000x3_1_0_0_1.window (ix2 u c) a
      ∧ scatter_S1600000x3_S9600000x1_S9600000x3_1_0_0_1.start (ix2 u c) idx a + scatter_S1600000x3_S9600000x1_S9600000x3_1_0_0_1.window (ix2 u c) a < S1600000x3.size a := by
    intro a
    match a with
    | ⟨0, p⟩ =>
      rw [scatterRows_start0, scatterRows_window0, h u]
      have := (tg u).isLt
      show 0 ≤ ((tg u).val : ℤ) + ((0 : ℕ) : ℤ) ∧ ((tg u).val : ℤ) + ((0 : ℕ) : ℤ) < ((1600000 : ℕ) : ℤ)
      omega
    | ⟨1, p⟩ =>
      rw [scatterRows_start1, scatterRows_window1]
      have := c.isLt
      show 0 ≤ (0 : ℤ) + ((c.val : ℕ) : ℤ) ∧ (0 : ℤ) + ((c.val : ℕ) : ℤ) < ((3 : ℕ) : ℤ)
      omega
  unfold ScatterDims.resultIdx?
  rw [dif_pos hall]
  congr 1
  funext a; refine Fin.ext ?_
  match a with
  | ⟨0, p⟩ =>
    show (scatter_S1600000x3_S9600000x1_S9600000x3_1_0_0_1.start (ix2 u c) idx ⟨0, p⟩ + ((scatter_S1600000x3_S9600000x1_S9600000x3_1_0_0_1.window (ix2 u c) ⟨0, p⟩ : ℕ) : ℤ)).toNat = (tg u).val
    rw [scatterRows_start0, scatterRows_window0, h u]
    omega
  | ⟨1, p⟩ =>
    show (scatter_S1600000x3_S9600000x1_S9600000x3_1_0_0_1.start (ix2 u c) idx ⟨1, p⟩ + ((scatter_S1600000x3_S9600000x1_S9600000x3_1_0_0_1.window (ix2 u c) ⟨1, p⟩ : ℕ) : ℤ)).toNat = c.val
    rw [scatterRows_start1, scatterRows_window1]
    omega

theorem scatterRows_lands (idx : IVec S9600000x1 32) (tg : Fin 9600000 → Fin 1600000)
    (h : ∀ u, (idx (ix2 u (0 : Fin 1))).toInt = ((tg u).val : ℤ)) (j : Fin 1600000) (d : Fin 3)
    (u : Fin 9600000) (c : Fin 3) :
    scatter_S1600000x3_S9600000x1_S9600000x3_1_0_0_1.resultIdx? (ix2 u c) idx = some (ix2 j d) ↔ (tg u = j ∧ c = d) := by
  rw [scatterRows_resultIdx idx tg h u c, Option.some.injEq]
  constructor
  · intro e
    have e0 : tg u = j := congrFun e (0 : Fin 2)
    have e1 : c = d := congrFun e (1 : Fin 2)
    exact ⟨e0, e1⟩
  · rintro ⟨rfl, rfl⟩
    rfl

theorem scatterRows_apply (x : FVec Ideal S1600000x3 .f32) (idx : IVec S9600000x1 32) (upd : FVec Ideal S9600000x3 .f32)
    (tg : Fin 9600000 → Fin 1600000) (h : ∀ u, (idx (ix2 u (0 : Fin 1))).toInt = ((tg u).val : ℤ))
    (j : Fin 1600000) (d : Fin 3) :
    Host.scatterAdd scatter_S1600000x3_S9600000x1_S9600000x3_1_0_0_1 x idx upd (ix2 j d)
      = x (ix2 j d) + ∑ u ∈ Finset.univ.filter (fun u : Fin 9600000 => tg u = j), upd (ix2 u d) := by
  unfold Host.scatterAdd
  rw [Ideal.hostScatterAdd_def]
  unfold Ideal.hostScatterAdd
  refine congrArg (fun z => x (ix2 j d) + z) ?_
  exact @Cert.CotLap.sum_filter_col 9600000 3 upd
    (fun q => scatter_S1600000x3_S9600000x1_S9600000x3_1_0_0_1.resultIdx? q idx = some (ix2 j d)) _ d (fun u => tg u = j) _
    (fun a b => scatterRows_lands idx tg h j d a b)

/-! ## The flat scatter -/

/-- Update `u` reads its one start component at `(u, 0)` of the row numbers. -/
theorem scatterFlat_siIdx (u : Fin 9600000) (hh) :
    scatter_S1600000_S9600000x1_S9600000_n_0_0_1.siIdx (ix1 u)
        ⟨List.idxOf (⟨0, by decide⟩ : Fin 1) scatter_S1600000_S9600000x1_S9600000_n_0_0_1.scatterDimsToOperandDims, hh⟩
      = ix2 u (0 : Fin 1) := by
  funext b; refine Fin.ext ?_
  match b with
  | ⟨0, _⟩ => rfl
  | ⟨1, _⟩ => rfl

theorem scatterFlat_start0 (idx : IVec S9600000x1 32) (u : Fin 9600000) (p) :
    scatter_S1600000_S9600000x1_S9600000_n_0_0_1.start (ix1 u) idx ⟨0, p⟩ = (idx (ix2 u (0 : Fin 1))).toInt := by
  unfold ScatterDims.start
  rw [dif_pos (by simp [scatter_S1600000_S9600000x1_S9600000_n_0_0_1])]
  rw [scatterFlat_siIdx]

theorem scatterFlat_window0 (u : Fin 9600000) (p) :
    scatter_S1600000_S9600000x1_S9600000_n_0_0_1.window (ix1 u) ⟨0, p⟩ = 0 := by
  unfold ScatterDims.window
  rw [dif_neg (by simp [scatter_S1600000_S9600000x1_S9600000_n_0_0_1, ScatterDims.sKept, Shape.kept])]

/-- Under row numbers that are the values of `tg`, update `u` lands at `tg u`. -/
theorem scatterFlat_resultIdx (idx : IVec S9600000x1 32) (tg : Fin 9600000 → Fin 1600000)
    (h : ∀ u, (idx (ix2 u (0 : Fin 1))).toInt = ((tg u).val : ℤ)) (u : Fin 9600000) :
    scatter_S1600000_S9600000x1_S9600000_n_0_0_1.resultIdx? (ix1 u) idx = some (ix1 (tg u)) := by
  have hall : ∀ a, 0 ≤ scatter_S1600000_S9600000x1_S9600000_n_0_0_1.start (ix1 u) idx a + scatter_S1600000_S9600000x1_S9600000_n_0_0_1.window (ix1 u) a
      ∧ scatter_S1600000_S9600000x1_S9600000_n_0_0_1.start (ix1 u) idx a + scatter_S1600000_S9600000x1_S9600000_n_0_0_1.window (ix1 u) a < S1600000.size a := by
    intro a
    match a with
    | ⟨0, p⟩ =>
      rw [scatterFlat_start0, scatterFlat_window0, h u]
      have := (tg u).isLt
      show 0 ≤ ((tg u).val : ℤ) + ((0 : ℕ) : ℤ) ∧ ((tg u).val : ℤ) + ((0 : ℕ) : ℤ) < ((1600000 : ℕ) : ℤ)
      omega
  unfold ScatterDims.resultIdx?
  rw [dif_pos hall]
  congr 1
  funext a; refine Fin.ext ?_
  match a with
  | ⟨0, p⟩ =>
    show (scatter_S1600000_S9600000x1_S9600000_n_0_0_1.start (ix1 u) idx ⟨0, p⟩ + ((scatter_S1600000_S9600000x1_S9600000_n_0_0_1.window (ix1 u) ⟨0, p⟩ : ℕ) : ℤ)).toNat = (tg u).val
    rw [scatterFlat_start0, scatterFlat_window0, h u]
    omega

theorem scatterFlat_lands (idx : IVec S9600000x1 32) (tg : Fin 9600000 → Fin 1600000)
    (h : ∀ u, (idx (ix2 u (0 : Fin 1))).toInt = ((tg u).val : ℤ)) (j : Fin 1600000) (u : Fin 9600000) :
    scatter_S1600000_S9600000x1_S9600000_n_0_0_1.resultIdx? (ix1 u) idx = some (ix1 j) ↔ tg u = j := by
  rw [scatterFlat_resultIdx idx tg h u, Option.some.injEq]
  constructor
  · intro e
    have e0 : tg u = j := congrFun e (0 : Fin 1)
    exact e0
  · rintro rfl
    rfl

theorem scatterFlat_apply (x : FVec Ideal S1600000 .f32) (idx : IVec S9600000x1 32) (upd : FVec Ideal S9600000 .f32)
    (tg : Fin 9600000 → Fin 1600000) (h : ∀ u, (idx (ix2 u (0 : Fin 1))).toInt = ((tg u).val : ℤ))
    (j : Fin 1600000) :
    Host.scatterAdd scatter_S1600000_S9600000x1_S9600000_n_0_0_1 x idx upd (ix1 j)
      = x (ix1 j) + ∑ u ∈ Finset.univ.filter (fun u : Fin 9600000 => tg u = j), upd (ix1 u) := by
  unfold Host.scatterAdd
  rw [Ideal.hostScatterAdd_def]
  unfold Ideal.hostScatterAdd
  refine congrArg (fun z => x (ix1 j) + z) ?_
  exact @Cert.CotLap.sum_filter_ix1 9600000 upd
    (fun q => scatter_S1600000_S9600000x1_S9600000_n_0_0_1.resultIdx? q idx = some (ix1 j)) _ (fun u => tg u = j) _
    (fun a => scatterFlat_lands idx tg h j a)

end Cert.ReferenceIdeal.TailIdx

end
-- ==== Proof.RefTail.lean ====
/-
  The reference's last stretch read at `(j, d)`: the two message passes and the two weight passes as sums over
  the flat entries `u = 3 t + k` whose row end, respectively column end, is vertex `j`.
-/
import proofs.«162177_j39814346834441_2_alg».proof.Proof.RefIdx
import proofs.«162177_j39814346834441_2_alg».proof.Proof.SumIdx
import proofs.«162177_j39814346834441_2_alg».proof.Proof.RefScatter
import Idealize.ShloMosaic.PureOps.Ideal.Laws

noncomputable section

open scoped BigOperators

namespace Cert.ReferenceIdeal.TailIdx

open Cert.ReferenceIdeal Cert.ReferenceIdeal.Gen Cert.ReferenceIdeal.HandRun Idealize.ShloMosaic Idealize.ShloMosaic.ValueIdx
open Cert.CotLap

/-- The face and the edge of a flat entry. -/
def ut (u : Fin 9600000) : Fin 3200000 := ⟨u.val / 3, by have := u.isLt; omega⟩
def uk (u : Fin 9600000) : Fin 3 := ⟨u.val % 3, by omega⟩

theorem ix1_ut_uk (u : Fin 9600000) :
    (ix1 u : S9600000.Idx) = ix1 (⟨3 * (ut u).val + (uk u).val, by have := u.isLt; show 3 * (u.val / 3) + u.val % 3 < 9600000; omega⟩ : Fin 9600000) :=
  congrArg ix1 (Fin.ext (by show u.val = 3 * (u.val / 3) + u.val % 3; omega))

/-- The vertex at the end `σ` of a flat entry's edge. -/
def endT (σ : Fin 3 → Fin 3) (Fc : IVec S8x400000x3 32) (u : Fin 9600000) : Fin 1600000 := tgt Fc (ut u) (σ (uk u))
/-- The flattened vertex array and the flattened weight array, named. -/
def Xf (V : FVec Ideal S8x200000x3 .f32) (j : Fin 1600000) (d : Fin 3) : EReal := V (ix3 (vb j) (vn j) d)
def Wf (C : FVec Ideal S8x400000x3 .f32) (u : Fin 9600000) : EReal := C (ix3 (fb (ut u)) (ff (ut u)) (uk u))

theorem lit0_eq (k : Fin 3) : lit0 k = BitVec.ofNat 32 (prm_r k).val := by fin_cases k <;> rfl
theorem lit1_eq (k : Fin 3) : lit1 k = BitVec.ofNat 32 (prm_c k).val := by fin_cases k <;> rfl

/-- The word the scatter reads for entry `u` is the vertex at that end of its edge. -/
theorem end_word (tbl : Fin 3 → BitVec 32) (σ : Fin 3 → Fin 3) (htbl : ∀ k, tbl k = BitVec.ofNat 32 (σ k).val)
    (Fc : IVec S8x400000x3 32) (hF : ∀ i, 0 ≤ (Fc i).toInt ∧ (Fc i).toInt < 200000) (u : Fin 9600000) :
    (normIdx (permIdx tbl (stFg (F := Ideal) Fc)) (ix2 u (0 : Fin 1))).toInt = ((endT σ Fc u).val : ℤ) := by
  have hp : permIdx tbl (stFg (F := Ideal) Fc) (ix1 u)
      = IntOp.addi (Fc (ix3 (fb (ut u)) (ff (ut u)) (σ (uk u)))) (IntOp.muli (BitVec.ofNat 32 (fb (ut u)).val) 200000#32) := by
    rw [ix1_ut_uk u, permIdx_apply tbl _ (ut u) (uk u) (σ (uk u)) (htbl _), stFg_apply]
  have hr := hF (ix3 (fb (ut u)) (ff (ut u)) (σ (uk u)))
  have hn := toNat_offset (Fc (ix3 (fb (ut u)) (ff (ut u)) (σ (uk u)))) (fb (ut u)) hr.1 hr.2
  have hb := (fb (ut u)).isLt
  have hlt : (permIdx tbl (stFg (F := Ideal) Fc) (ix1 u)).toNat < 2147483648 := by rw [hp, hn]; omega
  have hi := toInt_of_toNat_small _ hlt
  rw [normIdx_apply _ _ (by rw [hi]; exact Int.natCast_nonneg _), hi, hp, hn]
  congr 1
  show _ = (fb (ut u)).val * 200000 + min (Fc (ix3 (fb (ut u)) (ff (ut u)) (σ (uk u)))).toInt.toNat 199999
  omega

/-- The weight column at `(u, d)` is the weight of entry `u`. -/
theorem wcol_apply (C : FVec Ideal S8x400000x3 .f32) (u : Fin 9600000) (d : Fin 3) :
    broadcastInDim S9600000x3 ![0, 1] bcast_S9600000x1_S9600000x3_0_1
      (broadcastInDim S9600000x1 ![0] bcast_S9600000_S9600000x1_0 (shapeCast S9600000 C shapeCasts_S8x400000x3_S9600000)) (ix2 u d)
      = Wf C u := by
  rw [broadcastInDim_apply (s := S9600000x1) (t := S9600000x3) _ _ _ (ix2 u d) (ix2 u (0 : Fin 1))
    (by intro a; match a with | ⟨0, _⟩ => rfl | ⟨1, _⟩ => rfl)]
  rw [broadcastInDim_apply (s := S9600000) (t := S9600000x1) _ _ _ (ix2 u (0 : Fin 1)) (ix1 u)
    (by intro a; match a with | ⟨0, _⟩ => rfl)]
  rw [ix1_ut_uk u, flatW_apply]
  rfl

theorem wflat_apply (C : FVec Ideal S8x400000x3 .f32) (u : Fin 9600000) :
    shapeCast S9600000 C shapeCasts_S8x400000x3_S9600000 (ix1 u) = Wf C u := by
  rw [ix1_ut_uk u, flatW_apply]
  rfl

/-- The vertex gathered for entry `u` is the vertex at that end of its edge. -/
theorem gatherEnd_apply (tbl : Fin 3 → BitVec 32) (σ : Fin 3 → Fin 3) (htbl : ∀ k, tbl k = BitVec.ofNat 32 (σ k).val)
    (V : FVec Ideal S8x200000x3 .f32) (Fc : IVec S8x400000x3 32) (hF : ∀ i, 0 ≤ (Fc i).toInt ∧ (Fc i).toInt < 200000)
    (u : Fin 9600000) (d : Fin 3) :
    Host.gather gather_S1600000x3_S9600000x1_S9600000x3_1_0_n_n_0_1_13 (shapeCast S1600000x3 V shapeCasts_S8x200000x3_S1600000x3)
        (normIdx (permIdx tbl (stFg (F := Ideal) Fc))) (ix2 u d)
      = Xf V (endT σ Fc u) d := by
  rw [gatherRows_apply]
  have e : (⟨min (normIdx (permIdx tbl (stFg (F := Ideal) Fc)) (ix2 u (0 : Fin 1))).toInt.toNat 1599999, by omega⟩ : Fin 1600000)
      = endT σ Fc u := by
    refine Fin.ext ?_
    show min (normIdx (permIdx tbl (stFg (F := Ideal) Fc)) (ix2 u (0 : Fin 1))).toInt.toNat 1599999 = (endT σ Fc u).val
    rw [end_word tbl σ htbl Fc hF u]
    simp only [Int.toNat_natCast]
    have := (endT σ Fc u).isLt
    omega
  rw [e, flatV_apply]
  rfl

/-- THE LAST STRETCH AT `(j, d)`. -/
theorem tail2_apply (V : FVec Ideal S8x200000x3 .f32) (C : FVec Ideal S8x400000x3 .f32) (Fc : IVec S8x400000x3 32)
    (hF : ∀ i, 0 ≤ (Fc i).toInt ∧ (Fc i).toInt < 200000) (j : Fin 1600000) (d : Fin 3) :
    tail2 (F := Ideal) V C (stFg (F := Ideal) Fc) (ix2 j d)
      = ((∑ u ∈ Finset.univ.filter (fun u : Fin 9600000 => endT prm_r Fc u = j), Wf C u * Xf V (endT prm_c Fc u) d)
          + (∑ u ∈ Finset.univ.filter (fun u : Fin 9600000 => endT prm_c Fc u = j), Wf C u * Xf V (endT prm_r Fc u) d))
        - ((∑ u ∈ Finset.univ.filter (fun u : Fin 9600000 => endT prm_r Fc u = j), Wf C u)
            + (∑ u ∈ Finset.univ.filter (fun u : Fin 9600000 => endT prm_c Fc u = j), Wf C u)) * Xf V j d := by
  have hrow := fun u => end_word lit0 prm_r lit0_eq Fc hF u
  have hcol := fun u => end_word lit1 prm_c lit1_eq Fc hF u
  have z2 : broadcastInDim S1600000x3 ![] bcast_S_S1600000x3 (constant (F := Ideal) S_ .f32 0x00000000#32) (ix2 j d) = 0 := by
    show Ideal.ofBits .f32 0x00000000#32 = 0
    exact Ideal.ofBits_zero_f32
  have z1 : broadcastInDim S1600000 ![] bcast_S_S1600000 (constant (F := Ideal) S_ .f32 0x00000000#32) (ix1 j) = 0 := by
    show Ideal.ofBits .f32 0x00000000#32 = 0
    exact Ideal.ofBits_zero_f32
  unfold tail2
  dsimp only
  rw [subf_apply, mulf_apply]
  rw [scatterRows_apply _ _ _ (endT prm_c Fc) hcol j d, scatterRows_apply _ _ _ (endT prm_r Fc) hrow j d, z2, zero_add]
  rw [broadcastInDim_apply (s := S1600000x1) (t := S1600000x3) _ _ _ (ix2 j d) (ix2 j (0 : Fin 1))
    (by intro a; match a with | ⟨0, _⟩ => rfl | ⟨1, _⟩ => rfl)]
  rw [broadcastInDim_apply (s := S1600000) (t := S1600000x1) _ _ _ (ix2 j (0 : Fin 1)) (ix1 j)
    (by intro a; match a with | ⟨0, _⟩ => rfl)]
  rw [scatterFlat_apply _ _ _ (endT prm_c Fc) hcol j, scatterFlat_apply _ _ _ (endT prm_r Fc) hrow j, z1, zero_add]
  rw [flatV_apply]
  refine congrArg₂ HSub.hSub (congrArg₂ HAdd.hAdd ?_ ?_) (congrArg₂ HMul.hMul (congrArg₂ HAdd.hAdd ?_ ?_) rfl)
  · exact Finset.sum_congr rfl (fun u _ => by
      rw [mulf_apply, wcol_apply, gatherEnd_apply lit1 prm_c lit1_eq V Fc hF u d])
  · exact Finset.sum_congr rfl (fun u _ => by
      rw [mulf_apply, wcol_apply, gatherEnd_apply lit0 prm_r lit0_eq V Fc hF u d])
  · exact Finset.sum_congr rfl (fun u _ => wflat_apply C u)
  · exact Finset.sum_congr rfl (fun u _ => wflat_apply C u)

end Cert.ReferenceIdeal.TailIdx

end
-- ==== Proof.Weights.lean ====
/-
  The two spellings of the cotangent weights agree on real corners.

  For three real points the squared edge lengths are nonnegative reals, so their roots are real and
  the root times itself gives the squared length back: the numerators of the two spellings are the
  same real. The three edge vectors sum to zero, so each length is at most the sum of the other two
  (Cauchy-Schwarz in three coordinates); hence every factor of Heron's product is nonnegative, the
  product is a nonnegative real and clamping it at zero changes nothing. With `a` the root of
  Heron's product, one spelling divides by `2 a 4` and the other by `2 a` and then by `4`: for
  `a > 0` these are equal in the reals; for `a = 0` both first divisions are by zero and give the
  infinity of the numerator's sign (bottom for a numerator that is not positive), which a further
  division by four leaves unchanged.
-/
import proofs.«162177_j39814346834441_2_alg».proof.Proof.Spec
import Mathlib.Analysis.SpecialFunctions.Pow.Real
import Mathlib.Tactic

noncomputable section

open scoped BigOperators

namespace Cert.CotLap

open Idealize.ShloMosaic

/-! ## The three literals -/

theorem cHalf_eq : cHalf = (((1:ℝ)/2 : ℝ) : EReal) := by
  unfold cHalf
  simp [Ideal.ofBits, Ideal.ieee, -EReal.coe_mul]; norm_num

theorem cTwo_eq : cTwo = ((2 : ℝ) : EReal) := by
  unfold cTwo
  simp [Ideal.ofBits, Ideal.ieee, -EReal.coe_mul]; norm_num

theorem cFour_eq : cFour = ((4 : ℝ) : EReal) := by
  unfold cFour
  simp [Ideal.ofBits, Ideal.ieee, -EReal.coe_mul]; norm_num

/-! ## Real geometry: squared distance, the triangle inequality, Heron's product -/

/-- The squared distance of two real points. -/
def rd (x y : Fin 3 → ℝ) : ℝ :=
  (x 0 - y 0) * (x 0 - y 0) + (x 1 - y 1) * (x 1 - y 1) + (x 2 - y 2) * (x 2 - y 2)

theorem rd_nonneg (x y : Fin 3 → ℝ) : 0 ≤ rd x y := by
  unfold rd
  nlinarith [mul_self_nonneg (x 0 - y 0), mul_self_nonneg (x 1 - y 1), mul_self_nonneg (x 2 - y 2)]

theorem rd_comm (x y : Fin 3 → ℝ) : rd x y = rd y x := by
  unfold rd; ring

/-- The length of a sum of two vectors is at most the sum of their lengths, in three coordinates. -/
theorem sqrt_add_le (b0 b1 b2 c0 c1 c2 : ℝ) :
    Real.sqrt ((b0 + c0) * (b0 + c0) + (b1 + c1) * (b1 + c1) + (b2 + c2) * (b2 + c2))
      ≤ Real.sqrt (b0 * b0 + b1 * b1 + b2 * b2) + Real.sqrt (c0 * c0 + c1 * c1 + c2 * c2) := by
  have hB : 0 ≤ b0 * b0 + b1 * b1 + b2 * b2 := by
    nlinarith [mul_self_nonneg b0, mul_self_nonneg b1, mul_self_nonneg b2]
  have hC : 0 ≤ c0 * c0 + c1 * c1 + c2 * c2 := by
    nlinarith [mul_self_nonneg c0, mul_self_nonneg c1, mul_self_nonneg c2]
  -- Cauchy-Schwarz: the inner product is at most the product of the lengths
  have hcs : b0 * c0 + b1 * c1 + b2 * c2
      ≤ Real.sqrt (b0 * b0 + b1 * b1 + b2 * b2) * Real.sqrt (c0 * c0 + c1 * c1 + c2 * c2) := by
    rw [← Real.sqrt_mul hB]
    apply Real.le_sqrt_of_sq_le
    nlinarith [sq_nonneg (b0 * c1 - b1 * c0), sq_nonneg (b0 * c2 - b2 * c0), sq_nonneg (b1 * c2 - b2 * c1)]
  have h1 := Real.mul_self_sqrt hB
  have h2 := Real.mul_self_sqrt hC
  have hb := Real.sqrt_nonneg (b0 * b0 + b1 * b1 + b2 * b2)
  have hc := Real.sqrt_nonneg (c0 * c0 + c1 * c1 + c2 * c2)
  rw [Real.sqrt_le_left (add_nonneg hb hc)]
  nlinarith

/-- The triangle inequality for three real points. -/
theorem tri (x y z : Fin 3 → ℝ) : Real.sqrt (rd x z) ≤ Real.sqrt (rd x y) + Real.sqrt (rd y z) := by
  have h := sqrt_add_le (x 0 - y 0) (x 1 - y 1) (x 2 - y 2) (y 0 - z 0) (y 1 - z 1) (y 2 - z 2)
  have e : rd x z = (x 0 - y 0 + (y 0 - z 0)) * (x 0 - y 0 + (y 0 - z 0))
      + (x 1 - y 1 + (y 1 - z 1)) * (x 1 - y 1 + (y 1 - z 1))
      + (x 2 - y 2 + (y 2 - z 2)) * (x 2 - y 2 + (y 2 - z 2)) := by
    unfold rd; ring
  rw [e]; exact h

/-- Heron's product over the reals. -/
def hr (l1 l2 l3 : ℝ) : ℝ :=
  (l1 + l2 + l3) * (1 / 2) * ((l1 + l2 + l3) * (1 / 2) - l1) * ((l1 + l2 + l3) * (1 / 2) - l2)
    * ((l1 + l2 + l3) * (1 / 2) - l3)

/-- Three nonnegative lengths, each at most the sum of the other two, have a nonnegative Heron product. -/
theorem hr_nonneg (l1 l2 l3 : ℝ) (h1 : 0 ≤ l1) (h2 : 0 ≤ l2) (h3 : 0 ≤ l3)
    (t1 : l1 ≤ l2 + l3) (t2 : l2 ≤ l3 + l1) (t3 : l3 ≤ l1 + l2) : 0 ≤ hr l1 l2 l3 := by
  unfold hr
  have a0 : 0 ≤ (l1 + l2 + l3) * (1 / 2) := by linarith
  have a1 : 0 ≤ (l1 + l2 + l3) * (1 / 2) - l1 := by linarith
  have a2 : 0 ≤ (l1 + l2 + l3) * (1 / 2) - l2 := by linarith
  have a3 : 0 ≤ (l1 + l2 + l3) * (1 / 2) - l3 := by linarith
  exact mul_nonneg (mul_nonneg (mul_nonneg a0 a1) a2) a3

/-- The triangle with real corners has a nonnegative Heron product. -/
theorem heron_pts_nonneg (x1 x2 x3 : Fin 3 → ℝ) :
    0 ≤ hr (Real.sqrt (rd x2 x3)) (Real.sqrt (rd x3 x1)) (Real.sqrt (rd x1 x2)) := by
  have t1 := tri x2 x1 x3
  have t2 := tri x3 x2 x1
  have t3 := tri x1 x3 x2
  rw [rd_comm x2 x1, rd_comm x1 x3] at t1
  rw [rd_comm x3 x2, rd_comm x2 x1] at t2
  rw [rd_comm x1 x3, rd_comm x3 x2] at t3
  exact hr_nonneg _ _ _ (Real.sqrt_nonneg _) (Real.sqrt_nonneg _) (Real.sqrt_nonneg _)
    (by linarith) (by linarith) (by linarith)

/-! ## From the extended reals to the reals -/

theorem dsq_coe (x y : Fin 3 → ℝ) :
    dsq (fun d => ((x d : ℝ) : EReal)) (fun d => ((y d : ℝ) : EReal)) = ((rd x y : ℝ) : EReal) := by
  unfold dsq rd
  rw [Fin.sum_univ_three]
  simp only [← EReal.coe_sub, ← EReal.coe_mul, ← EReal.coe_add]

theorem sqrt_coe_of_nonneg {r : ℝ} (h : 0 ≤ r) :
    Ideal.sqrt (r : EReal) = ((Real.sqrt r : ℝ) : EReal) := by
  rw [Ideal.sqrt_coe, if_neg (not_lt.mpr h)]

theorem sqrt_mul_self_coe {r : ℝ} (h : 0 ≤ r) :
    Ideal.sqrt (r : EReal) * Ideal.sqrt (r : EReal) = (r : EReal) := by
  rw [sqrt_coe_of_nonneg h, ← EReal.coe_mul, Real.mul_self_sqrt h]

theorem heron_coe (l1 l2 l3 : ℝ) :
    heron (l1 : EReal) (l2 : EReal) (l3 : EReal) = ((hr l1 l2 l3 : ℝ) : EReal) := by
  unfold heron hr
  rw [cHalf_eq]
  simp only [← EReal.coe_sub, ← EReal.coe_mul, ← EReal.coe_add]

/-! ## Dividing by `2 a` and then by `4` is dividing by `2 a 4`, also at `a = 0` -/

theorem div_div_four (n a : ℝ) (ha : 0 ≤ a) :
    Ideal.div (Ideal.div (n : EReal) (cTwo * ((a : ℝ) : EReal))) cFour
      = Ideal.div (n : EReal) (cTwo * ((a : ℝ) : EReal) * cFour) := by
  rw [cTwo_eq, cFour_eq, ← EReal.coe_mul, ← EReal.coe_mul]
  have h4 : (4 : ℝ) ≠ 0 := by norm_num
  rcases ha.eq_or_lt with h0 | hpos
  · -- both first divisions are by zero: the infinity of the numerator's sign, which a quarter of it still is
    subst h0
    have z1 : ((2 * 0 : ℝ) : EReal) = 0 := by norm_num
    have z2 : ((2 * 0 * 4 : ℝ) : EReal) = 0 := by norm_num
    rw [z1, z2, Ideal.div_coe h4]
    unfold Ideal.div
    rw [if_pos rfl]
    split_ifs
    · exact EReal.top_mul_coe_of_pos (by norm_num)
    · exact EReal.bot_mul_coe_of_pos (by norm_num)
  · have h2a : (2 * a : ℝ) ≠ 0 := by positivity
    have h2a4 : (2 * a * 4 : ℝ) ≠ 0 := by positivity
    rw [Ideal.div_coe h2a, Ideal.div_coe h4, Ideal.div_coe h2a4, ← EReal.coe_mul, ← EReal.coe_mul,
      ← EReal.coe_mul]
    congr 1
    field_simp

/-- The two denominators under one real numerator, for nonnegative squared lengths whose Heron product is
    nonnegative. -/
theorem weight_core (n s1 s2 s3 : ℝ) (h1 : 0 ≤ s1) (h2 : 0 ≤ s2) (h3 : 0 ≤ s3)
    (hh : 0 ≤ hr (Real.sqrt s1) (Real.sqrt s2) (Real.sqrt s3)) :
    Ideal.div (Ideal.div (n : EReal)
        (rArea (Ideal.sqrt (s1 : EReal)) (Ideal.sqrt (s2 : EReal)) (Ideal.sqrt (s3 : EReal)))) cFour
      = Ideal.div (n : EReal) (kDen (s1 : EReal) (s2 : EReal) (s3 : EReal)) := by
  unfold rArea kDen
  rw [sqrt_coe_of_nonneg h1, sqrt_coe_of_nonneg h2, sqrt_coe_of_nonneg h3, heron_coe,
    max_eq_left (EReal.coe_nonneg.mpr hh), sqrt_coe_of_nonneg hh]
  exact div_div_four n _ (Real.sqrt_nonneg _)

theorem weights_agree (x1 x2 x3 : Fin 3 → ℝ) (n : ℝ) :
    Ideal.div (Ideal.div (n : EReal)
        (rArea (Ideal.sqrt ((rd x2 x3 : ℝ) : EReal)) (Ideal.sqrt ((rd x3 x1 : ℝ) : EReal))
          (Ideal.sqrt ((rd x1 x2 : ℝ) : EReal)))) cFour
      = Ideal.div (n : EReal)
          (kDen ((rd x2 x3 : ℝ) : EReal) ((rd x3 x1 : ℝ) : EReal) ((rd x1 x2 : ℝ) : EReal)) :=
  weight_core n _ _ _ (rd_nonneg _ _) (rd_nonneg _ _) (rd_nonneg _ _) (heron_pts_nonneg x1 x2 x3)

/-! ## The three weights -/

theorem rW23_eq_kW23 (p1 p2 p3 : Fin 3 → EReal) (h1 : ∀ d, ∃ x : ℝ, p1 d = (x : EReal))
    (h2 : ∀ d, ∃ x : ℝ, p2 d = (x : EReal)) (h3 : ∀ d, ∃ x : ℝ, p3 d = (x : EReal)) :
    rW23 p1 p2 p3 = kW23 p1 p2 p3 := by
  choose x1 hx1 using h1
  choose x2 hx2 using h2
  choose x3 hx3 using h3
  obtain rfl : p1 = fun d => ((x1 d : ℝ) : EReal) := funext hx1
  obtain rfl : p2 = fun d => ((x2 d : ℝ) : EReal) := funext hx2
  obtain rfl : p3 = fun d => ((x3 d : ℝ) : EReal) := funext hx3
  unfold rW23 kW23
  simp only [dsq_coe]
  rw [sqrt_mul_self_coe (rd_nonneg x2 x3), sqrt_mul_self_coe (rd_nonneg x3 x1),
    sqrt_mul_self_coe (rd_nonneg x1 x2), ← EReal.coe_add, ← EReal.coe_sub]
  exact weights_agree x1 x2 x3 _

theorem rW31_eq_kW31 (p1 p2 p3 : Fin 3 → EReal) (h1 : ∀ d, ∃ x : ℝ, p1 d = (x : EReal))
    (h2 : ∀ d, ∃ x : ℝ, p2 d = (x : EReal)) (h3 : ∀ d, ∃ x : ℝ, p3 d = (x : EReal)) :
    rW31 p1 p2 p3 = kW31 p1 p2 p3 := by
  choose x1 hx1 using h1
  choose x2 hx2 using h2
  choose x3 hx3 using h3
  obtain rfl : p1 = fun d => ((x1 d : ℝ) : EReal) := funext hx1
  obtain rfl : p2 = fun d => ((x2 d : ℝ) : EReal) := funext hx2
  obtain rfl : p3 = fun d => ((x3 d : ℝ) : EReal) := funext hx3
  unfold rW31 kW31
  simp only [dsq_coe]
  rw [sqrt_mul_self_coe (rd_nonneg x2 x3), sqrt_mul_self_coe (rd_nonneg x3 x1),
    sqrt_mul_self_coe (rd_nonneg x1 x2), ← EReal.coe_add, ← EReal.coe_sub]
  exact weights_agree x1 x2 x3 _

theorem rW12_eq_kW12 (p1 p2 p3 : Fin 3 → EReal) (h1 : ∀ d, ∃ x : ℝ, p1 d = (x : EReal))
    (h2 : ∀ d, ∃ x : ℝ, p2 d = (x : EReal)) (h3 : ∀ d, ∃ x : ℝ, p3 d = (x : EReal)) :
    rW12 p1 p2 p3 = kW12 p1 p2 p3 := by
  choose x1 hx1 using h1
  choose x2 hx2 using h2
  choose x3 hx3 using h3
  obtain rfl : p1 = fun d => ((x1 d : ℝ) : EReal) := funext hx1
  obtain rfl : p2 = fun d => ((x2 d : ℝ) : EReal) := funext hx2
  obtain rfl : p3 = fun d => ((x3 d : ℝ) : EReal) := funext hx3
  unfold rW12 kW12
  simp only [dsq_coe]
  rw [sqrt_mul_self_coe (rd_nonneg x2 x3), sqrt_mul_self_coe (rd_nonneg x3 x1),
    sqrt_mul_self_coe (rd_nonneg x1 x2), ← EReal.coe_add, ← EReal.coe_sub]
  exact weights_agree x1 x2 x3 _

end Cert.CotLap

end
-- ==== Proof.RefValue.lean ====
/-
  The reference's result is `G`.

  The last stretch gives, at vertex `j` and coordinate `d`, two sums over the flat entries `u = 3 t + k` (edge `k`
  of face `t`): over the entries whose row end is `j`, of weight times the column end's vertex, and over the
  entries whose column end is `j`, of weight times the row end's vertex; and the same two sums of the bare
  weights. Written over pairs `(t, k)` and split by `k`, each corner of each face receives exactly the two
  terms of its message (and of its degree); the weights are the clamped ones because the corners are real points.
  Only commutativity and associativity of the sum are used.
-/
import proofs.«162177_j39814346834441_2_alg».proof.Proof.RefTail
import proofs.«162177_j39814346834441_2_alg».proof.Proof.Weights

noncomputable section

open scoped BigOperators

namespace Cert.ReferenceIdeal.Value

open Cert.ReferenceIdeal Cert.ReferenceIdeal.Gen Cert.ReferenceIdeal.HandRun Cert.ReferenceIdeal.TailIdx
open Idealize.ShloMosaic Idealize.ShloMosaic.ValueIdx Cert.CotLap

theorem ut_enc (t : Fin 3200000) (k : Fin 3) : ut (enc t k) = t := Fin.ext (enc_div t k)
theorem uk_enc (t : Fin 3200000) (k : Fin 3) : uk (enc t k) = k := Fin.ext (enc_mod t k)

theorem vb_gv (b : Fin 8) (n : Fin 200000) : vb (gv b n) = b :=
  Fin.ext (by show (b.val * 200000 + n.val) / 200000 = b.val; have := n.isLt; omega)
theorem vn_gv (b : Fin 8) (n : Fin 200000) : vn (gv b n) = n :=
  Fin.ext (by show (b.val * 200000 + n.val) % 200000 = n.val; have := n.isLt; omega)

/-- The flattened vertex array at a corner's vertex is that corner. -/
theorem Xf_tgt (V : FVec Ideal S8x200000x3 .f32) (Fc : IVec S8x400000x3 32) (t : Fin 3200000) (k d : Fin 3) :
    Xf V (tgt Fc t k) d = corner V Fc t k d := by
  unfold Xf tgt corner
  rw [vb_gv, vn_gv]

/-- A sum over the flat entries whose end `σ` is `j`, as a sum over the pairs. -/
theorem sum_end (σ : Fin 3 → Fin 3) (Fc : IVec S8x400000x3 32) (j : Fin 1600000) (g : Fin 3200000 → Fin 3 → EReal) :
    ∑ u ∈ Finset.univ.filter (fun u : Fin 9600000 => endT σ Fc u = j), g (ut u) (uk u)
      = ∑ p ∈ (Finset.univ : Finset (Fin 3200000 × Fin 3)).filter (fun p => tgt Fc p.1 (σ p.2) = j), g p.1 p.2 := by
  rw [sum_filter_enc]
  refine Finset.sum_congr (Finset.filter_congr (fun p _ => ?_)) (fun p _ => ?_)
  · show tgt Fc (ut (enc p.1 p.2)) (σ (uk (enc p.1 p.2))) = j ↔ _
    rw [ut_enc, uk_enc]
  · rw [ut_enc, uk_enc]

theorem out_eq_G_of (V : FVec Ideal S8x200000x3 .f32) (Fc : IVec S8x400000x3 32)
    (hV : ∀ i, ∃ r : ℝ, V i = (r : EReal)) (hF : ∀ i, 0 ≤ (Fc i).toInt ∧ (Fc i).toInt < 200000)
    (h0 : ∀ t, stC (F := Ideal) V Fc (ix3 (fb t) (ff t) 0) = rW23 (corner V Fc t 0) (corner V Fc t 1) (corner V Fc t 2))
    (h1 : ∀ t, stC (F := Ideal) V Fc (ix3 (fb t) (ff t) 1) = rW31 (corner V Fc t 0) (corner V Fc t 1) (corner V Fc t 2))
    (h2 : ∀ t, stC (F := Ideal) V Fc (ix3 (fb t) (ff t) 2) = rW12 (corner V Fc t 0) (corner V Fc t 1) (corner V Fc t 2)) :
    HandRun.out (F := Ideal) V Fc = G V Fc := by
  have hc : ∀ t k d, ∃ r : ℝ, corner V Fc t k d = (r : EReal) := fun t k d => hV _
  have c0 : ∀ t, stC (F := Ideal) V Fc (ix3 (fb t) (ff t) 0) = kW23 (corner V Fc t 0) (corner V Fc t 1) (corner V Fc t 2) :=
    fun t => (h0 t).trans (rW23_eq_kW23 _ _ _ (hc t 0) (hc t 1) (hc t 2))
  have c1 : ∀ t, stC (F := Ideal) V Fc (ix3 (fb t) (ff t) 1) = kW31 (corner V Fc t 0) (corner V Fc t 1) (corner V Fc t 2) :=
    fun t => (h1 t).trans (rW31_eq_kW31 _ _ _ (hc t 0) (hc t 1) (hc t 2))
  have c2 : ∀ t, stC (F := Ideal) V Fc (ix3 (fb t) (ff t) 2) = kW12 (corner V Fc t 0) (corner V Fc t 1) (corner V Fc t 2) :=
    fun t => (h2 t).trans (rW12_eq_kW12 _ _ _ (hc t 0) (hc t 1) (hc t 2))
  funext i
  obtain ⟨j, d, rfl⟩ : ∃ (j : Fin 1600000) (d : Fin 3), i = ix2 j d := ⟨i 0, i 1, eq_ix2 i⟩
  have hG : G V Fc (ix2 j d) = acc V Fc ⟨d.val, by have := d.isLt; omega⟩ j - acc V Fc 3 j * Xf V j d := rfl
  rw [hG]
  unfold HandRun.out
  rw [stTail_eq, tail2_apply V _ Fc hF j d]
  have e1 : (∑ u ∈ Finset.univ.filter (fun u : Fin 9600000 => endT prm_r Fc u = j),
        Wf (stC (F := Ideal) V Fc) u * Xf V (endT prm_c Fc u) d)
      = ∑ p ∈ (Finset.univ : Finset (Fin 3200000 × Fin 3)).filter (fun p => tgt Fc p.1 (prm_r p.2) = j),
        stC (F := Ideal) V Fc (ix3 (fb p.1) (ff p.1) p.2) * Xf V (tgt Fc p.1 (prm_c p.2)) d :=
    sum_end prm_r Fc j (fun t k => stC (F := Ideal) V Fc (ix3 (fb t) (ff t) k) * Xf V (tgt Fc t (prm_c k)) d)
  have e2 : (∑ u ∈ Finset.univ.filter (fun u : Fin 9600000 => endT prm_c Fc u = j),
        Wf (stC (F := Ideal) V Fc) u * Xf V (endT prm_r Fc u) d)
      = ∑ p ∈ (Finset.univ : Finset (Fin 3200000 × Fin 3)).filter (fun p => tgt Fc p.1 (prm_c p.2) = j),
        stC (F := Ideal) V Fc (ix3 (fb p.1) (ff p.1) p.2) * Xf V (tgt Fc p.1 (prm_r p.2)) d :=
    sum_end prm_c Fc j (fun t k => stC (F := Ideal) V Fc (ix3 (fb t) (ff t) k) * Xf V (tgt Fc t (prm_r k)) d)
  have e3 : (∑ u ∈ Finset.univ.filter (fun u : Fin 9600000 => endT prm_r Fc u = j), Wf (stC (F := Ideal) V Fc) u)
      = ∑ p ∈ (Finset.univ : Finset (Fin 3200000 × Fin 3)).filter (fun p => tgt Fc p.1 (prm_r p.2) = j),
        stC (F := Ideal) V Fc (ix3 (fb p.1) (ff p.1) p.2) :=
    sum_end prm_r Fc j (fun t k => stC (F := Ideal) V Fc (ix3 (fb t) (ff t) k))
  have e4 : (∑ u ∈ Finset.univ.filter (fun u : Fin 9600000 => endT prm_c Fc u = j), Wf (stC (F := Ideal) V Fc) u)
      = ∑ p ∈ (Finset.univ : Finset (Fin 3200000 × Fin 3)).filter (fun p => tgt Fc p.1 (prm_c p.2) = j),
        stC (F := Ideal) V Fc (ix3 (fb p.1) (ff p.1) p.2) :=
    sum_end prm_c Fc j (fun t k => stC (F := Ideal) V Fc (ix3 (fb t) (ff t) k))
  rw [e1, e2, e3, e4]
  rw [two_passes (tgt Fc) j (fun t k => stC (F := Ideal) V Fc (ix3 (fb t) (ff t) k) * Xf V (tgt Fc t (prm_c k)) d)
      (fun t k => stC (F := Ideal) V Fc (ix3 (fb t) (ff t) k) * Xf V (tgt Fc t (prm_r k)) d),
    two_passes (tgt Fc) j (fun t k => stC (F := Ideal) V Fc (ix3 (fb t) (ff t) k))
      (fun t k => stC (F := Ideal) V Fc (ix3 (fb t) (ff t) k))]
  have hd : d.val < 3 := d.isLt
  unfold acc
  refine congrArg₂ HSub.hSub (congrArg₂ HAdd.hAdd (congrArg₂ HAdd.hAdd ?_ ?_) ?_)
    (congrArg₂ HMul.hMul (congrArg₂ HAdd.hAdd (congrArg₂ HAdd.hAdd ?_ ?_) ?_) rfl)
  · refine Finset.sum_congr rfl (fun t _ => ?_)
    show stC (F := Ideal) V Fc (ix3 (fb t) (ff t) 2) * Xf V (tgt Fc t (prm_c 2)) d
        + stC (F := Ideal) V Fc (ix3 (fb t) (ff t) 1) * Xf V (tgt Fc t (prm_r 1)) d
      = msg1 (corner V Fc t 0) (corner V Fc t 1) (corner V Fc t 2) ⟨d.val, by omega⟩
    rw [c2, c1, prm_c_2, prm_r_1, Xf_tgt, Xf_tgt]
    unfold msg1
    rw [dif_pos hd]
  · refine Finset.sum_congr rfl (fun t _ => ?_)
    show stC (F := Ideal) V Fc (ix3 (fb t) (ff t) 0) * Xf V (tgt Fc t (prm_c 0)) d
        + stC (F := Ideal) V Fc (ix3 (fb t) (ff t) 2) * Xf V (tgt Fc t (prm_r 2)) d
      = msg2 (corner V Fc t 0) (corner V Fc t 1) (corner V Fc t 2) ⟨d.val, by omega⟩
    rw [c0, c2, prm_c_0, prm_r_2, Xf_tgt, Xf_tgt]
    unfold msg2
    rw [dif_pos hd]
  · refine Finset.sum_congr rfl (fun t _ => ?_)
    show stC (F := Ideal) V Fc (ix3 (fb t) (ff t) 1) * Xf V (tgt Fc t (prm_c 1)) d
        + stC (F := Ideal) V Fc (ix3 (fb t) (ff t) 0) * Xf V (tgt Fc t (prm_r 0)) d
      = msg3 (corner V Fc t 0) (corner V Fc t 1) (corner V Fc t 2) ⟨d.val, by omega⟩
    rw [c1, c0, prm_c_1, prm_r_0, Xf_tgt, Xf_tgt]
    unfold msg3
    rw [dif_pos hd]
  · refine Finset.sum_congr rfl (fun t _ => ?_)
    show stC (F := Ideal) V Fc (ix3 (fb t) (ff t) 2) + stC (F := Ideal) V Fc (ix3 (fb t) (ff t) 1)
      = msg1 (corner V Fc t 0) (corner V Fc t 1) (corner V Fc t 2) 3
    rw [c2, c1]
    unfold msg1
    rw [dif_neg (by decide)]
  · refine Finset.sum_congr rfl (fun t _ => ?_)
    show stC (F := Ideal) V Fc (ix3 (fb t) (ff t) 0) + stC (F := Ideal) V Fc (ix3 (fb t) (ff t) 2)
      = msg2 (corner V Fc t 0) (corner V Fc t 1) (corner V Fc t 2) 3
    rw [c0, c2]
    unfold msg2
    rw [dif_neg (by decide)]
  · refine Finset.sum_congr rfl (fun t _ => ?_)
    show stC (F := Ideal) V Fc (ix3 (fb t) (ff t) 1) + stC (F := Ideal) V Fc (ix3 (fb t) (ff t) 0)
      = msg3 (corner V Fc t 0) (corner V Fc t 1) (corner V Fc t 2) 3
    rw [c1, c0]
    unfold msg3
    rw [dif_neg (by decide)]

end Cert.ReferenceIdeal.Value

end
-- ==== Proof.lean ====
/-
  The cotangent Laplacian of eight triangle meshes, computed by a kernel over the faces between host gathers and
  scatter-adds, against the same computation in plain array operations: both programs, read over the extended
  reals, end with the one array `Cert.CotLap.G V F` (Proof/Spec.lean) of the vertex array `V` and the face array
  `F`, provided every entry of `V` is a real number and every entry of `F` is a vertex number in `[0, 200000)`.

  * The kernel side (Proof/KPre, KPreVal, KBody, KRegion, KTail, KValue): the three arrays the region reads hold the
    three corners of every face; at every face the body computes the three cotangent weights from the SQUARED edge
    lengths, clamping Heron's product at zero, and leaves for each corner its message and degree; three
    scatter-adds sum these at the corners' vertices, and the result is messages minus degree times vertex.
  * The reference side (Proof/RefOps, RefRun, RefWeights, RefIdx, RefScatter, RefTail, RefValue): the weights are
    computed from the edge lengths squared again, without the clamp, dividing by the area and then by four; the
    messages are scattered edge by edge in two passes over all (face, edge) pairs.
  * The two weights agree on real corners (Proof/Weights): Heron's product of three Euclidean distances is not
    negative (triangle inequality), so the clamp is the identity; a square root squared is the radicand; and
    `n / (2 a · 4) = n / (2 a) / 4` also when `a = 0`, where both sides are the infinity of `n`'s sign.
  * The two scatter orders agree (Proof/SumIdx): a sum in the extended reals may be regrouped freely.
  The vertex numbers must be in range for the two programs to read the same vertices: the reference's messages
  index the flattened vertex array by `number + 200000 · mesh`, its weights index mesh by mesh.
-/
import proofs.«162177_j39814346834441_2_alg».proof.Defs
import proofs.«162177_j39814346834441_2_alg».proof.Proof.Gen.Kernel
import proofs.«162177_j39814346834441_2_alg».proof.Proof.Gen.Kernel.Frame
import proofs.«162177_j39814346834441_2_alg».proof.Proof.Gen.KernelIdeal
import proofs.«162177_j39814346834441_2_alg».proof.Proof.Gen.KernelIdeal.Frame
import proofs.«162177_j39814346834441_2_alg».proof.Proof.Gen.ReferenceIdeal
import proofs.«162177_j39814346834441_2_alg».proof.Proof.Gen.Pre_finite_inputs
import proofs.«162177_j39814346834441_2_alg».proof.Proof.PreDecode
import proofs.«162177_j39814346834441_2_alg».proof.Proof.KValue
import proofs.«162177_j39814346834441_2_alg».proof.Proof.RefRun
import proofs.«162177_j39814346834441_2_alg».proof.Proof.RefWeights
import proofs.«162177_j39814346834441_2_alg».proof.Proof.RefValue
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.HandRun.run (F := Ideal) m ρ)

/-- Both programs end with `G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.Pre_finite_inputs.Decode.decode _ _ (hpre c)
  refine ⟨fun c => Cert.CotLap.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ (fun c => (hdec c).2), ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.ReferenceIdeal.Value.out_eq_G_of _ _ (hdec c).1 (hdec c).2
    (fun t => Cert.ReferenceIdeal.Weights.stC_apply0 _ _ (hdec c).2 _ _)
    (fun t => Cert.ReferenceIdeal.Weights.stC_apply1 _ _ (hdec c).2 _ _)
    (fun t => Cert.ReferenceIdeal.Weights.stC_apply2 _ _ (hdec c).2 _ _)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
